-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S3x128 : Shape := ⟨2, ![3, 128]⟩
abbrev S2x128x128 : Shape := ⟨3, ![2, 128, 128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S40x128 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S40x128 .f32 := Host.absf main_arg10
  let main_cst_16 : FVec F S_ .f32 := constant S_ .f32 0x7F800000#32
  let main_v45 : FVec F S40x128 .f32 := broadcastInDim S40x128 ![] bcast_S_S40x128 main_cst_16
  let main_v46 : IVec S40x128 1 := cmpf .olt main_v44 main_v45
  let main_c_17 : IVec S_ 1 := constantI S_ 1 1#1
  let main_v47 : IVec S_ 1 := (fun x v => Host.reduce IntOp.andi x v reducesTo_S40x128_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S3x128 .f32) (main_arg6 : FVec F S2x128x128 .f32) (main_arg7 : FVec F S2x128x128 .f32) (main_arg8 : FVec F S128x128 .f32) (main_arg9 : FVec F S128 .f32) (main_arg10 : FVec F S40x128 .f32) (main_arg11 : FVec F S40 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128x128 .f32 := Host.absf main_arg7
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x640000 32) (main_arg2 : FVec F S128x128 .f32) (main_arg3 : FVec F S128 .f32) (main_arg4 : FVec F S3x128 .f32) (main_arg5 : FVec F S3x128 .f32) (main_arg6 : FVec F S2x128x128 .f32) (main_arg7 : FVec F S2x128x128 .f32) (main_arg8 : FVec F S128x128 .f32) (main_arg9 : FVec F S128 .f32) (main_arg10 : FVec F S40x128 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S3x128 : Shape := ⟨2, ![3, 128]⟩
abbrev S2x128x128 : Shape := ⟨3, ![2, 128, 128]⟩
abbrev S40x128 : Shape := ⟨2, ![40, 128]⟩
abbrev S40 : Shape := ⟨1, ![40]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S1x128 : Shape := ⟨2, ![1, 128]⟩
abbrev S2000x128 : Shape := ⟨2, ![2000, 128]⟩
abbrev S640000x128 : Shape := ⟨2, ![640000, 128]⟩
abbrev S1x128x128 : Shape := ⟨3, ![1, 128, 128]⟩
abbrev S128x40 : Shape := ⟨2, ![128, 40]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 151
  | .vmem => 56
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S3x128, .f32⟩
  | 5 => ⟨S3x128, .f32⟩
  | 6 => ⟨S2x128x128, .f32⟩
  | 7 => ⟨S2x128x128, .f32⟩
  | 8 => ⟨S128x128, .f32⟩
  | 9 => ⟨S128, .f32⟩
  | 10 => ⟨S40x128, .f32⟩
  | 11 => ⟨S40, .f32⟩
  | 12 => ⟨S1x640000, .i32⟩
  | 13 => ⟨S640000, .i32⟩
  | 14 => ⟨S1x640000, .i32⟩
  | 15 => ⟨S640000, .i32⟩
  | 16 => ⟨S_, .f32⟩
  | 17 => ⟨S640000, .f32⟩
  | 18 => ⟨S_, .f32⟩
  | 19 => ⟨S50000, .f32⟩
  | 20 => ⟨S640000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S128x128, .f32⟩
  | 30 => ⟨S1x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S50000x128, .f32⟩
  | 41 => ⟨S_, .f32⟩
  | 42 => ⟨S128, .f32⟩
  | 43 => ⟨S_, .f32⟩
  | 44 => ⟨S128, .f32⟩
  | 45 => ⟨S128, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S1x128, .f32⟩
  | 52 => ⟨S1x128, .f32⟩
  | 53 => ⟨S1x128, .f32⟩
  | 54 => ⟨S50000x128, .f32⟩
  | 55 => ⟨S128x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x128, .f32⟩
  | 65 => ⟨S_, .f32⟩
  | 66 => ⟨S50000x128, .f32⟩
  | 67 => ⟨S640000x1, .i32⟩
  | 68 => ⟨S50000x128, .f32⟩
  | 69 => ⟨S50000x128, .f32⟩
  | 70 => ⟨S50000x128, .f32⟩
  | 71 => ⟨S1x128x128, .f32⟩
  | 72 => ⟨S128x128, .f32⟩
  | 73 => ⟨S128x128, .f32⟩
  | 74 => ⟨S1x128x128, .f32⟩
  | 75 => ⟨S128x128, .f32⟩
  | 76 => ⟨S128x128, .f32⟩
  | 77 => ⟨S1x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S1x128, .f32⟩
  | 99 => ⟨S1x128, .f32⟩
  | 100 => ⟨S1x128, .f32⟩
  | 101 => ⟨S50000x128, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S_, .f32⟩
  | 112 => ⟨S50000x128, .f32⟩
  | 113 => ⟨S640000x1, .i32⟩
  | 114 => ⟨S50000x128, .f32⟩
  | 115 => ⟨S50000x128, .f32⟩
  | 116 => ⟨S50000x128, .f32⟩
  | 117 => ⟨S1x128x128, .f32⟩
  | 118 => ⟨S128x128, .f32⟩
  | 119 => ⟨S128x128, .f32⟩
  | 120 => ⟨S1x128x128, .f32⟩
  | 121 => ⟨S128x128, .f32⟩
  | 122 => ⟨S128x128, .f32⟩
  | 123 => ⟨S1x128, .f32⟩
  | 124 => ⟨S50000x128, .f32⟩
  | 125 => ⟨S_, .f32⟩
  | 126 => ⟨S128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S1x128, .f32⟩
  | 17 => ⟨S1x128, .f32⟩
  | 18 => ⟨S1x128, .f32⟩
  | 19 => ⟨S50000x128, .f32⟩
  | 20 => ⟨S128x40, .f32⟩
  | 21 => ⟨S1x40, .f32⟩
  | 22 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x40, .f32⟩
  | .local _ .vmem, ⟨53, _⟩ => ⟨S1x40, .f32⟩
  | .local _ .vmem, ⟨54, _⟩ => ⟨S2000x40, .f32⟩
  | .local _ .vmem, ⟨55, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_13 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_15 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_16 : Ref sig .tc := ⟨.hbm, 125, rfl⟩
abbrev main_v95 : Ref sig .tc := ⟨.hbm, 126, rfl⟩
abbrev main_cst_17 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_18 : Ref sig .tc := ⟨.hbm, 134, rfl⟩
abbrev main_v102 : Ref sig .tc := ⟨.hbm, 135, rfl⟩
abbrev main_cst_19 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem3_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128_S1x128_0_0 : S3x128.Slices ![0, 0] S1x128
  shapeCasts_S1x128_S128 : S1x128.ShapeCasts S128
  shapeCasts_S2000x128_S2000x128 : S2000x128.ShapeCasts S2000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S3x128_S1x128_1_0 : S3x128.Slices ![1, 0] S1x128
  slices_S2x128x128_S1x128x128_1_0_0 : S2x128x128.Slices ![1, 0, 0] S1x128x128
  slices_S3x128_S1x128_2_0 : S3x128.Slices ![2, 0] S1x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S640000x1_S640000_n_0_0_1_wf : ScatterDims.WF S50000 S640000x1 S640000 [] [0] [0] 1
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x40.size a ≤ S50000x40.size a
  hwx6_3 : ∀ i : grid6.Coords, EltTy.bits .f32 = 32 ∨ (Rect.block (s := S50000x40) S2000x40.size (cc6_transform_3 i) (hinb6_3 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v86) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v94) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v94) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v110) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v112) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v113) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v113) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v114) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v115) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v116) S2000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S3x128 : Shape := ⟨2, ![3, 128]⟩
abbrev S2x128x128 : Shape := ⟨3, ![2, 128, 128]⟩
abbrev S40x128 : Shape := ⟨2, ![40, 128]⟩
abbrev S40 : Shape := ⟨1, ![40]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S1x128 : Shape := ⟨2, ![1, 128]⟩
abbrev S640000x128 : Shape := ⟨2, ![640000, 128]⟩
abbrev S1x128x128 : Shape := ⟨3, ![1, 128, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 208
  | .vmem => 0
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S3x128, .f32⟩
  | 5 => ⟨S3x128, .f32⟩
  | 6 => ⟨S2x128x128, .f32⟩
  | 7 => ⟨S2x128x128, .f32⟩
  | 8 => ⟨S128x128, .f32⟩
  | 9 => ⟨S128, .f32⟩
  | 10 => ⟨S40x128, .f32⟩
  | 11 => ⟨S40, .f32⟩
  | 12 => ⟨S1x640000, .i32⟩
  | 13 => ⟨S640000, .i32⟩
  | 14 => ⟨S1x640000, .i32⟩
  | 15 => ⟨S640000, .i32⟩
  | 16 => ⟨S_, .f32⟩
  | 17 => ⟨S640000, .f32⟩
  | 18 => ⟨S_, .f32⟩
  | 19 => ⟨S50000, .f32⟩
  | 20 => ⟨S640000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S128x128, .f32⟩
  | 30 => ⟨S50000x128, .f32⟩
  | 31 => ⟨S1x128, .f32⟩
  | 32 => ⟨S50000x128, .f32⟩
  | 33 => ⟨S50000x128, .f32⟩
  | 34 => ⟨S1x128, .f32⟩
  | 35 => ⟨S128, .f32⟩
  | 36 => ⟨S1x128, .f32⟩
  | 37 => ⟨S128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S_, .f32⟩
  | 56 => ⟨S128, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S_, .f32⟩
  | 81 => ⟨S50000x128, .f32⟩
  | 82 => ⟨S640000x1, .i32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S128x128, .f32⟩
  | 89 => ⟨S50000x128, .f32⟩
  | 90 => ⟨S1x128x128, .f32⟩
  | 91 => ⟨S128x128, .f32⟩
  | 92 => ⟨S128x128, .f32⟩
  | 93 => ⟨S50000x128, .f32⟩
  | 94 => ⟨S50000x128, .f32⟩
  | 95 => ⟨S128x128, .f32⟩
  | 96 => ⟨S50000x128, .f32⟩
  | 97 => ⟨S1x128, .f32⟩
  | 98 => ⟨S50000x128, .f32⟩
  | 99 => ⟨S50000x128, .f32⟩
  | 100 => ⟨S1x128, .f32⟩
  | 101 => ⟨S128, .f32⟩
  | 102 => ⟨S1x128, .f32⟩
  | 103 => ⟨S128, .f32⟩
  | 104 => ⟨S_, .f32⟩
  | 105 => ⟨S128, .f32⟩
  | 106 => ⟨S_, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S50000x128, .f32⟩
  | 113 => ⟨S_, .f32⟩
  | 114 => ⟨S128, .f32⟩
  | 115 => ⟨S_, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S_, .i32⟩
  | 10 => ⟨S640000, .i32⟩
  | 11 => ⟨S640000, .i1⟩
  | 12 => ⟨S_, .i32⟩
  | 13 => ⟨S640000, .i32⟩
  | 14 => ⟨S640000, .i32⟩
  | 15 => ⟨S640000, .i32⟩
  | 16 => ⟨S640000x1, .i32⟩
  | 17 => ⟨S640000x128, .f32⟩
  | 18 => ⟨S_, .f32⟩
  | 19 => ⟨S50000x128, .f32⟩
  | 20 => ⟨S640000x1, .i32⟩
  | 21 => ⟨S50000x128, .f32⟩
  | 22 => ⟨S50000x128, .f32⟩
  | 23 => ⟨S50000x128, .f32⟩
  | 24 => ⟨S1x128x128, .f32⟩
  | 25 => ⟨S128x128, .f32⟩
  | 26 => ⟨S128x128, .f32⟩
  | 27 => ⟨S50000x128, .f32⟩
  | 28 => ⟨S1x128x128, .f32⟩
  | 29 => ⟨S128x128, .f32⟩
  | 30 => ⟨S128x128, .f32⟩
  | 31 => ⟨S50000x128, .f32⟩
  | 32 => ⟨S50000x128, .f32⟩
  | 33 => ⟨S128x128, .f32⟩
  | 34 => ⟨S50000x128, .f32⟩
  | 35 => ⟨S1x128, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S50000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S128x40, .f32⟩
  | 76 => ⟨S50000x40, .f32⟩
  | 77 => ⟨S1x40, .f32⟩
  | 78 => ⟨S50000x40, .f32⟩
  | 79 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_cst : Ref sig .tc := ⟨.hbm, 68, rfl⟩
abbrev main_call0_v0 : Ref sig .tc := ⟨.hbm, 69, rfl⟩
abbrev main_v47 : Ref sig .tc := ⟨.hbm, 70, rfl⟩
abbrev main_c : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_cst_11 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_12 : Ref sig .tc := ⟨.hbm, 113, rfl⟩
abbrev main_v85 : Ref sig .tc := ⟨.hbm, 114, rfl⟩
abbrev main_cst_13 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_14 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_call1_cst : Ref sig .tc := ⟨.hbm, 134, rfl⟩
abbrev main_call1_v0 : Ref sig .tc := ⟨.hbm, 135, rfl⟩
abbrev main_v103 : Ref sig .tc := ⟨.hbm, 136, rfl⟩
abbrev main_c_15 : Ref sig .tc := ⟨.hbm, 137, rfl⟩
abbrev main_v104 : Ref sig .tc := ⟨.hbm, 138, rfl⟩
abbrev main_v105 : Ref sig .tc := ⟨.hbm, 139, rfl⟩
abbrev main_c_16 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_17 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_18 : Ref sig .tc := ⟨.hbm, 170, rfl⟩
abbrev main_v134 : Ref sig .tc := ⟨.hbm, 171, rfl⟩
abbrev main_cst_19 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_20 : Ref sig .tc := ⟨.hbm, 179, rfl⟩
abbrev main_v141 : Ref sig .tc := ⟨.hbm, 180, rfl⟩
abbrev main_cst_21 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_22 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_call2_cst : Ref sig .tc := ⟨.hbm, 200, rfl⟩
abbrev main_call2_v0 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128_S1x128_0_0 : S3x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S3x128_S1x128_1_0 : S3x128.Slices ![1, 0] S1x128
  slices_S2x128x128_S1x128x128_1_0_0 : S2x128x128.Slices ![1, 0, 0] S1x128x128
  slices_S3x128_S1x128_2_0 : S3x128.Slices ![2, 0] S1x128
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x40_S50000x40_1_0_0_1_n_n_wf : DotDims.WF S50000x128 S128x40 S50000x40 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KRun.lean ====
/-
  The idealized kernel's run with its RESULT named: every weakly fair execution of @main terminates, nothing faults, the
  twelve argument arrays end as launched, and the result array `main_v116` ends at what the last boundary of the
  program's fold through its host stretches and its seven kernel regions holds there (`Gen.W14`).

  The generated frame proof reads the last thread state "every unscoped buffer at `W14`'s contents" against the final
  memory and keeps only the arguments; here the same launch is read at the result buffer as well.  What `W14` holds at
  `main_v116` as a function of the arguments is the business of the value modules.
-/
import proofs.«139068_j1623497638159_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's fourteen segments, its last thread state read at the result buffer and at every argument. -/
theorem run_result : θ_run defs (onTc (τ := τ) (main (F := F))) ⟨m, fun _ => 0, ρ⟩ (fun r => ∀ c : Dev nD,
      r.2.mem ((c.tc : Thread nD τ).loc main_v116) = W14 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v116 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.KRun

end
-- ==== Proof.Spec.lean ====
/-
  The three dense node-wise maps of the network, each as ONE function of whole arrays, entry by entry, on the extended
  reals.  Rows are nodes, columns are features.

  * `linBias x w b`   : the affine map  (x · w)(p, o) + b(o),  the bias given as a row [1, d];
  * `bnRelu p μ v γ β` : the normalisation of column o by a given mean μ(o) and variance v(o), scaled by γ(o), shifted by
                          β(o), followed by the positive part:  max (((p(r,o) − μ(o)) · rsqrt (v(o) + ε)) · γ(o) + β(o), 0),
                          with ε the single-precision word nearest 1e-5 — the four column statistics given as rows [1, d];
  * `sage a h wl wr ww b` : the neighbour/root combination followed by the shared linear map,
                          ((a · wl + h · wr) · ww)(p, o) + b(o).

  No law of arithmetic is used anywhere: both programs compute these very expressions, in this association.
-/
import Idealize.ShloMosaic.Lib.ValueIdx
import Idealize.ShloMosaic.PureOps.Ideal

noncomputable section

open scoped BigOperators

namespace Cert.Spec

open Idealize.ShloMosaic Idealize.ShloMosaic.ValueIdx

/-- The word of ε = 1e-5 in single precision, as an extended real. -/
abbrev eps : EReal := Ideal.ofBits .f32 0x3727C5AC#32
/-- The zero word, as an extended real. -/
abbrev zero : EReal := Ideal.ofBits .f32 0x00000000#32

/-- (x · w)(p, o) + b(o): an affine map applied to every row. -/
def linBias {n a d : ℕ} (x : FVec Ideal ⟨2, ![n, a]⟩ .f32) (w : FVec Ideal ⟨2, ![a, d]⟩ .f32)
    (b : FVec Ideal ⟨2, ![1, d]⟩ .f32) : FVec Ideal ⟨2, ![n, d]⟩ .f32 :=
  fun i => ((∑ k : Fin a, (x (ix2 (i 0) k) : EReal) * w (ix2 k (i 1))) + b (ix2 (0 : Fin 1) (i 1)) : EReal)

/-- Column-wise normalisation by given statistics, then the positive part. -/
def bnRelu {n d : ℕ} (p : FVec Ideal ⟨2, ![n, d]⟩ .f32) (mean var scale bias : FVec Ideal ⟨2, ![1, d]⟩ .f32) :
    FVec Ideal ⟨2, ![n, d]⟩ .f32 :=
  fun i => (max ((((p i : EReal) - mean (ix2 (0 : Fin 1) (i 1))) * Ideal.rsqrt ((var (ix2 (0 : Fin 1) (i 1)) : EReal) + eps))
      * scale (ix2 (0 : Fin 1) (i 1)) + bias (ix2 (0 : Fin 1) (i 1))) zero : EReal)

/-- ((a · wl + h · wr) · ww)(p, o) + b(o). -/
def sage {n d : ℕ} (a h : FVec Ideal ⟨2, ![n, d]⟩ .f32) (wl wr ww : FVec Ideal ⟨2, ![d, d]⟩ .f32)
    (b : FVec Ideal ⟨2, ![1, d]⟩ .f32) : FVec Ideal ⟨2, ![n, d]⟩ .f32 :=
  fun i => ((∑ k' : Fin d, ((∑ k : Fin d, (a (ix2 (i 0) k) : EReal) * wl (ix2 k k'))
      + (∑ k : Fin d, (h (ix2 (i 0) k) : EReal) * wr (ix2 k k'))) * ww (ix2 k' (i 1))) + b (ix2 (0 : Fin 1) (i 1)) : EReal)

end Cert.Spec

end
-- ==== Proof.Net.lean ====
/-
  The whole network as ONE function of the twelve argument arrays, on the extended reals.

  The graph side (the in-degree of every node, the mean of the neighbours' rows) and the column statistics of the batch
  normalisation are spelt with the host operations exactly as both programs print them, so that neither proof ever has to
  open them: `invDeg`, `agg`, `colMean`, `colVar` are carried as opaque functions.  The dense node-wise maps are
  `Spec.linBias`, `Spec.bnRelu`, `Spec.sage`.

      pre₀ = x · fc0ᵀ + b₀                        h₀ = relu (bn₀ pre₀)
      preₗ = (agg hₗ₋₁ · linlₗᵀ + hₗ₋₁ · linrₗᵀ) · Wᵀ + b_W     hₗ = relu (bnₗ preₗ)        (l = 1, 2)
      out  = h₂ · outᵀ + b_out
-/
import proofs.«139068_j1623497638159_1_alg».proof.Proof.Gen.KernelIdeal
import proofs.«139068_j1623497638159_1_alg».proof.Proof.Spec

noncomputable section

namespace Cert.Net

open Idealize.ShloMosaic Cert.KernelIdeal Cert.KernelIdeal.Gen

/-- A float array of shape `s` at the ideal values. -/
abbrev Arr (s : Shape) := FVec Ideal s .f32
/-- An integer array of shape `s`. -/
abbrev ArrI (s : Shape) := IVec s 32

/-- Row 0 of the edge list: the source node of every edge. -/
def src (e : ArrI S2x640000) : ArrI S640000 :=
  shapeCast _ (extractStridedSlice S1x640000 ![0, 0] e slices_S2x640000_S1x640000_0_0) shapeCasts_S1x640000_S640000
/-- Row 1 of the edge list: the destination node of every edge. -/
def dst (e : ArrI S2x640000) : ArrI S640000 :=
  shapeCast _ (extractStridedSlice S1x640000 ![1, 0] e slices_S2x640000_S1x640000_1_0) shapeCasts_S1x640000_S640000

/-- 1 / max (in-degree, 1), as a column [N, 1]. -/
def invDeg (e : ArrI S2x640000) : Arr S50000x1 :=
  broadcastInDim S50000x1 ![0] bcast_S50000_S50000x1_0
    (Host.divf (F := Ideal) (broadcastInDim S50000 ![] bcast_S_S50000 (constant (F := Ideal) S_ .f32 0x3F800000#32))
      (maximumf
        (Host.scatterAdd (F := Ideal) scatter_S50000_S640000x1_S640000_n_0_0_1
          (broadcastInDim S50000 ![] bcast_S_S50000 (constant (F := Ideal) S_ .f32 0x00000000#32))
          (broadcastInDim S640000x1 ![0] bcast_S640000_S640000x1_0 (dst e))
          (broadcastInDim S640000 ![] bcast_S_S640000 (constant (F := Ideal) S_ .f32 0x3F800000#32)))
        (broadcastInDim S50000 ![] bcast_S_S50000 (constant (F := Ideal) S_ .f32 0x3F800000#32))))

/-- The source indices as the gather takes them (a negative index wrapped by N). -/
def srcIdx (e : ArrI S2x640000) : ArrI S640000x1 :=
  broadcastInDim S640000x1 ![0] bcast_S640000_S640000x1_0
    (select (cmpi .slt (src e) (broadcastInDim S640000 ![] bcast_S_S640000 (constantI S_ 32 0#32)))
      (addi (src e) (broadcastInDim S640000 ![] bcast_S_S640000 (constantI S_ 32 50000#32))) (src e))

/-- The mean of the rows of `h` over each node's in-neighbours: gather by source, add by destination, scale by 1/degree. -/
def agg (h : Arr S50000x128) (e : ArrI S2x640000) : Arr S50000x128 :=
  mulf
    (Host.scatterAdd (F := Ideal) scatter_S50000x128_S640000x1_S640000x128_1_0_0_1
      (broadcastInDim S50000x128 ![] bcast_S_S50000x128 (constant (F := Ideal) S_ .f32 0x00000000#32))
      (broadcastInDim S640000x1 ![0] bcast_S640000_S640000x1_0 (dst e))
      (Host.gather gather_S50000x128_S640000x1_S640000x128_1_0_n_n_0_1_1128 h (srcIdx e)))
    (broadcastInDim S50000x128 ![0, 1] bcast_S50000x1_S50000x128_0_1 (invDeg e))

/-- The mean of every column. -/
def colMean (p : Arr S50000x128) : Arr S128 :=
  Host.divf (F := Ideal)
    (Host.reduceAdd (F := Ideal) p (constant (F := Ideal) S_ .f32 0x00000000#32) reducesTo_S50000x128_S128_d0 h_S_)
    (broadcastInDim S128 ![] bcast_S_S128 (constant (F := Ideal) S_ .f32 0x47435000#32))

/-- `p` with its column means taken off. -/
def centred (p : Arr S50000x128) : Arr S50000x128 :=
  subf p (broadcastInDim S50000x128 ![0, 1] bcast_S1x128_S50000x128_0_1
    (broadcastInDim S1x128 ![1] bcast_S128_S1x128_1 (colMean p)))

/-- The (biased) variance of every column. -/
def colVar (p : Arr S50000x128) : Arr S128 :=
  Host.divf (F := Ideal)
    (Host.reduceAdd (F := Ideal) (mulf (centred p) (centred p)) (constant (F := Ideal) S_ .f32 0x00000000#32)
      reducesTo_S50000x128_S128_d0 h_S_)
    (broadcastInDim S128 ![] bcast_S_S128 (constant (F := Ideal) S_ .f32 0x47435000#32))

/-- A vector [128] as a row [1, 128]. -/
def row (v : Arr S128) : Arr S1x128 := shapeCast _ v shapeCasts_S128_S1x128
/-- A vector [40] as a row [1, 40]. -/
def row40 (v : Arr S40) : Arr S1x40 := shapeCast _ v shapeCasts_S40_S1x40

/-- Row 0, 1, 2 of a [3, 128] table. -/
def tab0 (a : Arr S3x128) : Arr S128 :=
  shapeCast _ (extractStridedSlice S1x128 ![0, 0] a slices_S3x128_S1x128_0_0) shapeCasts_S1x128_S128
def tab1 (a : Arr S3x128) : Arr S128 :=
  shapeCast _ (extractStridedSlice S1x128 ![1, 0] a slices_S3x128_S1x128_1_0) shapeCasts_S1x128_S128
def tab2 (a : Arr S3x128) : Arr S128 :=
  shapeCast _ (extractStridedSlice S1x128 ![2, 0] a slices_S3x128_S1x128_2_0) shapeCasts_S1x128_S128

/-- The transpose of a square weight matrix. -/
def tr (a : Arr S128x128) : Arr S128x128 := transpose S128x128 [1, 0] a transposes_S128x128_S128x128_1_0
/-- The transpose of the [40, 128] head matrix. -/
def tr40 (a : Arr S40x128) : Arr S128x40 := transpose S128x40 [1, 0] a transposes_S40x128_S128x40_1_0
/-- Slab 0 / 1 of a [2, 128, 128] stack, transposed. -/
def slabT0 (a : Arr S2x128x128) : Arr S128x128 :=
  tr (shapeCast _ (extractStridedSlice S1x128x128 ![0, 0, 0] a slices_S2x128x128_S1x128x128_0_0_0) shapeCasts_S1x128x128_S128x128)
def slabT1 (a : Arr S2x128x128) : Arr S128x128 :=
  tr (shapeCast _ (extractStridedSlice S1x128x128 ![1, 0, 0] a slices_S2x128x128_S1x128x128_1_0_0) shapeCasts_S1x128x128_S128x128)

/-- Batch normalisation with the batch's own statistics, then the positive part. -/
def bn (p : Arr S50000x128) (sc bi : Arr S128) : Arr S50000x128 :=
  Spec.bnRelu p (row (colMean p)) (row (colVar p)) (row sc) (row bi)

/-- One graph-convolution block before its normalisation. -/
def conv (h : Arr S50000x128) (e : ArrI S2x640000) (wl wr : Arr S128x128) (x8 : Arr S128x128) (x9 : Arr S128) :
    Arr S50000x128 :=
  Spec.sage (agg h e) h wl wr (tr x8) (row x9)

def pre0 (x0 : Arr S50000x128) (x2 : Arr S128x128) (x3 : Arr S128) : Arr S50000x128 := Spec.linBias x0 (tr x2) (row x3)
def h0 (x0 : Arr S50000x128) (x2 : Arr S128x128) (x3 : Arr S128) (x4 x5 : Arr S3x128) : Arr S50000x128 :=
  bn (pre0 x0 x2 x3) (tab0 x4) (tab0 x5)
def h1 (x0 : Arr S50000x128) (x1 : ArrI S2x640000) (x2 : Arr S128x128) (x3 : Arr S128) (x4 x5 : Arr S3x128)
    (x6 x7 : Arr S2x128x128) (x8 : Arr S128x128) (x9 : Arr S128) : Arr S50000x128 :=
  bn (conv (h0 x0 x2 x3 x4 x5) x1 (slabT0 x6) (slabT0 x7) x8 x9) (tab1 x4) (tab1 x5)
def h2 (x0 : Arr S50000x128) (x1 : ArrI S2x640000) (x2 : Arr S128x128) (x3 : Arr S128) (x4 x5 : Arr S3x128)
    (x6 x7 : Arr S2x128x128) (x8 : Arr S128x128) (x9 : Arr S128) : Arr S50000x128 :=
  bn (conv (h1 x0 x1 x2 x3 x4 x5 x6 x7 x8 x9) x1 (slabT1 x6) (slabT1 x7) x8 x9) (tab2 x4) (tab2 x5)
/-- The network's result. -/
def out (x0 : Arr S50000x128) (x1 : ArrI S2x640000) (x2 : Arr S128x128) (x3 : Arr S128) (x4 x5 : Arr S3x128)
    (x6 x7 : Arr S2x128x128) (x8 : Arr S128x128) (x9 : Arr S128) (x10 : Arr S40x128) (x11 : Arr S40) : Arr S50000x40 :=
  Spec.linBias (h2 x0 x1 x2 x3 x4 x5 x6 x7 x8 x9) (tr40 x10) (row40 x11)

end Cert.Net

end
-- ==== Proof.KKeep.lean ====
/-
  The kernel program's fold through its host stretches, read at the buffers that matter.

  @main alternates seven stretches of host operations with seven kernel regions; the buffer contents at the fourteen
  boundaries are `Gen.W1 … Gen.W14`.  A buffer that no operation of a stretch writes, and that is not an array of a
  region, keeps its contents across it: the later argument arrays and the three graph vectors (sources, destinations,
  inverse degrees, computed once by the first stretch) are carried unchanged from the first boundary to wherever they
  are read.
-/
import proofs.«139068_j1623497638159_1_alg».proof.Proof.Gen.KernelIdeal.Frame
import proofs.«139068_j1623497638159_1_alg».proof.Proof.Net
import Idealize.ShloMosaic.Lib.StableHlo.Run

set_option maxRecDepth 16384

noncomputable section

namespace Cert.KernelIdeal.KKeep

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The buffers read long after they were last written: the arguments of the later layers and the graph vectors. -/
abbrev Llive : List (Ref sig .tc) :=
  [main_arg4, main_arg5, main_arg6, main_arg7, main_arg8, main_arg9, main_arg10, main_arg11, main_v1, main_v3, main_v12]

/-! ## One boundary to the next -/

theorem keep2 (c : Dev nD) (b : Ref sig .tc) (hb : b ∈ Llive) :
    W2 m ρ c (Proc.devRef .tc b) = W1 m ρ c (Proc.devRef .tc b) := by
  simp only [Llive, List.mem_cons, List.not_mem_nil, or_false] at hb
  rcases hb with rfl | rfl | rfl | rfl | rfl | rfl | rfl | rfl | rfl | rfl | rfl <;>
    exact W2_of_ne m ρ c _ (by decide)

theorem keep3 (c : Dev nD) (b : Ref sig .tc) (hb : b ∈ Llive) :
    W3 m ρ c (Proc.devRef .tc b) = W2 m ρ c (Proc.devRef .tc b) := by
  simp only [Llive, List.mem_cons, List.not_mem_nil, or_false] at hb
  rcases hb with rfl | rfl | rfl | rfl | rfl | rfl | rfl | rfl | rfl | rfl | rfl <;>
    exact StableHlo.after_of_forall_not_mem _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep4 (c : Dev nD) (b : Ref sig .tc) (hb : b ∈ Llive) :
    W4 m ρ c (Proc.devRef .tc b) = W3 m ρ c (Proc.devRef .tc b) := by
  simp only [Llive, List.mem_cons, List.not_mem_nil, or_false] at hb
  rcases hb with rfl | rfl | rfl | rfl | rfl | rfl | rfl | rfl | rfl | rfl | rfl <;>
    exact W4_of_ne m ρ c _ (by decide)

theorem keep5 (c : Dev nD) (b : Ref sig .tc) (hb : b ∈ Llive) :
    W5 m ρ c (Proc.devRef .tc b) = W4 m ρ c (Proc.devRef .tc b) := by
  simp only [Llive, List.mem_cons, List.not_mem_nil, or_false] at hb
  rcases hb with rfl | rfl | rfl | rfl | rfl | rfl | rfl | rfl | rfl | rfl | rfl <;>
    exact StableHlo.after_of_forall_not_mem _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep6 (c : Dev nD) (b : Ref sig .tc) (hb : b ∈ Llive) :
    W6 m ρ c (Proc.devRef .tc b) = W5 m ρ c (Proc.devRef .tc b) := by
  simp only [Llive, List.mem_cons, List.not_mem_nil, or_false] at hb
  rcases hb with rfl | rfl | rfl | rfl | rfl | rfl | rfl | rfl | rfl | rfl | rfl <;>
    exact W6_of_ne m ρ c _ (by decide)

theorem keep7 (c : Dev nD) (b : Ref sig .tc) (hb : b ∈ Llive) :
    W7 m ρ c (Proc.devRef .tc b) = W6 m ρ c (Proc.devRef .tc b) := by
  simp only [Llive, List.mem_cons, List.not_mem_nil, or_false] at hb
  rcases hb with rfl | rfl | rfl | rfl | rfl | rfl | rfl | rfl | rfl | rfl | rfl <;>
    exact StableHlo.after_of_forall_not_mem _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep8 (c : Dev nD) (b : Ref sig .tc) (hb : b ∈ Llive) :
    W8 m ρ c (Proc.devRef .tc b) = W7 m ρ c (Proc.devRef .tc b) := by
  simp only [Llive, List.mem_cons, List.not_mem_nil, or_false] at hb
  rcases hb with rfl | rfl | rfl | rfl | rfl | rfl | rfl | rfl | rfl | rfl | rfl <;>
    exact W8_of_ne m ρ c _ (by decide)

theorem keep9 (c : Dev nD) (b : Ref sig .tc) (hb : b ∈ Llive) :
    W9 m ρ c (Proc.devRef .tc b) = W8 m ρ c (Proc.devRef .tc b) := by
  simp only [Llive, List.mem_cons, List.not_mem_nil, or_false] at hb
  rcases hb with rfl | rfl | rfl | rfl | rfl | rfl | rfl | rfl | rfl | rfl | rfl <;>
    exact StableHlo.after_of_forall_not_mem _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep10 (c : Dev nD) (b : Ref sig .tc) (hb : b ∈ Llive) :
    W10 m ρ c (Proc.devRef .tc b) = W9 m ρ c (Proc.devRef .tc b) := by
  simp only [Llive, List.mem_cons, List.not_mem_nil, or_false] at hb
  rcases hb with rfl | rfl | rfl | rfl | rfl | rfl | rfl | rfl | rfl | rfl | rfl <;>
    exact W10_of_ne m ρ c _ (by decide)

theorem keep11 (c : Dev nD) (b : Ref sig .tc) (hb : b ∈ Llive) :
    W11 m ρ c (Proc.devRef .tc b) = W10 m ρ c (Proc.devRef .tc b) := by
  simp only [Llive, List.mem_cons, List.not_mem_nil, or_false] at hb
  rcases hb with rfl | rfl | rfl | rfl | rfl | rfl | rfl | rfl | rfl | rfl | rfl <;>
    exact StableHlo.after_of_forall_not_mem _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem keep12 (c : Dev nD) (b : Ref sig .tc) (hb : b ∈ Llive) :
    W12 m ρ c (Proc.devRef .tc b) = W11 m ρ c (Proc.devRef .tc b) := by
  simp only [Llive, List.mem_cons, List.not_mem_nil, or_false] at hb
  rcases hb with rfl | rfl | rfl | rfl | rfl | rfl | rfl | rfl | rfl | rfl | rfl <;>
    exact W12_of_ne m ρ c _ (by decide)

theorem keep13 (c : Dev nD) (b : Ref sig .tc) (hb : b ∈ Llive) :
    W13 m ρ c (Proc.devRef .tc b) = W12 m ρ c (Proc.devRef .tc b) := by
  simp only [Llive, List.mem_cons, List.not_mem_nil, or_false] at hb
  rcases hb with rfl | rfl | rfl | rfl | rfl | rfl | rfl | rfl | rfl | rfl | rfl <;>
    exact StableHlo.after_of_forall_not_mem _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## From the first boundary to every later even one -/

theorem live2 (c : Dev nD) (b : Ref sig .tc) (hb : b ∈ Llive) :
    W2 m ρ c (Proc.devRef .tc b) = W1 m ρ c (Proc.devRef .tc b) := keep2 m ρ c b hb

theorem live4 (c : Dev nD) (b : Ref sig .tc) (hb : b ∈ Llive) :
    W4 m ρ c (Proc.devRef .tc b) = W1 m ρ c (Proc.devRef .tc b) :=
  (keep4 m ρ c b hb).trans ((keep3 m ρ c b hb).trans (live2 m ρ c b hb))

theorem live6 (c : Dev nD) (b : Ref sig .tc) (hb : b ∈ Llive) :
    W6 m ρ c (Proc.devRef .tc b) = W1 m ρ c (Proc.devRef .tc b) :=
  (keep6 m ρ c b hb).trans ((keep5 m ρ c b hb).trans (live4 m ρ c b hb))

theorem live8 (c : Dev nD) (b : Ref sig .tc) (hb : b ∈ Llive) :
    W8 m ρ c (Proc.devRef .tc b) = W1 m ρ c (Proc.devRef .tc b) :=
  (keep8 m ρ c b hb).trans ((keep7 m ρ c b hb).trans (live6 m ρ c b hb))

theorem live10 (c : Dev nD) (b : Ref sig .tc) (hb : b ∈ Llive) :
    W10 m ρ c (Proc.devRef .tc b) = W1 m ρ c (Proc.devRef .tc b) :=
  (keep10 m ρ c b hb).trans ((keep9 m ρ c b hb).trans (live8 m ρ c b hb))

theorem live12 (c : Dev nD) (b : Ref sig .tc) (hb : b ∈ Llive) :
    W12 m ρ c (Proc.devRef .tc b) = W1 m ρ c (Proc.devRef .tc b) :=
  (keep12 m ρ c b hb).trans ((keep11 m ρ c b hb).trans (live10 m ρ c b hb))

end Cert.KernelIdeal.KKeep

end
-- ==== Proof.KChain.lean ====
/-
  What the kernel program's result buffer holds at the end of the fold through @main, as a function of the twelve argument
  arrays: the network `Cert.Net.out`.

  Each host stretch is read at the buffers the next region (or a later stretch) takes: the operations' composed term over
  the previous boundary's contents, which is a `Cert.Net` function by definition.  Each region's output array is the
  spec function of the arrays the region is entered with (`Regions`, proved per region elsewhere).  Buffers written
  long before they are read are carried across the boundaries in between (`KKeep`).
-/
import proofs.«139068_j1623497638159_1_alg».proof.Proof.Gen.KernelIdeal.Frame
import proofs.«139068_j1623497638159_1_alg».proof.Proof.Net
import proofs.«139068_j1623497638159_1_alg».proof.Proof.KKeep
import Idealize.ShloMosaic.Lib.StableHlo.Run

set_option maxRecDepth 16384

noncomputable section

namespace Cert.KernelIdeal.KChain

open Cert.KernelIdeal Cert.KernelIdeal.Gen Cert.KernelIdeal.KKeep
open Idealize.ShloMosaic Idealize.ShloMosaic.TcCoe Idealize.SL.Sem Idealize.ShloMosaic.StableHlo

/-- What each kernel region leaves in its output array, as one function of the arrays it reads (at any contents `V` the region
    is entered with): the seven facts the region modules prove. -/
structure Regions : Prop where
  r0 : ∀ (V : (c : Dev nD) → (b : Ref sig .tc) → Buf (Elt Ideal) ((c : Thread nD τ).loc b)) (c : Dev nD),
    (Gen.dat0 (F := Ideal) V c).arrAt 3 cfg0.N = Cert.Spec.linBias (V c main_arg0) (V c main_v13) (V c main_v14)
  r1 : ∀ (V : (c : Dev nD) → (b : Ref sig .tc) → Buf (Elt Ideal) ((c : Thread nD τ).loc b)) (c : Dev nD),
    (Gen.dat1 (F := Ideal) V c).arrAt 5 cfg1.N = Cert.Spec.bnRelu (V c main_v15) (V c main_v30) (V c main_v31) (V c main_v32) (V c main_v33)
  r2 : ∀ (V : (c : Dev nD) → (b : Ref sig .tc) → Buf (Elt Ideal) ((c : Thread nD τ).loc b)) (c : Dev nD),
    (Gen.dat2 (F := Ideal) V c).arrAt 6 cfg2.N = Cert.Spec.sage (V c main_v47) (V c main_v34) (V c main_v50) (V c main_v53) (V c main_v35) (V c main_v54)
  r3 : ∀ (V : (c : Dev nD) → (b : Ref sig .tc) → Buf (Elt Ideal) ((c : Thread nD τ).loc b)) (c : Dev nD),
    (Gen.dat3 (F := Ideal) V c).arrAt 5 cfg3.N = Cert.Spec.bnRelu (V c main_v55) (V c main_v70) (V c main_v71) (V c main_v72) (V c main_v73)
  r4 : ∀ (V : (c : Dev nD) → (b : Ref sig .tc) → Buf (Elt Ideal) ((c : Thread nD τ).loc b)) (c : Dev nD),
    (Gen.dat4 (F := Ideal) V c).arrAt 6 cfg4.N = Cert.Spec.sage (V c main_v86) (V c main_v74) (V c main_v89) (V c main_v92) (V c main_v35) (V c main_v93)
  r5 : ∀ (V : (c : Dev nD) → (b : Ref sig .tc) → Buf (Elt Ideal) ((c : Thread nD τ).loc b)) (c : Dev nD),
    (Gen.dat5 (F := Ideal) V c).arrAt 5 cfg5.N = Cert.Spec.bnRelu (V c main_v94) (V c main_v109) (V c main_v110) (V c main_v111) (V c main_v112)
  r6 : ∀ (V : (c : Dev nD) → (b : Ref sig .tc) → Buf (Elt Ideal) ((c : Thread nD τ).loc b)) (c : Dev nD),
    (Gen.dat6 (F := Ideal) V c).arrAt 3 cfg6.N = Cert.Spec.linBias (V c main_v113) (V c main_v114) (V c main_v115)

variable (m : (ℓ : Loc nD τ sig) → Buf (Elt Ideal) ℓ) (ρ : Dev nD → PrngReg)

/-! ## The first boundary: after the first host stretch -/

theorem w1_arg0 (c : Dev nD) : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem w1_live (c : Dev nD) (b : Ref sig .tc) (hb : b ∈ [main_arg4, main_arg5, main_arg6, main_arg7, main_arg8, main_arg9, main_arg10, main_arg11]) :
    W1 m ρ c (Proc.devRef .tc b) = m ((c : Thread nD τ).loc b) := by
  simp only [List.mem_cons, List.not_mem_nil, or_false] at hb
  rcases hb with rfl | rfl | rfl | rfl | rfl | rfl | rfl | rfl <;>
    exact (StableHlo.after_of_forall_not_mem _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem w1_v13 (c : Dev nD) : W1 m ρ c (Proc.devRef .tc main_v13) = Cert.Net.tr (m ((c : Thread nD τ).loc main_arg2)) := by
  show StableHlo.after hostOps0 (W0 m ρ c) (Proc.devRef .tc main_v13) = _
  after_results; rfl

theorem w1_v14 (c : Dev nD) : W1 m ρ c (Proc.devRef .tc main_v14) = Cert.Net.row (m ((c : Thread nD τ).loc main_arg3)) := by
  show StableHlo.after hostOps0 (W0 m ρ c) (Proc.devRef .tc main_v14) = _
  after_results; rfl

theorem w1_v1 (c : Dev nD) : W1 m ρ c (Proc.devRef .tc main_v1) = Cert.Net.src (m ((c : Thread nD τ).loc main_arg1)) := by
  show StableHlo.after hostOps0 (W0 m ρ c) (Proc.devRef .tc main_v1) = _
  after_results; rfl

theorem w1_v3 (c : Dev nD) : W1 m ρ c (Proc.devRef .tc main_v3) = Cert.Net.dst (m ((c : Thread nD τ).loc main_arg1)) := by
  show StableHlo.after hostOps0 (W0 m ρ c) (Proc.devRef .tc main_v3) = _
  after_results; rfl

theorem w1_v12 (c : Dev nD) : W1 m ρ c (Proc.devRef .tc main_v12) = Cert.Net.invDeg (m ((c : Thread nD τ).loc main_arg1)) := by
  show StableHlo.after hostOps0 (W0 m ρ c) (Proc.devRef .tc main_v12) = _
  after_results; rfl

/-! ## Boundary 2: region 0 has written the first linear layer -/

theorem w2_v15 (hR : Regions) (c : Dev nD) : W2 m ρ c (Proc.devRef .tc main_v15) = Cert.Net.pre0 (m ((c : Thread nD τ).loc main_arg0)) (m ((c : Thread nD τ).loc main_arg2)) (m ((c : Thread nD τ).loc main_arg3)) := by
  refine (W2_arr m ρ c 3).trans ((hR.r0 (V1 m ρ) c).trans ?_)
  show Cert.Spec.linBias (W1 m ρ c (Proc.devRef .tc main_arg0)) (W1 m ρ c (Proc.devRef .tc main_v13)) (W1 m ρ c (Proc.devRef .tc main_v14)) = _
  rw [w1_arg0 m ρ c,
    w1_v13 m ρ c,
    w1_v14 m ρ c]
  rfl

/-! ## Boundary 3: the column statistics of the layer's input and the normalisation's scale and shift, as rows -/

theorem w3_pre (c : Dev nD) : W3 m ρ c (Proc.devRef .tc main_v15) = W2 m ρ c (Proc.devRef .tc main_v15) :=
  StableHlo.after_of_forall_not_mem _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem w3_mean (hR : Regions) (c : Dev nD) : W3 m ρ c (Proc.devRef .tc main_v30) = Cert.Net.row (Cert.Net.colMean (Cert.Net.pre0 (m ((c : Thread nD τ).loc main_arg0)) (m ((c : Thread nD τ).loc main_arg2)) (m ((c : Thread nD τ).loc main_arg3)))) := by
  show StableHlo.after hostOps1 (W2 m ρ c) (Proc.devRef .tc main_v30) = _
  after_results
  rw [w2_v15 m ρ hR c]
  rfl

theorem w3_var (hR : Regions) (c : Dev nD) : W3 m ρ c (Proc.devRef .tc main_v31) = Cert.Net.row (Cert.Net.colVar (Cert.Net.pre0 (m ((c : Thread nD τ).loc main_arg0)) (m ((c : Thread nD τ).loc main_arg2)) (m ((c : Thread nD τ).loc main_arg3)))) := by
  show StableHlo.after hostOps1 (W2 m ρ c) (Proc.devRef .tc main_v31) = _
  after_results
  rw [w2_v15 m ρ hR c]
  rfl

theorem w3_scale (c : Dev nD) : W3 m ρ c (Proc.devRef .tc main_v32) = Cert.Net.row (Cert.Net.tab0 (m ((c : Thread nD τ).loc main_arg4))) := by
  show StableHlo.after hostOps1 (W2 m ρ c) (Proc.devRef .tc main_v32) = _
  after_results
  rw [((live2 m ρ c main_arg4 (by decide)).trans (w1_live m ρ c main_arg4 (by decide)))]
  rfl

theorem w3_shift (c : Dev nD) : W3 m ρ c (Proc.devRef .tc main_v33) = Cert.Net.row (Cert.Net.tab0 (m ((c : Thread nD τ).loc main_arg5))) := by
  show StableHlo.after hostOps1 (W2 m ρ c) (Proc.devRef .tc main_v33) = _
  after_results
  rw [((live2 m ρ c main_arg5 (by decide)).trans (w1_live m ρ c main_arg5 (by decide)))]
  rfl

/-! ## Boundary 4: region 1 has normalised the first layer -/

theorem w4_v34 (hR : Regions) (c : Dev nD) : W4 m ρ c (Proc.devRef .tc main_v34) = Cert.Net.h0 (m ((c : Thread nD τ).loc main_arg0)) (m ((c : Thread nD τ).loc main_arg2)) (m ((c : Thread nD τ).loc main_arg3)) (m ((c : Thread nD τ).loc main_arg4)) (m ((c : Thread nD τ).loc main_arg5)) := by
  refine (W4_arr m ρ c 5).trans ((hR.r1 (V3 m ρ) c).trans ?_)
  show Cert.Spec.bnRelu (W3 m ρ c (Proc.devRef .tc main_v15)) (W3 m ρ c (Proc.devRef .tc main_v30)) (W3 m ρ c (Proc.devRef .tc main_v31)) (W3 m ρ c (Proc.devRef .tc main_v32)) (W3 m ρ c (Proc.devRef .tc main_v33)) = _
  rw [(w3_pre m ρ c).trans (w2_v15 m ρ hR c),
    w3_mean m ρ hR c,
    w3_var m ρ hR c,
    w3_scale m ρ c,
    w3_shift m ρ c]
  rfl

/-! ## Boundary 5: the neighbour means of the layer's input and the layer's weights as the region takes them -/

theorem w5_h (c : Dev nD) : W5 m ρ c (Proc.devRef .tc main_v34) = W4 m ρ c (Proc.devRef .tc main_v34) :=
  StableHlo.after_of_forall_not_mem _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem w5_agg (hR : Regions) (c : Dev nD) : W5 m ρ c (Proc.devRef .tc main_v47) = Cert.Net.agg (Cert.Net.h0 (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1)) := by
  show StableHlo.after hostOps2 (W4 m ρ c) (Proc.devRef .tc main_v47) = _
  after_results_simp
  rw [w4_v34 m ρ hR c,
    ((live4 m ρ c main_v1 (by decide)).trans (w1_v1 m ρ c)),
    ((live4 m ρ c main_v3 (by decide)).trans (w1_v3 m ρ c)),
    ((live4 m ρ c main_v12 (by decide)).trans (w1_v12 m ρ c))]
  rfl

theorem w5_wl (c : Dev nD) : W5 m ρ c (Proc.devRef .tc main_v50) = Cert.Net.slabT0 (m ((c : Thread nD τ).loc main_arg6)) := by
  show StableHlo.after hostOps2 (W4 m ρ c) (Proc.devRef .tc main_v50) = _
  after_results
  rw [((live4 m ρ c main_arg6 (by decide)).trans (w1_live m ρ c main_arg6 (by decide)))]
  rfl

theorem w5_wr (c : Dev nD) : W5 m ρ c (Proc.devRef .tc main_v53) = Cert.Net.slabT0 (m ((c : Thread nD τ).loc main_arg7)) := by
  show StableHlo.after hostOps2 (W4 m ρ c) (Proc.devRef .tc main_v53) = _
  after_results
  rw [((live4 m ρ c main_arg7 (by decide)).trans (w1_live m ρ c main_arg7 (by decide)))]
  rfl

theorem w5_wb (c : Dev nD) : W5 m ρ c (Proc.devRef .tc main_v54) = Cert.Net.row (m ((c : Thread nD τ).loc main_arg9)) := by
  show StableHlo.after hostOps2 (W4 m ρ c) (Proc.devRef .tc main_v54) = _
  after_results
  rw [((live4 m ρ c main_arg9 (by decide)).trans (w1_live m ρ c main_arg9 (by decide)))]
  rfl

theorem w5_ww (c : Dev nD) : W5 m ρ c (Proc.devRef .tc main_v35) = Cert.Net.tr (m ((c : Thread nD τ).loc main_arg8)) := by
  show StableHlo.after hostOps2 (W4 m ρ c) (Proc.devRef .tc main_v35) = _
  after_results
  rw [((live4 m ρ c main_arg8 (by decide)).trans (w1_live m ρ c main_arg8 (by decide)))]
  rfl

/-! ## Boundary 6: region 2 has combined the first graph layer -/

theorem w6_v55 (hR : Regions) (c : Dev nD) : W6 m ρ c (Proc.devRef .tc main_v55) = Cert.Net.conv (Cert.Net.h0 (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1)) (Cert.Net.slabT0 (m ((c : Thread nD τ).loc main_arg6))) (Cert.Net.slabT0 (m ((c : Thread nD τ).loc main_arg7))) (m ((c : Thread nD τ).loc main_arg8)) (m ((c : Thread nD τ).loc main_arg9)) := by
  refine (W6_arr m ρ c 6).trans ((hR.r2 (V5 m ρ) c).trans ?_)
  show Cert.Spec.sage (W5 m ρ c (Proc.devRef .tc main_v47)) (W5 m ρ c (Proc.devRef .tc main_v34)) (W5 m ρ c (Proc.devRef .tc main_v50)) (W5 m ρ c (Proc.devRef .tc main_v53)) (W5 m ρ c (Proc.devRef .tc main_v35)) (W5 m ρ c (Proc.devRef .tc main_v54)) = _
  rw [w5_agg m ρ hR c,
    (w5_h m ρ c).trans (w4_v34 m ρ hR c),
    w5_wl m ρ c,
    w5_wr m ρ c,
    w5_ww m ρ c,
    w5_wb m ρ c]
  rfl

/-! ## Boundary 7: the column statistics of the layer's input and the normalisation's scale and shift, as rows -/

theorem w7_pre (c : Dev nD) : W7 m ρ c (Proc.devRef .tc main_v55) = W6 m ρ c (Proc.devRef .tc main_v55) :=
  StableHlo.after_of_forall_not_mem _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem w7_mean (hR : Regions) (c : Dev nD) : W7 m ρ c (Proc.devRef .tc main_v70) = Cert.Net.row (Cert.Net.colMean (Cert.Net.conv (Cert.Net.h0 (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1)) (Cert.Net.slabT0 (m ((c : Thread nD τ).loc main_arg6))) (Cert.Net.slabT0 (m ((c : Thread nD τ).loc main_arg7))) (m ((c : Thread nD τ).loc main_arg8)) (m ((c : Thread nD τ).loc main_arg9)))) := by
  show StableHlo.after hostOps3 (W6 m ρ c) (Proc.devRef .tc main_v70) = _
  after_results
  rw [w6_v55 m ρ hR c]
  rfl

theorem w7_var (hR : Regions) (c : Dev nD) : W7 m ρ c (Proc.devRef .tc main_v71) = Cert.Net.row (Cert.Net.colVar (Cert.Net.conv (Cert.Net.h0 (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg1)) (Cert.Net.slabT0 (m ((c : Thread nD τ).loc main_arg6))) (Cert.Net.slabT0 (m ((c : Thread nD τ).loc main_arg7))) (m ((c : Thread nD τ).loc main_arg8)) (m ((c : Thread nD τ).loc main_arg9)))) := by
  show StableHlo.after hostOps3 (W6 m ρ c) (Proc.devRef .tc main_v71) = _
  after_results
  rw [w6_v55 m ρ hR c]
  rfl

theorem w7_scale (c : Dev nD) : W7 m ρ c (Proc.devRef .tc main_v72) = Cert.Net.row (Cert.Net.tab1 (m ((c : Thread nD τ).loc main_arg4))) := by
  show StableHlo.after hostOps3 (W6 m ρ c) (Proc.devRef .tc main_v72) = _
  after_results
  rw [((live6 m ρ c main_arg4 (by decide)).trans (w1_live m ρ c main_arg4 (by decide)))]
  rfl

theorem w7_shift (c : Dev nD) : W7 m ρ c (Proc.devRef .tc main_v73) = Cert.Net.row (Cert.Net.tab1 (m ((c : Thread nD τ).loc main_arg5))) := by
  show StableHlo.after hostOps3 (W6 m ρ c) (Proc.devRef .tc main_v73) = _
  after_results
  rw [((live6 m ρ c main_arg5 (by decide)).trans (w1_live m ρ c main_arg5 (by decide)))]
  rfl

/-! ## Boundary 8: region 3 has normalised the first graph layer -/

theorem w8_v74 (hR : Regions) (c : Dev nD) : W8 m ρ c (Proc.devRef .tc main_v74) = Cert.Net.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 5).trans ((hR.r3 (V7 m ρ) c).trans ?_)
  show Cert.Spec.bnRelu (W7 m ρ c (Proc.devRef .tc main_v55)) (W7 m ρ c (Proc.devRef .tc main_v70)) (W7 m ρ c (Proc.devRef .tc main_v71)) (W7 m ρ c (Proc.devRef .tc main_v72)) (W7 m ρ c (Proc.devRef .tc main_v73)) = _
  rw [(w7_pre m ρ c).trans (w6_v55 m ρ hR c),
    w7_mean m ρ hR c,
    w7_var m ρ hR c,
    w7_scale m ρ c,
    w7_shift m ρ c]
  rfl

/-! ## Boundary 9: the neighbour means of the layer's input and the layer's weights as the region takes them -/

theorem w9_h (c : Dev nD) : W9 m ρ c (Proc.devRef .tc main_v74) = W8 m ρ c (Proc.devRef .tc main_v74) :=
  StableHlo.after_of_forall_not_mem _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem w9_agg (hR : Regions) (c : Dev nD) : W9 m ρ c (Proc.devRef .tc main_v86) = Cert.Net.agg (Cert.Net.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) := by
  show StableHlo.after hostOps4 (W8 m ρ c) (Proc.devRef .tc main_v86) = _
  after_results_simp
  rw [w8_v74 m ρ hR c,
    ((live8 m ρ c main_v1 (by decide)).trans (w1_v1 m ρ c)),
    ((live8 m ρ c main_v3 (by decide)).trans (w1_v3 m ρ c)),
    ((live8 m ρ c main_v12 (by decide)).trans (w1_v12 m ρ c))]
  rfl

theorem w9_wl (c : Dev nD) : W9 m ρ c (Proc.devRef .tc main_v89) = Cert.Net.slabT1 (m ((c : Thread nD τ).loc main_arg6)) := by
  show StableHlo.after hostOps4 (W8 m ρ c) (Proc.devRef .tc main_v89) = _
  after_results
  rw [((live8 m ρ c main_arg6 (by decide)).trans (w1_live m ρ c main_arg6 (by decide)))]
  rfl

theorem w9_wr (c : Dev nD) : W9 m ρ c (Proc.devRef .tc main_v92) = Cert.Net.slabT1 (m ((c : Thread nD τ).loc main_arg7)) := by
  show StableHlo.after hostOps4 (W8 m ρ c) (Proc.devRef .tc main_v92) = _
  after_results
  rw [((live8 m ρ c main_arg7 (by decide)).trans (w1_live m ρ c main_arg7 (by decide)))]
  rfl

theorem w9_wb (c : Dev nD) : W9 m ρ c (Proc.devRef .tc main_v93) = Cert.Net.row (m ((c : Thread nD τ).loc main_arg9)) := by
  show StableHlo.after hostOps4 (W8 m ρ c) (Proc.devRef .tc main_v93) = _
  after_results
  rw [((live8 m ρ c main_arg9 (by decide)).trans (w1_live m ρ c main_arg9 (by decide)))]
  rfl

/-- The shared weight matrix, transposed once by the third stretch, is still there when the second graph layer reads it:
    region 2 only reads it, and nothing in between writes it. -/
theorem w9_ww (c : Dev nD) : W9 m ρ c (Proc.devRef .tc main_v35) = Cert.Net.tr (m ((c : Thread nD τ).loc main_arg8)) :=
  calc W9 m ρ c (Proc.devRef .tc main_v35)
    _ = W8 m ρ c (Proc.devRef .tc main_v35) := StableHlo.after_of_forall_not_mem _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v35) := W8_of_ne m ρ c main_v35 (by decide)
    _ = W6 m ρ c (Proc.devRef .tc main_v35) := StableHlo.after_of_forall_not_mem _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v35) := (W6_arr m ρ c 4).trans (((dat2 (V5 m ρ) c).arrAt_in 4 rfl _).trans (A_eq2 (V5 m ρ) c 4))
    _ = Cert.Net.tr (m ((c : Thread nD τ).loc main_arg8)) := w5_ww m ρ c

/-! ## Boundary 10: region 4 has combined the second graph layer -/

theorem w10_v94 (hR : Regions) (c : Dev nD) : W10 m ρ c (Proc.devRef .tc main_v94) = Cert.Net.conv (Cert.Net.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (Cert.Net.slabT1 (m ((c : Thread nD τ).loc main_arg6))) (Cert.Net.slabT1 (m ((c : Thread nD τ).loc main_arg7))) (m ((c : Thread nD τ).loc main_arg8)) (m ((c : Thread nD τ).loc main_arg9)) := by
  refine (W10_arr m ρ c 6).trans ((hR.r4 (V9 m ρ) c).trans ?_)
  show Cert.Spec.sage (W9 m ρ c (Proc.devRef .tc main_v86)) (W9 m ρ c (Proc.devRef .tc main_v74)) (W9 m ρ c (Proc.devRef .tc main_v89)) (W9 m ρ c (Proc.devRef .tc main_v92)) (W9 m ρ c (Proc.devRef .tc main_v35)) (W9 m ρ c (Proc.devRef .tc main_v93)) = _
  rw [w9_agg m ρ hR c,
    (w9_h m ρ c).trans (w8_v74 m ρ hR c),
    w9_wl m ρ c,
    w9_wr m ρ c,
    w9_ww m ρ c,
    w9_wb m ρ c]
  rfl

/-! ## Boundary 11: the column statistics of the layer's input and the normalisation's scale and shift, as rows -/

theorem w11_pre (c : Dev nD) : W11 m ρ c (Proc.devRef .tc main_v94) = W10 m ρ c (Proc.devRef .tc main_v94) :=
  StableHlo.after_of_forall_not_mem _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem w11_mean (hR : Regions) (c : Dev nD) : W11 m ρ c (Proc.devRef .tc main_v109) = Cert.Net.row (Cert.Net.colMean (Cert.Net.conv (Cert.Net.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (Cert.Net.slabT1 (m ((c : Thread nD τ).loc main_arg6))) (Cert.Net.slabT1 (m ((c : Thread nD τ).loc main_arg7))) (m ((c : Thread nD τ).loc main_arg8)) (m ((c : Thread nD τ).loc main_arg9)))) := by
  show StableHlo.after hostOps5 (W10 m ρ c) (Proc.devRef .tc main_v109) = _
  after_results
  rw [w10_v94 m ρ hR c]
  rfl

theorem w11_var (hR : Regions) (c : Dev nD) : W11 m ρ c (Proc.devRef .tc main_v110) = Cert.Net.row (Cert.Net.colVar (Cert.Net.conv (Cert.Net.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) (Cert.Net.slabT1 (m ((c : Thread nD τ).loc main_arg6))) (Cert.Net.slabT1 (m ((c : Thread nD τ).loc main_arg7))) (m ((c : Thread nD τ).loc main_arg8)) (m ((c : Thread nD τ).loc main_arg9)))) := by
  show StableHlo.after hostOps5 (W10 m ρ c) (Proc.devRef .tc main_v110) = _
  after_results
  rw [w10_v94 m ρ hR c]
  rfl

theorem w11_scale (c : Dev nD) : W11 m ρ c (Proc.devRef .tc main_v111) = Cert.Net.row (Cert.Net.tab2 (m ((c : Thread nD τ).loc main_arg4))) := by
  show StableHlo.after hostOps5 (W10 m ρ c) (Proc.devRef .tc main_v111) = _
  after_results
  rw [((live10 m ρ c main_arg4 (by decide)).trans (w1_live m ρ c main_arg4 (by decide)))]
  rfl

theorem w11_shift (c : Dev nD) : W11 m ρ c (Proc.devRef .tc main_v112) = Cert.Net.row (Cert.Net.tab2 (m ((c : Thread nD τ).loc main_arg5))) := by
  show StableHlo.after hostOps5 (W10 m ρ c) (Proc.devRef .tc main_v112) = _
  after_results
  rw [((live10 m ρ c main_arg5 (by decide)).trans (w1_live m ρ c main_arg5 (by decide)))]
  rfl

/-! ## Boundary 12: region 5 has normalised the second graph layer -/

theorem w12_v113 (hR : Regions) (c : Dev nD) : W12 m ρ c (Proc.devRef .tc main_v113) = Cert.Net.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 5).trans ((hR.r5 (V11 m ρ) c).trans ?_)
  show Cert.Spec.bnRelu (W11 m ρ c (Proc.devRef .tc main_v94)) (W11 m ρ c (Proc.devRef .tc main_v109)) (W11 m ρ c (Proc.devRef .tc main_v110)) (W11 m ρ c (Proc.devRef .tc main_v111)) (W11 m ρ c (Proc.devRef .tc main_v112)) = _
  rw [(w11_pre m ρ c).trans (w10_v94 m ρ hR c),
    w11_mean m ρ hR c,
    w11_var m ρ hR c,
    w11_scale m ρ c,
    w11_shift m ρ c]
  rfl

/-! ## Boundary 13: the head's weights as the last region takes them -/

theorem w13_h (c : Dev nD) : W13 m ρ c (Proc.devRef .tc main_v113) = W12 m ρ c (Proc.devRef .tc main_v113) :=
  StableHlo.after_of_forall_not_mem _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem w13_w (c : Dev nD) : W13 m ρ c (Proc.devRef .tc main_v114) = Cert.Net.tr40 (m ((c : Thread nD τ).loc main_arg10)) := by
  show StableHlo.after hostOps6 (W12 m ρ c) (Proc.devRef .tc main_v114) = _
  after_results
  rw [((live12 m ρ c main_arg10 (by decide)).trans (w1_live m ρ c main_arg10 (by decide)))]
  rfl

theorem w13_b (c : Dev nD) : W13 m ρ c (Proc.devRef .tc main_v115) = Cert.Net.row40 (m ((c : Thread nD τ).loc main_arg11)) := by
  show StableHlo.after hostOps6 (W12 m ρ c) (Proc.devRef .tc main_v115) = _
  after_results
  rw [((live12 m ρ c main_arg11 (by decide)).trans (w1_live m ρ c main_arg11 (by decide)))]
  rfl

/-! ## The end: region 6 has written the result -/

theorem result (hR : Regions) (c : Dev nD) : W14 m ρ c (Proc.devRef .tc main_v116) = Cert.Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_arr m ρ c 3).trans ((hR.r6 (V13 m ρ) c).trans ?_)
  show Cert.Spec.linBias (W13 m ρ c (Proc.devRef .tc main_v113)) (W13 m ρ c (Proc.devRef .tc main_v114)) (W13 m ρ c (Proc.devRef .tc main_v115)) = _
  rw [(w13_h m ρ c).trans (w12_v113 m ρ hR c),
    w13_w m ρ c,
    w13_b m ρ c]
  rfl

end Cert.KernelIdeal.KChain

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.Region0.lean ====
/-
  The first dense layer's region: the array it leaves is the affine map of the specification applied to the whole
  input arrays.

  The region walks 25 grid points. At point t it holds rows 2000·t … 2000·t + 1999 of the [50000, 128] node array, the
  whole [128, 128] weight and the whole [1, 128] bias row, and stores, at row p and column o of its output block,

      ∑ k < 128, x(2000·t + p, k) · w(k, o)  +  b(0, o)

  (the product is a matrix product into a zero accumulator; the changes of number format on the way in are the
  identity on the extended reals, the re-shapings are of a shape to itself, and the bias row is repeated down the rows).
  That is entry (2000·t + p, o) of `Cert.Spec.linBias x w b`, so point t writes back block t of that one function; the
  25 blocks cover all 50000 rows (row r lies in block r / 2000), hence the array is the function.
-/
import proofs.«139068_j1623497638159_1_alg».proof.Proof.Gen.KernelIdeal.Frame
import proofs.«139068_j1623497638159_1_alg».proof.Proof.Spec
import proofs.«139068_j1623497638159_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.ValueIdx Idealize.ShloMosaic.TcCoe Idealize.SL.Sem
open Idealize.ShloMosaic.Pipeline (Dat)

/-- The arrays the region's four windows carry: the node array, the weight, the bias row, and the output. -/
theorem arrays : Pipeline.arrRef spec0 0 = main_arg0 ∧ Pipeline.arrRef spec0 1 = main_v13
    ∧ Pipeline.arrRef spec0 2 = main_v14 ∧ Pipeline.arrRef spec0 3 = main_v15 := ⟨rfl, rfl, rfl, rfl⟩

/-- The body's stored value at row p, column o of a block: the p-th row of the first operand's block times the
    o-th column of the weight block, summed over the 128 shared positions, plus the bias row's entry o. -/
theorem pay_apply (x0 : Vec Ideal S2000x128 .f32) (x1 : Vec Ideal S128x128 .f32) (x2 : Vec Ideal S1x128 .f32)
    (p : Fin 2000) (o : Fin 128) :
    Gen.k0_pay1 x0 x1 x2 (ix2 p o)
      = ((∑ k : Fin 128, (x0 (ix2 p k) : EReal) * x1 (ix2 k o)) + x2 (ix2 (0 : Fin 1) o) : EReal) := by
  unfold Gen.k0_pay1
  refine (addf_apply _ _ _).trans ?_
  refine congrArg₂ (fun a b : EReal => a + b) ?_ ?_
  · rw [shapeCast_self]
    exact Cert.LibPlainDot.matmul_zero_apply none x0 x1 p o
  · rw [shapeCast_self]
    exact broadcastTo_apply x2 _ (ix2 p o) (ix2 (0 : Fin 1) o) (fun a => by match a with | ⟨0, _⟩ => rfl | ⟨1, _⟩ => rfl)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The block indices over the 25 grid points: the row blocks of the first operand and of the output sit at the grid
    point, column block 0; the weight and the bias are always their one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the first operand's block at grid point t is row 2000·t + p of the array. -/
theorem blk0_apply (c : Dev nD) (t : Fin cfg0.N) (p : Fin 2000) (k : Fin 128) (r : Fin 50000)
    (h : r.val = t.val * 2000 + p.val) :
    (Gen.iblk0 V c 0 t : Vec Ideal S2000x128 .f32) (ix2 p k) = (V c main_arg0 : S50000x128.Idx → EReal) (ix2 r k) := by
  obtain ⟨e0, e1, -⟩ := idx_facts t
  unfold Gen.iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; rw [e0, h]; omega
  | ⟨1, _⟩ => show win0_0.index t (1 : Fin 2) * 128 + 1 * k.val = k.val; rw [e1]; omega

/-- The weight's block at every grid point is the whole weight array. -/
theorem blk1_apply (c : Dev nD) (t : Fin cfg0.N) (k : Fin 128) (o o' : Fin 128) (h : o'.val = o.val) :
    (Gen.iblk0 V c 1 t : Vec Ideal S128x128 .f32) (ix2 k o) = (V c main_v13 : S128x128.Idx → EReal) (ix2 k o') := by
  obtain ⟨-, -, e0, e1, -⟩ := idx_facts t
  unfold Gen.iblk0
  rw [View.read_apply]
  show V c main_v13 _ = V c main_v13 _
  refine congrArg (V c main_v13) (funext fun a => Fin.ext ?_)
  match a with
  | ⟨0, _⟩ => show win0_1.index t (0 : Fin 2) * 128 + 1 * k.val = k.val; rw [e0]; omega
  | ⟨1, _⟩ => show win0_1.index t (1 : Fin 2) * 128 + 1 * o.val = o'.val; rw [e1, h]; omega

/-- The bias's block at every grid point is the whole bias row. -/
theorem blk2_apply (c : Dev nD) (t : Fin cfg0.N) (o o' : Fin 128) (h : o'.val = o.val) :
    (Gen.iblk0 V c 2 t : Vec Ideal S1x128 .f32) (ix2 (0 : Fin 1) o) = (V c main_v14 : S1x128.Idx → EReal) (ix2 (0 : Fin 1) o') := by
  obtain ⟨-, -, -, -, e0, e1, -⟩ := idx_facts t
  unfold Gen.iblk0
  rw [View.read_apply]
  show V c main_v14 _ = V c main_v14 _
  refine congrArg (V c main_v14) (funext fun a => Fin.ext ?_)
  match a with
  | ⟨0, _⟩ => show win0_2.index t (0 : Fin 2) * 1 + 1 * 0 = 0; rw [e0]
  | ⟨1, _⟩ => show win0_2.index t (1 : Fin 2) * 128 + 1 * o.val = o'.val; rw [e1, h]; omega

/-- The output array as one function of the three input arrays: the affine map of the specification. -/
abbrev G (c : Dev nD) : S50000x128.Idx → EReal :=
  Cert.Spec.linBias (n := 50000) (a := 128) (d := 128) (V c main_arg0) (V c main_v13) (V c main_v14)

/-- What grid point t writes back is block t of the affine map of the whole arrays: entry (p, o) of the block is the
    stored value at (p, o), whose row of the first operand is row 2000·t + p of the array and whose weight column and
    bias entry are those of the whole weight and bias. -/
theorem flushed_eq (c : Dev nD) (t : Fin cfg0.N) :
    (Gen.dat0 (F := Ideal) V c).flushed 3 t = ((cfg0.win 3).blk t).view.read (Elt Ideal) (G V c) := by
  show (cfg0.win 3).cut (grid0.coords t) ((Gen.dat0 V c).after 3 t) = _
  rw [Gen.after0_3]
  unfold Gen.out0_3
  rw [View.canon_unit_zero hz]
  simp only [View.ld_unit_zero (S := S2000x128) hz, View.ld_unit_zero (S := S128x128) hz, View.ld_unit_zero (S := S1x128) hz]
  obtain ⟨-, -, -, -, -, -, e0, e1⟩ := idx_facts t
  refine funext fun (j : S2000x128.Idx) => ?_
  obtain ⟨p, o, rfl⟩ : ∃ (p : Fin 2000) (o : Fin 128), j = ix2 p o := ⟨j 0, j 1, eq_ix2 j⟩
  show Gen.k0_pay1 (Gen.iblk0 V c 0 t) (Gen.iblk0 V c 1 t) (Gen.iblk0 V c 2 t) (ix2 p o)
      = G V c (((cfg0.win 3).blk t).view.emb (ix2 p o))
  refine (pay_apply (Gen.iblk0 V c 0 t) (Gen.iblk0 V c 1 t) (Gen.iblk0 V c 2 t) p o).trans ?_
  have h0 : ((((cfg0.win 3).blk t).view.emb (ix2 p o) : S50000x128.Idx) 0).val = t.val * 2000 + p.val := by
    show win0_3.index t (0 : Fin 2) * 2000 + 1 * p.val = _; rw [e0]; omega
  have h1 : ((((cfg0.win 3).blk t).view.emb (ix2 p o) : S50000x128.Idx) 1).val = o.val := by
    show win0_3.index t (1 : Fin 2) * 128 + 1 * o.val = _; rw [e1]; omega
  exact congrArg₂ (fun a b : EReal => a + b)
    (Finset.sum_congr rfl fun k _ => congrArg₂ (fun a b : EReal => a * b)
      (blk0_apply V c t p k _ h0) (blk1_apply V c t k o _ h1))
    (blk2_apply V c t o _ h1)

/-- An index of the output array lies in grid point t's block iff each coordinate lies in the block's range on its axis. -/
theorem mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v15).slice (win0_3.rect t)).set ↔ _
  rw [View.set_slice_whole, Rect.mem_set_unit]
  exact Iff.rfl

/-- Every index of the output array lies in the block of some grid point that writes back: row r in that of point r / 2000. -/
theorem cover (i : S50000x128.Idx) :
    ∃ t : Fin cfg0.N, (cfg0.win 3).flush t = true ∧ i ∈ ((cfg0.win 3).blk t).view.set := by
  have hN : cfg0.N = 25 := Gen.N_0
  have hi0 : (i 0).val < 50000 := (i 0).isLt
  have hi1 : (i 1).val < 128 := (i 1).isLt
  have ht : (i 0).val / 2000 < cfg0.N := by rw [hN]; omega
  refine ⟨⟨(i 0).val / 2000, ht⟩, Gen.flush0_3 _, ?_⟩
  rw [mem_blk]
  obtain ⟨-, -, -, -, -, -, e0, e1⟩ := idx_facts ⟨(i 0).val / 2000, ht⟩
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e1]
    omega

/-- After the region's run the output array is the affine map of the three input arrays as the region found them:
    every grid point writes back its block of that one function, and the blocks cover the array. -/
theorem value (c : Dev nD) :
    (Gen.dat0 (F := Ideal) V c).arrAt 3 cfg0.N = Cert.Spec.linBias (V c main_arg0) (V c main_v13) (V c main_v14) :=
  (Gen.dat0 V c).arrAt_eq_of_cover 3 (G V c) (fun t _ => flushed_eq V c t) cover

end Cert.KernelIdeal.Region0

end
-- ==== Proof.Region1.lean ====
/-
  Region 1 of the idealized kernel (column normalisation followed by the positive part), as ONE function of whole arrays.

  The region runs over 25 grid points.  At point t its body reads rows 2000·t … 2000·t + 1999 of the data array and the
  four [1, 128] rows of column statistics (the same rows at every point), and stores, entry by entry,
      max (((x − μ) · rsqrt (v + ε)) · γ + β, 0)
  into rows 2000·t … 2000·t + 1999 of the output array.  Three facts give the array after the run:
    * the stored block, read at row p and column o, is that expression of the loaded blocks at (p, o) and (0, o);
    * the block of window w at point t sits at block index × block extent + the coordinate inside the block, and the
      index maps are decided over the 25 points: row block t for the data and the output, block 0 for the statistics;
    * row r of the output lies in the block of point r / 2000, and every point writes its block back.
  So the output array ends at the specification's function of the five input arrays as the region finds them.
-/
import proofs.«139068_j1623497638159_1_alg».proof.Proof.Gen.KernelIdeal.Frame
import proofs.«139068_j1623497638159_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## The stored block at an entry -/

/-- The reciprocal square root of a vector, read at an index, is the reciprocal square root of the entry. -/
theorem rsqrt_at {s : Shape} {φ : FTy} (a : FVec Ideal s φ) (i : s.Idx) : rsqrt a i = Ideal.rsqrt (a i) := rfl

/-- Entry (p, o) of the block the body stores: the data block's entry (p, o), centred by the mean row's entry o,
    scaled by the reciprocal square root of the variance row's entry o plus ε and by the scale row's entry o,
    shifted by the bias row's entry o, and cut below at zero. -/
theorem stored_at (x0 : Vec Ideal S2000x128 .f32) (x1 x2 x3 x4 : Vec Ideal S1x128 .f32) (p : Fin 2000) (o : Fin 128) :
    Gen.k1_pay1 (F := Ideal) x0 x1 x2 x3 x4 (ix2 p o)
      = (max (((((x0 (ix2 p o) : EReal) - x1 (ix2 (0 : Fin 1) o)) * Ideal.rsqrt ((x2 (ix2 (0 : Fin 1) o) : EReal) + Cert.Spec.eps))
          * x3 (ix2 (0 : Fin 1) o) + x4 (ix2 (0 : Fin 1) o))) Cert.Spec.zero : EReal) := by
  unfold Gen.k1_pay1
  simp only [shapeCast_self, maximumf_apply, addf_apply, mulf_apply, subf_apply, broadcastTo_1b_ab_apply, rsqrt_at,
    broadcast_apply]
  rfl

/-! ## The blocks -/

section Blocks
variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The index maps over the 25 grid points: the data window and the output window are at row block t, column block 0;
    the four statistics windows stay at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, o) of the data window's block at point t is the data array's entry at the place the output window's
    block puts (p, o): both windows are at row block t. -/
theorem data_block_at (t : Fin cfg1.N) (p : Fin 2000) (o : Fin 128) :
    (Gen.iblk1 (F := Ideal) V c 0 t : Vec Ideal S2000x128 .f32) (ix2 p o)
      = (V c main_v15 : S50000x128.Idx → EReal) (((cfg1.win 5).blk t).view.emb (ix2 p o)) := by
  obtain ⟨e0, e1, -, -, -, -, -, -, -, -, e10, e11⟩ := index_maps t
  unfold Gen.iblk1
  rw [View.read_apply]
  show V c main_v15 _ = V c main_v15 _
  refine congrArg _ (funext fun a => Fin.ext ?_)
  match a with
  | ⟨0, _⟩ => show win1_0.index t (0 : Fin 2) * 2000 + 1 * p.val = win1_5.index t (0 : Fin 2) * 2000 + 1 * p.val; rw [e0, e10]
  | ⟨1, _⟩ => show win1_0.index t (1 : Fin 2) * 128 + 1 * o.val = win1_5.index t (1 : Fin 2) * 128 + 1 * o.val; rw [e1, e11]

/-- Entry (0, o) of the mean window's block at any point is the mean row's entry at column o, the column of the
    place the output window's block puts (p, o): the window stays at block (0, 0) and the output's column block is 0. -/
theorem mean_block_at (t : Fin cfg1.N) (p : Fin 2000) (o : Fin 128) :
    (Gen.iblk1 (F := Ideal) V c 1 t : Vec Ideal S1x128 .f32) (ix2 (0 : Fin 1) o)
      = (V c main_v30 : S1x128.Idx → EReal) (ix2 (0 : Fin 1) ((((cfg1.win 5).blk t).view.emb (ix2 p o) : S50000x128.Idx) 1)) := by
  have e := index_maps t
  have ea : win1_1.index t (0 : Fin 2) = 0 := e.2.2.1
  have eb : win1_1.index t (1 : Fin 2) = 0 := e.2.2.2.1
  have ec : win1_5.index t (1 : Fin 2) = 0 := e.2.2.2.2.2.2.2.2.2.2.2
  unfold Gen.iblk1
  rw [View.read_apply]
  show V c main_v30 _ = V c main_v30 _
  refine congrArg _ (funext fun a => Fin.ext ?_)
  match a with
  | ⟨0, _⟩ => show win1_1.index t (0 : Fin 2) * 1 + 1 * 0 = 0; rw [ea]
  | ⟨1, _⟩ => show win1_1.index t (1 : Fin 2) * 128 + 1 * o.val = win1_5.index t (1 : Fin 2) * 128 + 1 * o.val; rw [eb, ec]

/-- Entry (0, o) of the variance window's block at any point is the variance row's entry at column o, the column of the
    place the output window's block puts (p, o): the window stays at block (0, 0) and the output's column block is 0. -/
theorem variance_block_at (t : Fin cfg1.N) (p : Fin 2000) (o : Fin 128) :
    (Gen.iblk1 (F := Ideal) V c 2 t : Vec Ideal S1x128 .f32) (ix2 (0 : Fin 1) o)
      = (V c main_v31 : S1x128.Idx → EReal) (ix2 (0 : Fin 1) ((((cfg1.win 5).blk t).view.emb (ix2 p o) : S50000x128.Idx) 1)) := by
  have e := index_maps t
  have ea : win1_2.index t (0 : Fin 2) = 0 := e.2.2.2.2.1
  have eb : win1_2.index t (1 : Fin 2) = 0 := e.2.2.2.2.2.1
  have ec : win1_5.index t (1 : Fin 2) = 0 := e.2.2.2.2.2.2.2.2.2.2.2
  unfold Gen.iblk1
  rw [View.read_apply]
  show V c main_v31 _ = V c main_v31 _
  refine congrArg _ (funext fun a => Fin.ext ?_)
  match a with
  | ⟨0, _⟩ => show win1_2.index t (0 : Fin 2) * 1 + 1 * 0 = 0; rw [ea]
  | ⟨1, _⟩ => show win1_2.index t (1 : Fin 2) * 128 + 1 * o.val = win1_5.index t (1 : Fin 2) * 128 + 1 * o.val; rw [eb, ec]

/-- Entry (0, o) of the scale window's block at any point is the scale row's entry at column o, the column of the
    place the output window's block puts (p, o): the window stays at block (0, 0) and the output's column block is 0. -/
theorem scale_block_at (t : Fin cfg1.N) (p : Fin 2000) (o : Fin 128) :
    (Gen.iblk1 (F := Ideal) V c 3 t : Vec Ideal S1x128 .f32) (ix2 (0 : Fin 1) o)
      = (V c main_v32 : S1x128.Idx → EReal) (ix2 (0 : Fin 1) ((((cfg1.win 5).blk t).view.emb (ix2 p o) : S50000x128.Idx) 1)) := by
  have e := index_maps t
  have ea : win1_3.index t (0 : Fin 2) = 0 := e.2.2.2.2.2.2.1
  have eb : win1_3.index t (1 : Fin 2) = 0 := e.2.2.2.2.2.2.2.1
  have ec : win1_5.index t (1 : Fin 2) = 0 := e.2.2.2.2.2.2.2.2.2.2.2
  unfold Gen.iblk1
  rw [View.read_apply]
  show V c main_v32 _ = V c main_v32 _
  refine congrArg _ (funext fun a => Fin.ext ?_)
  match a with
  | ⟨0, _⟩ => show win1_3.index t (0 : Fin 2) * 1 + 1 * 0 = 0; rw [ea]
  | ⟨1, _⟩ => show win1_3.index t (1 : Fin 2) * 128 + 1 * o.val = win1_5.index t (1 : Fin 2) * 128 + 1 * o.val; rw [eb, ec]

/-- Entry (0, o) of the bias window's block at any point is the bias row's entry at column o, the column of the
    place the output window's block puts (p, o): the window stays at block (0, 0) and the output's column block is 0. -/
theorem bias_block_at (t : Fin cfg1.N) (p : Fin 2000) (o : Fin 128) :
    (Gen.iblk1 (F := Ideal) V c 4 t : Vec Ideal S1x128 .f32) (ix2 (0 : Fin 1) o)
      = (V c main_v33 : S1x128.Idx → EReal) (ix2 (0 : Fin 1) ((((cfg1.win 5).blk t).view.emb (ix2 p o) : S50000x128.Idx) 1)) := by
  have e := index_maps t
  have ea : win1_4.index t (0 : Fin 2) = 0 := e.2.2.2.2.2.2.2.2.1
  have eb : win1_4.index t (1 : Fin 2) = 0 := e.2.2.2.2.2.2.2.2.2.1
  have ec : win1_5.index t (1 : Fin 2) = 0 := e.2.2.2.2.2.2.2.2.2.2.2
  unfold Gen.iblk1
  rw [View.read_apply]
  show V c main_v33 _ = V c main_v33 _
  refine congrArg _ (funext fun a => Fin.ext ?_)
  match a with
  | ⟨0, _⟩ => show win1_4.index t (0 : Fin 2) * 1 + 1 * 0 = 0; rw [ea]
  | ⟨1, _⟩ => show win1_4.index t (1 : Fin 2) * 128 + 1 * o.val = win1_5.index t (1 : Fin 2) * 128 + 1 * o.val; rw [eb, ec]

/-! ## What a point writes back, and the array after the run -/

/-- What point t writes back is block t of the specification's function of the five arrays as the region finds them. -/
theorem flushed_eq (t : Fin cfg1.N) :
    (Gen.dat1 (F := Ideal) V c).flushed 5 t
      = ((cfg1.win 5).blk t).view.read (Elt Ideal) (Cert.Spec.bnRelu (V c main_v15) (V c main_v30) (V c main_v31) (V c main_v32) (V c main_v33)) := by
  show (cfg1.win 5).cut (grid1.coords t) ((Gen.dat1 V c).after 5 t) = _
  rw [Gen.after1_5]
  unfold Gen.out1_5
  rw [View.canon_unit_zero zero_offsets]
  simp only [View.ld_unit_zero (S := S2000x128) zero_offsets, View.ld_unit_zero (S := S1x128) zero_offsets]
  refine funext fun (j : S2000x128.Idx) => ?_
  obtain ⟨p, o, rfl⟩ : ∃ (p : Fin 2000) (o : Fin 128), j = ix2 p o := ⟨j 0, j 1, eq_ix2 j⟩
  refine (stored_at (Gen.iblk1 V c 0 t) (Gen.iblk1 V c 1 t) (Gen.iblk1 V c 2 t) (Gen.iblk1 V c 3 t) (Gen.iblk1 V c 4 t) p o).trans ?_
  rw [data_block_at V c t p o, mean_block_at V c t p o, variance_block_at V c t p o, scale_block_at V c t p o,
    bias_block_at V c t p o, View.read_apply]
  rfl

/-- An index of the output array is in point t's block iff each coordinate is in the block's range on its axis. -/
theorem mem_blk (t : Fin cfg1.N) (i : S50000x128.Idx) :
    i ∈ ((cfg1.win 5).blk t).view.set
      ↔ ∀ a : Fin 2, win1_5.index t a * S2000x128.size a ≤ (i a).val ∧ (i a).val < win1_5.index t a * S2000x128.size a + S2000x128.size a := by
  show i ∈ ((View.whole main_v34).slice (win1_5.rect t)).set ↔ _
  rw [View.set_slice_whole, Rect.mem_set_unit]
  exact Iff.rfl

/-- Row r of the output array lies in the block of point r / 2000, and that point writes its block back. -/
theorem cover (i : S50000x128.Idx) :
    ∃ t : Fin cfg1.N, (cfg1.win 5).flush t = true ∧ i ∈ ((cfg1.win 5).blk t).view.set := by
  have hN : cfg1.N = 25 := Gen.N_1
  have hi0 : (i 0).val < 50000 := (i 0).isLt
  have hi1 : (i 1).val < 128 := (i 1).isLt
  have ht : (i 0).val / 2000 < cfg1.N := by rw [hN]; omega
  have e := index_maps ⟨(i 0).val / 2000, ht⟩
  have e0 : win1_5.index ⟨(i 0).val / 2000, ht⟩ (0 : Fin 2) = (i 0).val / 2000 := e.2.2.2.2.2.2.2.2.2.2.1
  have e1 : win1_5.index ⟨(i 0).val / 2000, ht⟩ (1 : Fin 2) = 0 := e.2.2.2.2.2.2.2.2.2.2.2
  refine ⟨⟨(i 0).val / 2000, ht⟩, Gen.flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]; omega

end Blocks

/-- THE ARRAY AFTER THE RUN: the region's output array is the specification's function of its five input arrays as the
    region finds them. -/
theorem value (V : (c : Dev nD) → (b : Ref sig .tc) → Buf (Elt Ideal) ((c : Thread nD τ).loc b)) (c : Dev nD) :
    (Gen.dat1 (F := Ideal) V c).arrAt 5 cfg1.N = Cert.Spec.bnRelu (V c main_v15) (V c main_v30) (V c main_v31) (V c main_v32) (V c main_v33) :=
  (Gen.dat1 (F := Ideal) V c).arrAt_eq_of_cover 5 (Cert.Spec.bnRelu (V c main_v15) (V c main_v30) (V c main_v31) (V c main_v32) (V c main_v33))
    (fun t _ => flushed_eq V c t) cover

end Cert.KernelIdeal.Region1

end
-- ==== Proof.Region2.lean ====
/-
  The value of the first neighbour/root combination: the array the region leaves is ONE function of its six input arrays,
  entry by entry on the extended reals,

      out(r, o) = ∑ k', ((∑ k, a(r, k) · wl(k, k')) + (∑ k, h(r, k) · wr(k, k'))) · ww(k', o)  +  b(0, o).

  The region walks 25 grid points; at point t it reads rows 2000 t … 2000 t + 1999 of the two [50000, 128] inputs, the
  three [128, 128] weights and the [1, 128] bias row whole, and writes rows 2000 t … 2000 t + 1999 of the output.

  * The stored value at an entry (p, o) of the block: rounding to the narrower format is the identity on the extended
    reals, a cast of a shape to itself is the identity, each product into the zero accumulator is the sum over the
    shared axis, the bias row is read at (0, o).
  * An entry of a row block is the array's entry in row 2000 t + p; a whole-array block is the array.
  * So point t writes back block t of the function above; row r lies in the block of point r / 2000, and every point
    writes back: the array ends holding the function.
-/
import proofs.«139068_j1623497638159_1_alg».proof.Proof.Gen.KernelIdeal.Frame
import proofs.«139068_j1623497638159_1_alg».proof.Proof.Spec
import proofs.«139068_j1623497638159_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The stored value at an entry -/

/-- A pointwise sum of two vectors of extended reals, at an index. -/
theorem addf_at {s : Shape} {φ : FTy} (x y : FVec Ideal s φ) (i : s.Idx) :
    addf x y i = ((x i : EReal) + (y i : EReal) : EReal) := rfl

/-- A product with the plain dimension numbers into the zero accumulator, at an entry: the sum over the shared axis. -/
theorem mm_at (L : FVec Ideal S2000x128 .bf16) (R : FVec Ideal S128x128 .bf16) (p : Fin 2000) (o : Fin 128) :
    matmul dot_S2000x128_S128x128_S2000x128_1_0_0_1_n_n none L R (constant S2000x128 .f32 0x00000000#32) (ix2 p o)
      = ∑ k : Fin 128, (L (ix2 p k) : EReal) * (R (ix2 k o) : EReal) :=
  Cert.LibPlainDot.matmul_zero_apply (n := 2000) (a := 128) (b := 128) none L R p o

/-- The value the body stores, at row p and column o of the block: the two products of the row blocks with their
    weights are added, the sum is multiplied by the shared weight, and the bias row is added. -/
theorem pay_apply (x0 x1 : Vec Ideal S2000x128 .f32) (x2 x3 x4 : Vec Ideal S128x128 .f32) (x5 : Vec Ideal S1x128 .f32)
    (p : Fin 2000) (o : Fin 128) :
    Gen.k2_pay1 (F := Ideal) x0 x1 x2 x3 x4 x5 (ix2 p o)
      = ((∑ k' : Fin 128, ((∑ k : Fin 128, (x0 (ix2 p k) : EReal) * x2 (ix2 k k'))
          + (∑ k : Fin 128, (x1 (ix2 p k) : EReal) * x3 (ix2 k k'))) * x4 (ix2 k' o)) + x5 (ix2 (0 : Fin 1) o) : EReal) := by
  unfold Gen.k2_pay1
  refine (addf_at _ _ _).trans ?_
  refine congrArg₂ (fun a b : EReal => a + b) ?_ ?_
  · refine (mm_at _ _ p o).trans ?_
    refine Finset.sum_congr rfl fun k' _ => ?_
    refine congrArg₂ (fun a b : EReal => a * b) ?_ ?_
    · show addf (F := Ideal) _ _ (ix2 p k') = _
      refine (addf_at _ _ _).trans ?_
      refine congrArg₂ (fun a b : EReal => a + b) ?_ ?_
      · refine (mm_at _ _ p k').trans ?_
        refine Finset.sum_congr rfl fun k _ => ?_
        refine congrArg₂ (fun a b : EReal => a * b) ?_ ?_
        · show shapeCast S2000x128 x0 shapeCasts_S2000x128_S2000x128 (ix2 p k) = _
          rw [shapeCast_self]
        · show shapeCast S128x128 x2 shapeCasts_S128x128_S128x128 (ix2 k k') = _
          rw [shapeCast_self]
      · refine (mm_at _ _ p k').trans ?_
        refine Finset.sum_congr rfl fun k _ => ?_
        refine congrArg₂ (fun a b : EReal => a * b) ?_ ?_
        · show shapeCast S2000x128 x1 shapeCasts_S2000x128_S2000x128 (ix2 p k) = _
          rw [shapeCast_self]
        · show shapeCast S128x128 x3 shapeCasts_S128x128_S128x128 (ix2 k k') = _
          rw [shapeCast_self]
    · show shapeCast S128x128 x4 shapeCasts_S128x128_S128x128 (ix2 k' o) = _
      rw [shapeCast_self]
  · refine (broadcastTo_1b_ab_apply _ broadcasts_S1x128_S2000x128 p o).trans ?_
    rw [shapeCast_self]

/-! ## What each grid point writes back -/

theorem hz : (![0, 0] : Fin 2 → Nat) = fun _ => 0 := funext fun a => by fin_cases a <;> rfl

variable (V : (c : Dev nD) → (b : Ref sig .tc) → Buf (Elt Ideal) ((c : Thread nD τ).loc b))

/-- The output array as one function of the six input arrays. -/
abbrev G (c : Dev nD) : Buf (Elt Ideal) ((c : Thread nD τ).loc main_v55) :=
  Cert.Spec.sage (V c main_v47) (V c main_v34) (V c main_v50) (V c main_v53) (V c main_v35) (V c main_v54)

/-- The block indices over the grid: the two row-block inputs and the output are at block (t, 0) at point t, the four
    small operands at block (0, 0) at every point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Entry (p, k) of the first input's row block at point t is the array's entry in row 2000 t + p. -/
theorem rowblk0 (c : Dev nD) (t : Fin cfg2.N) (p : Fin 2000) (k : Fin 128) (r : Fin 50000)
    (hr : r.val = t.val * 2000 + p.val) :
    (Gen.iblk2 V c 0 t : Vec Ideal S2000x128 .f32) (ix2 p k) = (V c main_v47 : FVec Ideal S50000x128 .f32) (ix2 r k) := by
  obtain ⟨e0, e1, -⟩ := idx_facts t
  unfold Gen.iblk2
  rw [View.read_apply]
  show (V c main_v47 : FVec Ideal S50000x128 .f32) _ = _
  refine congrArg (V c main_v47 : FVec Ideal S50000x128 .f32) (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- Entry (p, k) of the second input's row block at point t is the array's entry in row 2000 t + p. -/
theorem rowblk1 (c : Dev nD) (t : Fin cfg2.N) (p : Fin 2000) (k : Fin 128) (r : Fin 50000)
    (hr : r.val = t.val * 2000 + p.val) :
    (Gen.iblk2 V c 1 t : Vec Ideal S2000x128 .f32) (ix2 p k) = (V c main_v34 : FVec Ideal S50000x128 .f32) (ix2 r k) := by
  obtain ⟨-, -, e0, e1, -⟩ := idx_facts t
  unfold Gen.iblk2
  rw [View.read_apply]
  show (V c main_v34 : FVec Ideal S50000x128 .f32) _ = _
  refine congrArg (V c main_v34 : FVec Ideal S50000x128 .f32) (funext fun a => Fin.ext ?_)
  match a with
  | ⟨0, _⟩ => show win2_1.index t (0 : Fin 2) * 2000 + 1 * p.val = r.val; omega
  | ⟨1, _⟩ => show win2_1.index t (1 : Fin 2) * 128 + 1 * k.val = k.val; omega

/-- The first weight's block at every point is the whole array. -/
theorem wblk2 (c : Dev nD) (t : Fin cfg2.N) (k k' : Fin 128) :
    (Gen.iblk2 V c 2 t : Vec Ideal S128x128 .f32) (ix2 k k') = (V c main_v50 : FVec Ideal S128x128 .f32) (ix2 k k') := by
  obtain ⟨-, -, -, -, e0, e1, -⟩ := idx_facts t
  unfold Gen.iblk2
  rw [View.read_apply]
  show (V c main_v50 : FVec Ideal S128x128 .f32) _ = _
  refine congrArg (V c main_v50 : FVec Ideal S128x128 .f32) (funext fun a => Fin.ext ?_)
  match a with
  | ⟨0, _⟩ => show win2_2.index t (0 : Fin 2) * 128 + 1 * k.val = k.val; omega
  | ⟨1, _⟩ => show win2_2.index t (1 : Fin 2) * 128 + 1 * k'.val = k'.val; omega

/-- The second weight's block at every point is the whole array. -/
theorem wblk3 (c : Dev nD) (t : Fin cfg2.N) (k k' : Fin 128) :
    (Gen.iblk2 V c 3 t : Vec Ideal S128x128 .f32) (ix2 k k') = (V c main_v53 : FVec Ideal S128x128 .f32) (ix2 k k') := by
  obtain ⟨-, -, -, -, -, -, e0, e1, -⟩ := idx_facts t
  unfold Gen.iblk2
  rw [View.read_apply]
  show (V c main_v53 : FVec Ideal S128x128 .f32) _ = _
  refine congrArg (V c main_v53 : FVec Ideal S128x128 .f32) (funext fun a => Fin.ext ?_)
  match a with
  | ⟨0, _⟩ => show win2_3.index t (0 : Fin 2) * 128 + 1 * k.val = k.val; omega
  | ⟨1, _⟩ => show win2_3.index t (1 : Fin 2) * 128 + 1 * k'.val = k'.val; omega

/-- The shared weight's block at every point is the whole array. -/
theorem wblk4 (c : Dev nD) (t : Fin cfg2.N) (k' o o' : Fin 128) (ho : o'.val = o.val) :
    (Gen.iblk2 V c 4 t : Vec Ideal S128x128 .f32) (ix2 k' o) = (V c main_v35 : FVec Ideal S128x128 .f32) (ix2 k' o') := by
  obtain ⟨-, -, -, -, -, -, -, -, e0, e1, -⟩ := idx_facts t
  unfold Gen.iblk2
  rw [View.read_apply]
  show (V c main_v35 : FVec Ideal S128x128 .f32) _ = _
  refine congrArg (V c main_v35 : FVec Ideal S128x128 .f32) (funext fun a => Fin.ext ?_)
  match a with
  | ⟨0, _⟩ => show win2_4.index t (0 : Fin 2) * 128 + 1 * k'.val = k'.val; omega
  | ⟨1, _⟩ => show win2_4.index t (1 : Fin 2) * 128 + 1 * o.val = o'.val; omega

/-- The bias row's block at every point is the whole row. -/
theorem wblk5 (c : Dev nD) (t : Fin cfg2.N) (o o' : Fin 128) (ho : o'.val = o.val) :
    (Gen.iblk2 V c 5 t : Vec Ideal S1x128 .f32) (ix2 (0 : Fin 1) o) = (V c main_v54 : FVec Ideal S1x128 .f32) (ix2 (0 : Fin 1) o') := by
  obtain ⟨-, -, -, -, -, -, -, -, -, -, e0, e1, -⟩ := idx_facts t
  unfold Gen.iblk2
  rw [View.read_apply]
  show (V c main_v54 : FVec Ideal S1x128 .f32) _ = _
  refine congrArg (V c main_v54 : FVec Ideal S1x128 .f32) (funext fun a => Fin.ext ?_)
  match a with
  | ⟨0, _⟩ => show win2_5.index t (0 : Fin 2) * 1 + 1 * 0 = 0; omega
  | ⟨1, _⟩ => show win2_5.index t (1 : Fin 2) * 128 + 1 * o.val = o'.val; omega

/-- Where entry (p, o) of the output's block at point t sits in the array: row 2000 t + p, column o. -/
theorem out_emb (t : Fin cfg2.N) (p : Fin 2000) (o : Fin 128) :
    ((((cfg2.win 6).blk t).view.emb (ix2 p o) : S50000x128.Idx) 0).val = t.val * 2000 + p.val
    ∧ ((((cfg2.win 6).blk t).view.emb (ix2 p o) : S50000x128.Idx) 1).val = o.val := by
  obtain ⟨-, -, -, -, -, -, -, -, -, -, -, -, e0, e1⟩ := idx_facts t
  constructor
  · show win2_6.index t (0 : Fin 2) * 2000 + 1 * p.val = _; omega
  · show win2_6.index t (1 : Fin 2) * 128 + 1 * o.val = _; omega

/-- WHAT POINT t WRITES BACK is block t of the whole-array function. -/
theorem flushed_eq (c : Dev nD) (t : Fin cfg2.N) :
    (Gen.dat2 (F := Ideal) V c).flushed 6 t = ((cfg2.win 6).blk t).view.read (Elt Ideal) (G V c) := by
  show (cfg2.win 6).cut (grid2.coords t) ((Gen.dat2 V c).after 6 t) = _
  rw [Gen.after2_6]
  unfold Gen.out2_6
  rw [View.canon_unit_zero hz]
  simp only [View.ld_unit_zero (S := S2000x128) hz, View.ld_unit_zero (S := S128x128) hz, View.ld_unit_zero (S := S1x128) hz]
  funext j
  obtain ⟨p, o, rfl⟩ : ∃ (p : Fin 2000) (o : Fin 128), j = ix2 p o := ⟨j 0, j 1, eq_ix2 j⟩
  obtain ⟨h0, h1⟩ := out_emb t p o
  show Gen.k2_pay1 (F := Ideal) (Gen.iblk2 V c 0 t) (Gen.iblk2 V c 1 t) (Gen.iblk2 V c 2 t) (Gen.iblk2 V c 3 t)
      (Gen.iblk2 V c 4 t) (Gen.iblk2 V c 5 t) (ix2 p o)
    = G V c (((cfg2.win 6).blk t).view.emb (ix2 p o))
  refine (pay_apply (Gen.iblk2 V c 0 t) (Gen.iblk2 V c 1 t) (Gen.iblk2 V c 2 t) (Gen.iblk2 V c 3 t)
      (Gen.iblk2 V c 4 t) (Gen.iblk2 V c 5 t) p o).trans ?_
  unfold G Cert.Spec.sage
  refine congrArg₂ (fun a b : EReal => a + b) (Finset.sum_congr rfl fun k' _ =>
    congrArg₂ (fun a b : EReal => a * b) (congrArg₂ (fun a b : EReal => a + b)
      (Finset.sum_congr rfl fun k _ => congrArg₂ (fun a b : EReal => a * b) ?_ ?_)
      (Finset.sum_congr rfl fun k _ => congrArg₂ (fun a b : EReal => a * b) ?_ ?_)) ?_) ?_
  · exact rowblk0 V c t p k _ h0
  · exact wblk2 V c t k k'
  · exact rowblk1 V c t p k _ h0
  · exact wblk3 V c t k k'
  · exact wblk4 V c t k' o _ h1
  · exact wblk5 V c t o _ h1

/-! ## The whole array -/

/-- An index of the array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v55).slice (win2_6.rect t)).set ↔ _
  rw [View.set_slice_whole, Rect.mem_set_unit]
  exact Iff.rfl

/-- Every row lies in the block of the point (row / 2000). -/
theorem cover (i : S50000x128.Idx) : ∃ t : Fin cfg2.N, (cfg2.win 6).flush t = true ∧ i ∈ ((cfg2.win 6).blk t).view.set := by
  have hN : cfg2.N = 25 := Gen.N_2
  have hi0 : (i 0).val < 50000 := (i 0).isLt
  have hi1 : (i 1).val < 128 := (i 1).isLt
  let t : Fin cfg2.N := ⟨(i 0).val / 2000, by omega⟩
  have ht : t.val = (i 0).val / 2000 := rfl
  obtain ⟨-, -, -, -, -, -, -, -, -, -, -, -, e0, e1⟩ := idx_facts t
  refine ⟨t, Gen.flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- THE ARRAY after the region: the whole-array function of the six input arrays. -/
theorem value (c : Dev nD) :
    (Gen.dat2 (F := Ideal) V c).arrAt 6 cfg2.N = Cert.Spec.sage (V c main_v47) (V c main_v34) (V c main_v50) (V c main_v53) (V c main_v35) (V c main_v54) :=
  (Gen.dat2 (F := Ideal) V c).arrAt_eq_of_cover 6 (G V c) (fun t _ => flushed_eq V c t) cover

end Cert.KernelIdeal.Region2

end
-- ==== Proof.Region3.lean ====
/-
  Region 3 of the idealized kernel (column normalisation followed by the positive part), as ONE function of whole arrays.

  The region runs over 25 grid points.  At point t its body reads rows 2000·t … 2000·t + 1999 of the data array and the
  four [1, 128] rows of column statistics (the same rows at every point), and stores, entry by entry,
      max (((x − μ) · rsqrt (v + ε)) · γ + β, 0)
  into rows 2000·t … 2000·t + 1999 of the output array.  Three facts give the array after the run:
    * the stored block, read at row p and column o, is that expression of the loaded blocks at (p, o) and (0, o);
    * the block of window w at point t sits at block index × block extent + the coordinate inside the block, and the
      index maps are decided over the 25 points: row block t for the data and the output, block 0 for the statistics;
    * row r of the output lies in the block of point r / 2000, and every point writes its block back.
  So the output array ends at the specification's function of the five input arrays as the region finds them.
-/
import proofs.«139068_j1623497638159_1_alg».proof.Proof.Gen.KernelIdeal.Frame
import proofs.«139068_j1623497638159_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

/-! ## The stored block at an entry -/

/-- The reciprocal square root of a vector, read at an index, is the reciprocal square root of the entry. -/
theorem rsqrt_at {s : Shape} {φ : FTy} (a : FVec Ideal s φ) (i : s.Idx) : rsqrt a i = Ideal.rsqrt (a i) := rfl

/-- Entry (p, o) of the block the body stores: the data block's entry (p, o), centred by the mean row's entry o,
    scaled by the reciprocal square root of the variance row's entry o plus ε and by the scale row's entry o,
    shifted by the bias row's entry o, and cut below at zero. -/
theorem stored_at (x0 : Vec Ideal S2000x128 .f32) (x1 x2 x3 x4 : Vec Ideal S1x128 .f32) (p : Fin 2000) (o : Fin 128) :
    Gen.k3_pay1 (F := Ideal) x0 x1 x2 x3 x4 (ix2 p o)
      = (max (((((x0 (ix2 p o) : EReal) - x1 (ix2 (0 : Fin 1) o)) * Ideal.rsqrt ((x2 (ix2 (0 : Fin 1) o) : EReal) + Cert.Spec.eps))
          * x3 (ix2 (0 : Fin 1) o) + x4 (ix2 (0 : Fin 1) o))) Cert.Spec.zero : EReal) := by
  unfold Gen.k3_pay1
  simp only [shapeCast_self, maximumf_apply, addf_apply, mulf_apply, subf_apply, broadcastTo_1b_ab_apply, rsqrt_at,
    broadcast_apply]
  rfl

/-! ## The blocks -/

section Blocks
variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The index maps over the 25 grid points: the data window and the output window are at row block t, column block 0;
    the four statistics windows stay at block (0, 0). -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry (p, o) of the data window's block at point t is the data array's entry at the place the output window's
    block puts (p, o): both windows are at row block t. -/
theorem data_block_at (t : Fin cfg3.N) (p : Fin 2000) (o : Fin 128) :
    (Gen.iblk3 (F := Ideal) V c 0 t : Vec Ideal S2000x128 .f32) (ix2 p o)
      = (V c main_v55 : S50000x128.Idx → EReal) (((cfg3.win 5).blk t).view.emb (ix2 p o)) := by
  obtain ⟨e0, e1, -, -, -, -, -, -, -, -, e10, e11⟩ := index_maps t
  unfold Gen.iblk3
  rw [View.read_apply]
  show V c main_v55 _ = V c main_v55 _
  refine congrArg _ (funext fun a => Fin.ext ?_)
  match a with
  | ⟨0, _⟩ => show win3_0.index t (0 : Fin 2) * 2000 + 1 * p.val = win3_5.index t (0 : Fin 2) * 2000 + 1 * p.val; rw [e0, e10]
  | ⟨1, _⟩ => show win3_0.index t (1 : Fin 2) * 128 + 1 * o.val = win3_5.index t (1 : Fin 2) * 128 + 1 * o.val; rw [e1, e11]

/-- Entry (0, o) of the mean window's block at any point is the mean row's entry at column o, the column of the
    place the output window's block puts (p, o): the window stays at block (0, 0) and the output's column block is 0. -/
theorem mean_block_at (t : Fin cfg3.N) (p : Fin 2000) (o : Fin 128) :
    (Gen.iblk3 (F := Ideal) V c 1 t : Vec Ideal S1x128 .f32) (ix2 (0 : Fin 1) o)
      = (V c main_v70 : S1x128.Idx → EReal) (ix2 (0 : Fin 1) ((((cfg3.win 5).blk t).view.emb (ix2 p o) : S50000x128.Idx) 1)) := by
  have e := index_maps t
  have ea : win3_1.index t (0 : Fin 2) = 0 := e.2.2.1
  have eb : win3_1.index t (1 : Fin 2) = 0 := e.2.2.2.1
  have ec : win3_5.index t (1 : Fin 2) = 0 := e.2.2.2.2.2.2.2.2.2.2.2
  unfold Gen.iblk3
  rw [View.read_apply]
  show V c main_v70 _ = V c main_v70 _
  refine congrArg _ (funext fun a => Fin.ext ?_)
  match a with
  | ⟨0, _⟩ => show win3_1.index t (0 : Fin 2) * 1 + 1 * 0 = 0; rw [ea]
  | ⟨1, _⟩ => show win3_1.index t (1 : Fin 2) * 128 + 1 * o.val = win3_5.index t (1 : Fin 2) * 128 + 1 * o.val; rw [eb, ec]

/-- Entry (0, o) of the variance window's block at any point is the variance row's entry at column o, the column of the
    place the output window's block puts (p, o): the window stays at block (0, 0) and the output's column block is 0. -/
theorem variance_block_at (t : Fin cfg3.N) (p : Fin 2000) (o : Fin 128) :
    (Gen.iblk3 (F := Ideal) V c 2 t : Vec Ideal S1x128 .f32) (ix2 (0 : Fin 1) o)
      = (V c main_v71 : S1x128.Idx → EReal) (ix2 (0 : Fin 1) ((((cfg3.win 5).blk t).view.emb (ix2 p o) : S50000x128.Idx) 1)) := by
  have e := index_maps t
  have ea : win3_2.index t (0 : Fin 2) = 0 := e.2.2.2.2.1
  have eb : win3_2.index t (1 : Fin 2) = 0 := e.2.2.2.2.2.1
  have ec : win3_5.index t (1 : Fin 2) = 0 := e.2.2.2.2.2.2.2.2.2.2.2
  unfold Gen.iblk3
  rw [View.read_apply]
  show V c main_v71 _ = V c main_v71 _
  refine congrArg _ (funext fun a => Fin.ext ?_)
  match a with
  | ⟨0, _⟩ => show win3_2.index t (0 : Fin 2) * 1 + 1 * 0 = 0; rw [ea]
  | ⟨1, _⟩ => show win3_2.index t (1 : Fin 2) * 128 + 1 * o.val = win3_5.index t (1 : Fin 2) * 128 + 1 * o.val; rw [eb, ec]

/-- Entry (0, o) of the scale window's block at any point is the scale row's entry at column o, the column of the
    place the output window's block puts (p, o): the window stays at block (0, 0) and the output's column block is 0. -/
theorem scale_block_at (t : Fin cfg3.N) (p : Fin 2000) (o : Fin 128) :
    (Gen.iblk3 (F := Ideal) V c 3 t : Vec Ideal S1x128 .f32) (ix2 (0 : Fin 1) o)
      = (V c main_v72 : S1x128.Idx → EReal) (ix2 (0 : Fin 1) ((((cfg3.win 5).blk t).view.emb (ix2 p o) : S50000x128.Idx) 1)) := by
  have e := index_maps t
  have ea : win3_3.index t (0 : Fin 2) = 0 := e.2.2.2.2.2.2.1
  have eb : win3_3.index t (1 : Fin 2) = 0 := e.2.2.2.2.2.2.2.1
  have ec : win3_5.index t (1 : Fin 2) = 0 := e.2.2.2.2.2.2.2.2.2.2.2
  unfold Gen.iblk3
  rw [View.read_apply]
  show V c main_v72 _ = V c main_v72 _
  refine congrArg _ (funext fun a => Fin.ext ?_)
  match a with
  | ⟨0, _⟩ => show win3_3.index t (0 : Fin 2) * 1 + 1 * 0 = 0; rw [ea]
  | ⟨1, _⟩ => show win3_3.index t (1 : Fin 2) * 128 + 1 * o.val = win3_5.index t (1 : Fin 2) * 128 + 1 * o.val; rw [eb, ec]

/-- Entry (0, o) of the bias window's block at any point is the bias row's entry at column o, the column of the
    place the output window's block puts (p, o): the window stays at block (0, 0) and the output's column block is 0. -/
theorem bias_block_at (t : Fin cfg3.N) (p : Fin 2000) (o : Fin 128) :
    (Gen.iblk3 (F := Ideal) V c 4 t : Vec Ideal S1x128 .f32) (ix2 (0 : Fin 1) o)
      = (V c main_v73 : S1x128.Idx → EReal) (ix2 (0 : Fin 1) ((((cfg3.win 5).blk t).view.emb (ix2 p o) : S50000x128.Idx) 1)) := by
  have e := index_maps t
  have ea : win3_4.index t (0 : Fin 2) = 0 := e.2.2.2.2.2.2.2.2.1
  have eb : win3_4.index t (1 : Fin 2) = 0 := e.2.2.2.2.2.2.2.2.2.1
  have ec : win3_5.index t (1 : Fin 2) = 0 := e.2.2.2.2.2.2.2.2.2.2.2
  unfold Gen.iblk3
  rw [View.read_apply]
  show V c main_v73 _ = V c main_v73 _
  refine congrArg _ (funext fun a => Fin.ext ?_)
  match a with
  | ⟨0, _⟩ => show win3_4.index t (0 : Fin 2) * 1 + 1 * 0 = 0; rw [ea]
  | ⟨1, _⟩ => show win3_4.index t (1 : Fin 2) * 128 + 1 * o.val = win3_5.index t (1 : Fin 2) * 128 + 1 * o.val; rw [eb, ec]

/-! ## What a point writes back, and the array after the run -/

/-- What point t writes back is block t of the specification's function of the five arrays as the region finds them. -/
theorem flushed_eq (t : Fin cfg3.N) :
    (Gen.dat3 (F := Ideal) V c).flushed 5 t
      = ((cfg3.win 5).blk t).view.read (Elt Ideal) (Cert.Spec.bnRelu (V c main_v55) (V c main_v70) (V c main_v71) (V c main_v72) (V c main_v73)) := by
  show (cfg3.win 5).cut (grid3.coords t) ((Gen.dat3 V c).after 5 t) = _
  rw [Gen.after3_5]
  unfold Gen.out3_5
  rw [View.canon_unit_zero zero_offsets]
  simp only [View.ld_unit_zero (S := S2000x128) zero_offsets, View.ld_unit_zero (S := S1x128) zero_offsets]
  refine funext fun (j : S2000x128.Idx) => ?_
  obtain ⟨p, o, rfl⟩ : ∃ (p : Fin 2000) (o : Fin 128), j = ix2 p o := ⟨j 0, j 1, eq_ix2 j⟩
  refine (stored_at (Gen.iblk3 V c 0 t) (Gen.iblk3 V c 1 t) (Gen.iblk3 V c 2 t) (Gen.iblk3 V c 3 t) (Gen.iblk3 V c 4 t) p o).trans ?_
  rw [data_block_at V c t p o, mean_block_at V c t p o, variance_block_at V c t p o, scale_block_at V c t p o,
    bias_block_at V c t p o, View.read_apply]
  rfl

/-- An index of the output array is in point t's block iff each coordinate is in the block's range on its axis. -/
theorem mem_blk (t : Fin cfg3.N) (i : S50000x128.Idx) :
    i ∈ ((cfg3.win 5).blk t).view.set
      ↔ ∀ a : Fin 2, win3_5.index t a * S2000x128.size a ≤ (i a).val ∧ (i a).val < win3_5.index t a * S2000x128.size a + S2000x128.size a := by
  show i ∈ ((View.whole main_v74).slice (win3_5.rect t)).set ↔ _
  rw [View.set_slice_whole, Rect.mem_set_unit]
  exact Iff.rfl

/-- Row r of the output array lies in the block of point r / 2000, and that point writes its block back. -/
theorem cover (i : S50000x128.Idx) :
    ∃ t : Fin cfg3.N, (cfg3.win 5).flush t = true ∧ i ∈ ((cfg3.win 5).blk t).view.set := by
  have hN : cfg3.N = 25 := Gen.N_3
  have hi0 : (i 0).val < 50000 := (i 0).isLt
  have hi1 : (i 1).val < 128 := (i 1).isLt
  have ht : (i 0).val / 2000 < cfg3.N := by rw [hN]; omega
  have e := index_maps ⟨(i 0).val / 2000, ht⟩
  have e0 : win3_5.index ⟨(i 0).val / 2000, ht⟩ (0 : Fin 2) = (i 0).val / 2000 := e.2.2.2.2.2.2.2.2.2.2.1
  have e1 : win3_5.index ⟨(i 0).val / 2000, ht⟩ (1 : Fin 2) = 0 := e.2.2.2.2.2.2.2.2.2.2.2
  refine ⟨⟨(i 0).val / 2000, ht⟩, Gen.flush3_5 _, ?_⟩
  rw [mem_blk]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [e0]; omega
  | ⟨1, _⟩ =>
    show win3_5.index ⟨(i 0).val / 2000, ht⟩ (1 : Fin 2) * 128 ≤ (i 1).val
      ∧ (i 1).val < win3_5.index ⟨(i 0).val / 2000, ht⟩ (1 : Fin 2) * 128 + 128
    rw [e1]; omega

end Blocks

/-- THE ARRAY AFTER THE RUN: the region's output array is the specification's function of its five input arrays as the
    region finds them. -/
theorem value (V : (c : Dev nD) → (b : Ref sig .tc) → Buf (Elt Ideal) ((c : Thread nD τ).loc b)) (c : Dev nD) :
    (Gen.dat3 (F := Ideal) V c).arrAt 5 cfg3.N = Cert.Spec.bnRelu (V c main_v55) (V c main_v70) (V c main_v71) (V c main_v72) (V c main_v73) :=
  (Gen.dat3 (F := Ideal) V c).arrAt_eq_of_cover 5 (Cert.Spec.bnRelu (V c main_v55) (V c main_v70) (V c main_v71) (V c main_v72) (V c main_v73))
    (fun t _ => flushed_eq V c t) cover

end Cert.KernelIdeal.Region3

end
-- ==== Proof.Region4.lean ====
/-
  The value of the second neighbour/root combination: the array the region leaves is ONE function of its six input arrays,
  entry by entry on the extended reals,

      out(r, o) = ∑ k', ((∑ k, a(r, k) · wl(k, k')) + (∑ k, h(r, k) · wr(k, k'))) · ww(k', o)  +  b(0, o).

  The region walks 25 grid points; at point t it reads rows 2000 t … 2000 t + 1999 of the two [50000, 128] inputs, the
  three [128, 128] weights and the [1, 128] bias row whole, and writes rows 2000 t … 2000 t + 1999 of the output.

  * The stored value at an entry (p, o) of the block: rounding to the narrower format is the identity on the extended
    reals, a cast of a shape to itself is the identity, each product into the zero accumulator is the sum over the
    shared axis, the bias row is read at (0, o).
  * An entry of a row block is the array's entry in row 2000 t + p; a whole-array block is the array.
  * So point t writes back block t of the function above; row r lies in the block of point r / 2000, and every point
    writes back: the array ends holding the function.
-/
import proofs.«139068_j1623497638159_1_alg».proof.Proof.Gen.KernelIdeal.Frame
import proofs.«139068_j1623497638159_1_alg».proof.Proof.Spec
import proofs.«139068_j1623497638159_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

/-! ## The stored value at an entry -/

/-- A pointwise sum of two vectors of extended reals, at an index. -/
theorem addf_at {s : Shape} {φ : FTy} (x y : FVec Ideal s φ) (i : s.Idx) :
    addf x y i = ((x i : EReal) + (y i : EReal) : EReal) := rfl

/-- A product with the plain dimension numbers into the zero accumulator, at an entry: the sum over the shared axis. -/
theorem mm_at (L : FVec Ideal S2000x128 .bf16) (R : FVec Ideal S128x128 .bf16) (p : Fin 2000) (o : Fin 128) :
    matmul dot_S2000x128_S128x128_S2000x128_1_0_0_1_n_n none L R (constant S2000x128 .f32 0x00000000#32) (ix2 p o)
      = ∑ k : Fin 128, (L (ix2 p k) : EReal) * (R (ix2 k o) : EReal) :=
  Cert.LibPlainDot.matmul_zero_apply (n := 2000) (a := 128) (b := 128) none L R p o

/-- The value the body stores, at row p and column o of the block: the two products of the row blocks with their
    weights are added, the sum is multiplied by the shared weight, and the bias row is added. -/
theorem pay_apply (x0 x1 : Vec Ideal S2000x128 .f32) (x2 x3 x4 : Vec Ideal S128x128 .f32) (x5 : Vec Ideal S1x128 .f32)
    (p : Fin 2000) (o : Fin 128) :
    Gen.k4_pay1 (F := Ideal) x0 x1 x2 x3 x4 x5 (ix2 p o)
      = ((∑ k' : Fin 128, ((∑ k : Fin 128, (x0 (ix2 p k) : EReal) * x2 (ix2 k k'))
          + (∑ k : Fin 128, (x1 (ix2 p k) : EReal) * x3 (ix2 k k'))) * x4 (ix2 k' o)) + x5 (ix2 (0 : Fin 1) o) : EReal) := by
  unfold Gen.k4_pay1
  refine (addf_at _ _ _).trans ?_
  refine congrArg₂ (fun a b : EReal => a + b) ?_ ?_
  · refine (mm_at _ _ p o).trans ?_
    refine Finset.sum_congr rfl fun k' _ => ?_
    refine congrArg₂ (fun a b : EReal => a * b) ?_ ?_
    · show addf (F := Ideal) _ _ (ix2 p k') = _
      refine (addf_at _ _ _).trans ?_
      refine congrArg₂ (fun a b : EReal => a + b) ?_ ?_
      · refine (mm_at _ _ p k').trans ?_
        refine Finset.sum_congr rfl fun k _ => ?_
        refine congrArg₂ (fun a b : EReal => a * b) ?_ ?_
        · show shapeCast S2000x128 x0 shapeCasts_S2000x128_S2000x128 (ix2 p k) = _
          rw [shapeCast_self]
        · show shapeCast S128x128 x2 shapeCasts_S128x128_S128x128 (ix2 k k') = _
          rw [shapeCast_self]
      · refine (mm_at _ _ p k').trans ?_
        refine Finset.sum_congr rfl fun k _ => ?_
        refine congrArg₂ (fun a b : EReal => a * b) ?_ ?_
        · show shapeCast S2000x128 x1 shapeCasts_S2000x128_S2000x128 (ix2 p k) = _
          rw [shapeCast_self]
        · show shapeCast S128x128 x3 shapeCasts_S128x128_S128x128 (ix2 k k') = _
          rw [shapeCast_self]
    · show shapeCast S128x128 x4 shapeCasts_S128x128_S128x128 (ix2 k' o) = _
      rw [shapeCast_self]
  · refine (broadcastTo_1b_ab_apply _ broadcasts_S1x128_S2000x128 p o).trans ?_
    rw [shapeCast_self]

/-! ## What each grid point writes back -/

theorem hz : (![0, 0] : Fin 2 → Nat) = fun _ => 0 := funext fun a => by fin_cases a <;> rfl

variable (V : (c : Dev nD) → (b : Ref sig .tc) → Buf (Elt Ideal) ((c : Thread nD τ).loc b))

/-- The output array as one function of the six input arrays. -/
abbrev G (c : Dev nD) : Buf (Elt Ideal) ((c : Thread nD τ).loc main_v94) :=
  Cert.Spec.sage (V c main_v86) (V c main_v74) (V c main_v89) (V c main_v92) (V c main_v35) (V c main_v93)

/-- The block indices over the grid: the two row-block inputs and the output are at block (t, 0) at point t, the four
    small operands at block (0, 0) at every point. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Entry (p, k) of the first input's row block at point t is the array's entry in row 2000 t + p. -/
theorem rowblk0 (c : Dev nD) (t : Fin cfg4.N) (p : Fin 2000) (k : Fin 128) (r : Fin 50000)
    (hr : r.val = t.val * 2000 + p.val) :
    (Gen.iblk4 V c 0 t : Vec Ideal S2000x128 .f32) (ix2 p k) = (V c main_v86 : FVec Ideal S50000x128 .f32) (ix2 r k) := by
  obtain ⟨e0, e1, -⟩ := idx_facts t
  unfold Gen.iblk4
  rw [View.read_apply]
  show (V c main_v86 : FVec Ideal S50000x128 .f32) _ = _
  refine congrArg (V c main_v86 : FVec Ideal S50000x128 .f32) (funext fun a => Fin.ext ?_)
  match a with
  | ⟨0, _⟩ => show win4_0.index t (0 : Fin 2) * 2000 + 1 * p.val = r.val; omega
  | ⟨1, _⟩ => show win4_0.index t (1 : Fin 2) * 128 + 1 * k.val = k.val; omega

/-- Entry (p, k) of the second input's row block at point t is the array's entry in row 2000 t + p. -/
theorem rowblk1 (c : Dev nD) (t : Fin cfg4.N) (p : Fin 2000) (k : Fin 128) (r : Fin 50000)
    (hr : r.val = t.val * 2000 + p.val) :
    (Gen.iblk4 V c 1 t : Vec Ideal S2000x128 .f32) (ix2 p k) = (V c main_v74 : FVec Ideal S50000x128 .f32) (ix2 r k) := by
  obtain ⟨-, -, e0, e1, -⟩ := idx_facts t
  unfold Gen.iblk4
  rw [View.read_apply]
  show (V c main_v74 : FVec Ideal S50000x128 .f32) _ = _
  refine congrArg (V c main_v74 : FVec Ideal S50000x128 .f32) (funext fun a => Fin.ext ?_)
  match a with
  | ⟨0, _⟩ => show win4_1.index t (0 : Fin 2) * 2000 + 1 * p.val = r.val; omega
  | ⟨1, _⟩ => show win4_1.index t (1 : Fin 2) * 128 + 1 * k.val = k.val; omega

/-- The first weight's block at every point is the whole array. -/
theorem wblk2 (c : Dev nD) (t : Fin cfg4.N) (k k' : Fin 128) :
    (Gen.iblk4 V c 2 t : Vec Ideal S128x128 .f32) (ix2 k k') = (V c main_v89 : FVec Ideal S128x128 .f32) (ix2 k k') := by
  obtain ⟨-, -, -, -, e0, e1, -⟩ := idx_facts t
  unfold Gen.iblk4
  rw [View.read_apply]
  show (V c main_v89 : FVec Ideal S128x128 .f32) _ = _
  refine congrArg (V c main_v89 : FVec Ideal S128x128 .f32) (funext fun a => Fin.ext ?_)
  match a with
  | ⟨0, _⟩ => show win4_2.index t (0 : Fin 2) * 128 + 1 * k.val = k.val; omega
  | ⟨1, _⟩ => show win4_2.index t (1 : Fin 2) * 128 + 1 * k'.val = k'.val; omega

/-- The second weight's block at every point is the whole array. -/
theorem wblk3 (c : Dev nD) (t : Fin cfg4.N) (k k' : Fin 128) :
    (Gen.iblk4 V c 3 t : Vec Ideal S128x128 .f32) (ix2 k k') = (V c main_v92 : FVec Ideal S128x128 .f32) (ix2 k k') := by
  obtain ⟨-, -, -, -, -, -, e0, e1, -⟩ := idx_facts t
  unfold Gen.iblk4
  rw [View.read_apply]
  show (V c main_v92 : FVec Ideal S128x128 .f32) _ = _
  refine congrArg (V c main_v92 : FVec Ideal S128x128 .f32) (funext fun a => Fin.ext ?_)
  match a with
  | ⟨0, _⟩ => show win4_3.index t (0 : Fin 2) * 128 + 1 * k.val = k.val; omega
  | ⟨1, _⟩ => show win4_3.index t (1 : Fin 2) * 128 + 1 * k'.val = k'.val; omega

/-- The shared weight's block at every point is the whole array. -/
theorem wblk4 (c : Dev nD) (t : Fin cfg4.N) (k' o o' : Fin 128) (ho : o'.val = o.val) :
    (Gen.iblk4 V c 4 t : Vec Ideal S128x128 .f32) (ix2 k' o) = (V c main_v35 : FVec Ideal S128x128 .f32) (ix2 k' o') := by
  obtain ⟨-, -, -, -, -, -, -, -, e0, e1, -⟩ := idx_facts t
  unfold Gen.iblk4
  rw [View.read_apply]
  show (V c main_v35 : FVec Ideal S128x128 .f32) _ = _
  refine congrArg (V c main_v35 : FVec Ideal S128x128 .f32) (funext fun a => Fin.ext ?_)
  match a with
  | ⟨0, _⟩ => show win4_4.index t (0 : Fin 2) * 128 + 1 * k'.val = k'.val; omega
  | ⟨1, _⟩ => show win4_4.index t (1 : Fin 2) * 128 + 1 * o.val = o'.val; omega

/-- The bias row's block at every point is the whole row. -/
theorem wblk5 (c : Dev nD) (t : Fin cfg4.N) (o o' : Fin 128) (ho : o'.val = o.val) :
    (Gen.iblk4 V c 5 t : Vec Ideal S1x128 .f32) (ix2 (0 : Fin 1) o) = (V c main_v93 : FVec Ideal S1x128 .f32) (ix2 (0 : Fin 1) o') := by
  obtain ⟨-, -, -, -, -, -, -, -, -, -, e0, e1, -⟩ := idx_facts t
  unfold Gen.iblk4
  rw [View.read_apply]
  show (V c main_v93 : FVec Ideal S1x128 .f32) _ = _
  refine congrArg (V c main_v93 : FVec Ideal S1x128 .f32) (funext fun a => Fin.ext ?_)
  match a with
  | ⟨0, _⟩ => show win4_5.index t (0 : Fin 2) * 1 + 1 * 0 = 0; omega
  | ⟨1, _⟩ => show win4_5.index t (1 : Fin 2) * 128 + 1 * o.val = o'.val; omega

/-- Where entry (p, o) of the output's block at point t sits in the array: row 2000 t + p, column o. -/
theorem out_emb (t : Fin cfg4.N) (p : Fin 2000) (o : Fin 128) :
    ((((cfg4.win 6).blk t).view.emb (ix2 p o) : S50000x128.Idx) 0).val = t.val * 2000 + p.val
    ∧ ((((cfg4.win 6).blk t).view.emb (ix2 p o) : S50000x128.Idx) 1).val = o.val := by
  obtain ⟨-, -, -, -, -, -, -, -, -, -, -, -, e0, e1⟩ := idx_facts t
  constructor
  · show win4_6.index t (0 : Fin 2) * 2000 + 1 * p.val = _; omega
  · show win4_6.index t (1 : Fin 2) * 128 + 1 * o.val = _; omega

/-- WHAT POINT t WRITES BACK is block t of the whole-array function. -/
theorem flushed_eq (c : Dev nD) (t : Fin cfg4.N) :
    (Gen.dat4 (F := Ideal) V c).flushed 6 t = ((cfg4.win 6).blk t).view.read (Elt Ideal) (G V c) := by
  show (cfg4.win 6).cut (grid4.coords t) ((Gen.dat4 V c).after 6 t) = _
  rw [Gen.after4_6]
  unfold Gen.out4_6
  rw [View.canon_unit_zero hz]
  simp only [View.ld_unit_zero (S := S2000x128) hz, View.ld_unit_zero (S := S128x128) hz, View.ld_unit_zero (S := S1x128) hz]
  funext j
  obtain ⟨p, o, rfl⟩ : ∃ (p : Fin 2000) (o : Fin 128), j = ix2 p o := ⟨j 0, j 1, eq_ix2 j⟩
  obtain ⟨h0, h1⟩ := out_emb t p o
  show Gen.k4_pay1 (F := Ideal) (Gen.iblk4 V c 0 t) (Gen.iblk4 V c 1 t) (Gen.iblk4 V c 2 t) (Gen.iblk4 V c 3 t)
      (Gen.iblk4 V c 4 t) (Gen.iblk4 V c 5 t) (ix2 p o)
    = G V c (((cfg4.win 6).blk t).view.emb (ix2 p o))
  refine (pay_apply (Gen.iblk4 V c 0 t) (Gen.iblk4 V c 1 t) (Gen.iblk4 V c 2 t) (Gen.iblk4 V c 3 t)
      (Gen.iblk4 V c 4 t) (Gen.iblk4 V c 5 t) p o).trans ?_
  unfold G Cert.Spec.sage
  refine congrArg₂ (fun a b : EReal => a + b) (Finset.sum_congr rfl fun k' _ =>
    congrArg₂ (fun a b : EReal => a * b) (congrArg₂ (fun a b : EReal => a + b)
      (Finset.sum_congr rfl fun k _ => congrArg₂ (fun a b : EReal => a * b) ?_ ?_)
      (Finset.sum_congr rfl fun k _ => congrArg₂ (fun a b : EReal => a * b) ?_ ?_)) ?_) ?_
  · exact rowblk0 V c t p k _ h0
  · exact wblk2 V c t k k'
  · exact rowblk1 V c t p k _ h0
  · exact wblk3 V c t k k'
  · exact wblk4 V c t k' o _ h1
  · exact wblk5 V c t o _ h1

/-! ## The whole array -/

/-- An index of the array is in point t's block iff each coordinate is in the block's range on its axis. -/
theorem mem_blk (t : Fin cfg4.N) (i : S50000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v94).slice (win4_6.rect t)).set ↔ _
  rw [View.set_slice_whole, Rect.mem_set_unit]
  exact Iff.rfl

/-- Every row lies in the block of the point (row / 2000). -/
theorem cover (i : S50000x128.Idx) : ∃ t : Fin cfg4.N, (cfg4.win 6).flush t = true ∧ i ∈ ((cfg4.win 6).blk t).view.set := by
  have hN : cfg4.N = 25 := Gen.N_4
  have hi0 : (i 0).val < 50000 := (i 0).isLt
  have hi1 : (i 1).val < 128 := (i 1).isLt
  let t : Fin cfg4.N := ⟨(i 0).val / 2000, by omega⟩
  have ht : t.val = (i 0).val / 2000 := rfl
  obtain ⟨-, -, -, -, -, -, -, -, -, -, -, -, e0, e1⟩ := idx_facts t
  refine ⟨t, Gen.flush4_6 t, ?_⟩
  rw [mem_blk]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 128 ≤ (i 1).val ∧ (i 1).val < win4_6.index t (1 : Fin 2) * 128 + 128; omega

/-- THE ARRAY after the region: the whole-array function of the six input arrays. -/
theorem value (c : Dev nD) :
    (Gen.dat4 (F := Ideal) V c).arrAt 6 cfg4.N = Cert.Spec.sage (V c main_v86) (V c main_v74) (V c main_v89) (V c main_v92) (V c main_v35) (V c main_v93) :=
  (Gen.dat4 (F := Ideal) V c).arrAt_eq_of_cover 6 (G V c) (fun t _ => flushed_eq V c t) cover

end Cert.KernelIdeal.Region4

end
-- ==== Proof.Region5.lean ====
/-
  Region 5 of the idealized kernel (column normalisation followed by the positive part), as ONE function of whole arrays.

  The region runs over 25 grid points.  At point t its body reads rows 2000·t … 2000·t + 1999 of the data array and the
  four [1, 128] rows of column statistics (the same rows at every point), and stores, entry by entry,
      max (((x − μ) · rsqrt (v + ε)) · γ + β, 0)
  into rows 2000·t … 2000·t + 1999 of the output array.  Three facts give the array after the run:
    * the stored block, read at row p and column o, is that expression of the loaded blocks at (p, o) and (0, o);
    * the block of window w at point t sits at block index × block extent + the coordinate inside the block, and the
      index maps are decided over the 25 points: row block t for the data and the output, block 0 for the statistics;
    * row r of the output lies in the block of point r / 2000, and every point writes its block back.
  So the output array ends at the specification's function of the five input arrays as the region finds them.
-/
import proofs.«139068_j1623497638159_1_alg».proof.Proof.Gen.KernelIdeal.Frame
import proofs.«139068_j1623497638159_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen
open Idealize.ShloMosaic Idealize.ShloMosaic.TcCoe Idealize.SL.Sem Idealize.ShloMosaic.ValueIdx
open Idealize.ShloMosaic.Pipeline (Dat)

/-! ## The stored block at an entry -/

/-- The reciprocal square root of a vector, read at an index, is the reciprocal square root of the entry. -/
theorem rsqrt_at {s : Shape} {φ : FTy} (a : FVec Ideal s φ) (i : s.Idx) : rsqrt a i = Ideal.rsqrt (a i) := rfl

/-- Entry (p, o) of the block the body stores: the data block's entry (p, o), centred by the mean row's entry o,
    scaled by the reciprocal square root of the variance row's entry o plus ε and by the scale row's entry o,
    shifted by the bias row's entry o, and cut below at zero. -/
theorem stored_at (x0 : Vec Ideal S2000x128 .f32) (x1 x2 x3 x4 : Vec Ideal S1x128 .f32) (p : Fin 2000) (o : Fin 128) :
    Gen.k5_pay1 (F := Ideal) x0 x1 x2 x3 x4 (ix2 p o)
      = (max (((((x0 (ix2 p o) : EReal) - x1 (ix2 (0 : Fin 1) o)) * Ideal.rsqrt ((x2 (ix2 (0 : Fin 1) o) : EReal) + Cert.Spec.eps))
          * x3 (ix2 (0 : Fin 1) o) + x4 (ix2 (0 : Fin 1) o))) Cert.Spec.zero : EReal) := by
  unfold Gen.k5_pay1
  simp only [shapeCast_self, maximumf_apply, addf_apply, mulf_apply, subf_apply, broadcastTo_1b_ab_apply, rsqrt_at,
    broadcast_apply]
  rfl

/-! ## The blocks -/

section Blocks
variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The index maps over the 25 grid points: the data window and the output window are at row block t, column block 0;
    the four statistics windows stay at block (0, 0). -/
theorem index_maps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry (p, o) of the data window's block at point t is the data array's entry at the place the output window's
    block puts (p, o): both windows are at row block t. -/
theorem data_block_at (t : Fin cfg5.N) (p : Fin 2000) (o : Fin 128) :
    (Gen.iblk5 (F := Ideal) V c 0 t : Vec Ideal S2000x128 .f32) (ix2 p o)
      = (V c main_v94 : S50000x128.Idx → EReal) (((cfg5.win 5).blk t).view.emb (ix2 p o)) := by
  obtain ⟨e0, e1, -, -, -, -, -, -, -, -, e10, e11⟩ := index_maps t
  unfold Gen.iblk5
  rw [View.read_apply]
  show V c main_v94 _ = V c main_v94 _
  refine congrArg _ (funext fun a => Fin.ext ?_)
  match a with
  | ⟨0, _⟩ => show win5_0.index t (0 : Fin 2) * 2000 + 1 * p.val = win5_5.index t (0 : Fin 2) * 2000 + 1 * p.val; rw [e0, e10]
  | ⟨1, _⟩ => show win5_0.index t (1 : Fin 2) * 128 + 1 * o.val = win5_5.index t (1 : Fin 2) * 128 + 1 * o.val; rw [e1, e11]

/-- Entry (0, o) of the mean window's block at any point is the mean row's entry at column o, the column of the
    place the output window's block puts (p, o): the window stays at block (0, 0) and the output's column block is 0. -/
theorem mean_block_at (t : Fin cfg5.N) (p : Fin 2000) (o : Fin 128) :
    (Gen.iblk5 (F := Ideal) V c 1 t : Vec Ideal S1x128 .f32) (ix2 (0 : Fin 1) o)
      = (V c main_v109 : S1x128.Idx → EReal) (ix2 (0 : Fin 1) ((((cfg5.win 5).blk t).view.emb (ix2 p o) : S50000x128.Idx) 1)) := by
  have e := index_maps t
  have ea : win5_1.index t (0 : Fin 2) = 0 := e.2.2.1
  have eb : win5_1.index t (1 : Fin 2) = 0 := e.2.2.2.1
  have ec : win5_5.index t (1 : Fin 2) = 0 := e.2.2.2.2.2.2.2.2.2.2.2
  unfold Gen.iblk5
  rw [View.read_apply]
  show V c main_v109 _ = V c main_v109 _
  refine congrArg _ (funext fun a => Fin.ext ?_)
  match a with
  | ⟨0, _⟩ => show win5_1.index t (0 : Fin 2) * 1 + 1 * 0 = 0; rw [ea]
  | ⟨1, _⟩ => show win5_1.index t (1 : Fin 2) * 128 + 1 * o.val = win5_5.index t (1 : Fin 2) * 128 + 1 * o.val; rw [eb, ec]

/-- Entry (0, o) of the variance window's block at any point is the variance row's entry at column o, the column of the
    place the output window's block puts (p, o): the window stays at block (0, 0) and the output's column block is 0. -/
theorem variance_block_at (t : Fin cfg5.N) (p : Fin 2000) (o : Fin 128) :
    (Gen.iblk5 (F := Ideal) V c 2 t : Vec Ideal S1x128 .f32) (ix2 (0 : Fin 1) o)
      = (V c main_v110 : S1x128.Idx → EReal) (ix2 (0 : Fin 1) ((((cfg5.win 5).blk t).view.emb (ix2 p o) : S50000x128.Idx) 1)) := by
  have e := index_maps t
  have ea : win5_2.index t (0 : Fin 2) = 0 := e.2.2.2.2.1
  have eb : win5_2.index t (1 : Fin 2) = 0 := e.2.2.2.2.2.1
  have ec : win5_5.index t (1 : Fin 2) = 0 := e.2.2.2.2.2.2.2.2.2.2.2
  unfold Gen.iblk5
  rw [View.read_apply]
  show V c main_v110 _ = V c main_v110 _
  refine congrArg _ (funext fun a => Fin.ext ?_)
  match a with
  | ⟨0, _⟩ => show win5_2.index t (0 : Fin 2) * 1 + 1 * 0 = 0; rw [ea]
  | ⟨1, _⟩ => show win5_2.index t (1 : Fin 2) * 128 + 1 * o.val = win5_5.index t (1 : Fin 2) * 128 + 1 * o.val; rw [eb, ec]

/-- Entry (0, o) of the scale window's block at any point is the scale row's entry at column o, the column of the
    place the output window's block puts (p, o): the window stays at block (0, 0) and the output's column block is 0. -/
theorem scale_block_at (t : Fin cfg5.N) (p : Fin 2000) (o : Fin 128) :
    (Gen.iblk5 (F := Ideal) V c 3 t : Vec Ideal S1x128 .f32) (ix2 (0 : Fin 1) o)
      = (V c main_v111 : S1x128.Idx → EReal) (ix2 (0 : Fin 1) ((((cfg5.win 5).blk t).view.emb (ix2 p o) : S50000x128.Idx) 1)) := by
  have e := index_maps t
  have ea : win5_3.index t (0 : Fin 2) = 0 := e.2.2.2.2.2.2.1
  have eb : win5_3.index t (1 : Fin 2) = 0 := e.2.2.2.2.2.2.2.1
  have ec : win5_5.index t (1 : Fin 2) = 0 := e.2.2.2.2.2.2.2.2.2.2.2
  unfold Gen.iblk5
  rw [View.read_apply]
  show V c main_v111 _ = V c main_v111 _
  refine congrArg _ (funext fun a => Fin.ext ?_)
  match a with
  | ⟨0, _⟩ => show win5_3.index t (0 : Fin 2) * 1 + 1 * 0 = 0; rw [ea]
  | ⟨1, _⟩ => show win5_3.index t (1 : Fin 2) * 128 + 1 * o.val = win5_5.index t (1 : Fin 2) * 128 + 1 * o.val; rw [eb, ec]

/-- Entry (0, o) of the bias window's block at any point is the bias row's entry at column o, the column of the
    place the output window's block puts (p, o): the window stays at block (0, 0) and the output's column block is 0. -/
theorem bias_block_at (t : Fin cfg5.N) (p : Fin 2000) (o : Fin 128) :
    (Gen.iblk5 (F := Ideal) V c 4 t : Vec Ideal S1x128 .f32) (ix2 (0 : Fin 1) o)
      = (V c main_v112 : S1x128.Idx → EReal) (ix2 (0 : Fin 1) ((((cfg5.win 5).blk t).view.emb (ix2 p o) : S50000x128.Idx) 1)) := by
  have e := index_maps t
  have ea : win5_4.index t (0 : Fin 2) = 0 := e.2.2.2.2.2.2.2.2.1
  have eb : win5_4.index t (1 : Fin 2) = 0 := e.2.2.2.2.2.2.2.2.2.1
  have ec : win5_5.index t (1 : Fin 2) = 0 := e.2.2.2.2.2.2.2.2.2.2.2
  unfold Gen.iblk5
  rw [View.read_apply]
  show V c main_v112 _ = V c main_v112 _
  refine congrArg _ (funext fun a => Fin.ext ?_)
  match a with
  | ⟨0, _⟩ => show win5_4.index t (0 : Fin 2) * 1 + 1 * 0 = 0; rw [ea]
  | ⟨1, _⟩ => show win5_4.index t (1 : Fin 2) * 128 + 1 * o.val = win5_5.index t (1 : Fin 2) * 128 + 1 * o.val; rw [eb, ec]

/-! ## What a point writes back, and the array after the run -/

/-- What point t writes back is block t of the specification's function of the five arrays as the region finds them. -/
theorem flushed_eq (t : Fin cfg5.N) :
    (Gen.dat5 (F := Ideal) V c).flushed 5 t
      = ((cfg5.win 5).blk t).view.read (Elt Ideal) (Cert.Spec.bnRelu (V c main_v94) (V c main_v109) (V c main_v110) (V c main_v111) (V c main_v112)) := by
  show (cfg5.win 5).cut (grid5.coords t) ((Gen.dat5 V c).after 5 t) = _
  rw [Gen.after5_5]
  unfold Gen.out5_5
  rw [View.canon_unit_zero zero_offsets]
  simp only [View.ld_unit_zero (S := S2000x128) zero_offsets, View.ld_unit_zero (S := S1x128) zero_offsets]
  refine funext fun (j : S2000x128.Idx) => ?_
  obtain ⟨p, o, rfl⟩ : ∃ (p : Fin 2000) (o : Fin 128), j = ix2 p o := ⟨j 0, j 1, eq_ix2 j⟩
  refine (stored_at (Gen.iblk5 V c 0 t) (Gen.iblk5 V c 1 t) (Gen.iblk5 V c 2 t) (Gen.iblk5 V c 3 t) (Gen.iblk5 V c 4 t) p o).trans ?_
  rw [data_block_at V c t p o, mean_block_at V c t p o, variance_block_at V c t p o, scale_block_at V c t p o,
    bias_block_at V c t p o, View.read_apply]
  rfl

/-- An index of the output array is in point t's block iff each coordinate is in the block's range on its axis. -/
theorem mem_blk (t : Fin cfg5.N) (i : S50000x128.Idx) :
    i ∈ ((cfg5.win 5).blk t).view.set
      ↔ ∀ a : Fin 2, win5_5.index t a * S2000x128.size a ≤ (i a).val ∧ (i a).val < win5_5.index t a * S2000x128.size a + S2000x128.size a := by
  show i ∈ ((View.whole main_v113).slice (win5_5.rect t)).set ↔ _
  rw [View.set_slice_whole, Rect.mem_set_unit]
  exact Iff.rfl

/-- Row r of the output array lies in the block of point r / 2000, and that point writes its block back. -/
theorem cover (i : S50000x128.Idx) :
    ∃ t : Fin cfg5.N, (cfg5.win 5).flush t = true ∧ i ∈ ((cfg5.win 5).blk t).view.set := by
  have hN : cfg5.N = 25 := Gen.N_5
  have hi0 : (i 0).val < 50000 := (i 0).isLt
  have hi1 : (i 1).val < 128 := (i 1).isLt
  have ht : (i 0).val / 2000 < cfg5.N := by rw [hN]; omega
  have e := index_maps ⟨(i 0).val / 2000, ht⟩
  have e0 : win5_5.index ⟨(i 0).val / 2000, ht⟩ (0 : Fin 2) = (i 0).val / 2000 := e.2.2.2.2.2.2.2.2.2.2.1
  have e1 : win5_5.index ⟨(i 0).val / 2000, ht⟩ (1 : Fin 2) = 0 := e.2.2.2.2.2.2.2.2.2.2.2
  refine ⟨⟨(i 0).val / 2000, ht⟩, Gen.flush5_5 _, ?_⟩
  rw [mem_blk]
  intro a
  match a with
  | ⟨0, _⟩ =>
    show win5_5.index ⟨(i 0).val / 2000, ht⟩ (0 : Fin 2) * 2000 ≤ (i 0).val
      ∧ (i 0).val < win5_5.index ⟨(i 0).val / 2000, ht⟩ (0 : Fin 2) * 2000 + 2000
    rw [e0]; omega
  | ⟨1, _⟩ =>
    show win5_5.index ⟨(i 0).val / 2000, ht⟩ (1 : Fin 2) * 128 ≤ (i 1).val
      ∧ (i 1).val < win5_5.index ⟨(i 0).val / 2000, ht⟩ (1 : Fin 2) * 128 + 128
    rw [e1]; omega

end Blocks

/-- THE ARRAY AFTER THE RUN: the region's output array is the specification's function of its five input arrays as the
    region finds them. -/
theorem value (V : (c : Dev nD) → (b : Ref sig .tc) → Buf (Elt Ideal) ((c : Thread nD τ).loc b)) (c : Dev nD) :
    (Gen.dat5 (F := Ideal) V c).arrAt 5 cfg5.N = Cert.Spec.bnRelu (V c main_v94) (V c main_v109) (V c main_v110) (V c main_v111) (V c main_v112) :=
  (Gen.dat5 (F := Ideal) V c).arrAt_eq_of_cover 5 (Cert.Spec.bnRelu (V c main_v94) (V c main_v109) (V c main_v110) (V c main_v111) (V c main_v112))
    (fun t _ => flushed_eq V c t) cover

end Cert.KernelIdeal.Region5

end
-- ==== Proof.Region6.lean ====
/-
  The last dense layer's region: the array it leaves is the affine map of the specification applied to the whole
  input arrays.

  The region walks 25 grid points. At point t it holds rows 2000·t … 2000·t + 1999 of the [50000, 128] node array, the
  whole [128, 40] weight and the whole [1, 40] bias row, and stores, at row p and column o of its [2000, 40] output block,

      ∑ k < 128, x(2000·t + p, k) · w(k, o)  +  b(0, o)

  (the product is a matrix product into a zero accumulator; the changes of number format on the way in are the
  identity on the extended reals, the re-shapings are of a shape to itself, and the bias row is repeated down the rows).
  That is entry (2000·t + p, o) of `Cert.Spec.linBias x w b`, so point t writes back block t of that one function; the
  25 blocks cover all 50000 rows (row r lies in block r / 2000), hence the array is the function.
-/
import proofs.«139068_j1623497638159_1_alg».proof.Proof.Gen.KernelIdeal.Frame
import proofs.«139068_j1623497638159_1_alg».proof.Proof.Spec
import proofs.«139068_j1623497638159_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region6

open Cert.KernelIdeal Cert.KernelIdeal.Gen Idealize.ShloMosaic Idealize.ShloMosaic.ValueIdx Idealize.ShloMosaic.TcCoe Idealize.SL.Sem
open Idealize.ShloMosaic.Pipeline (Dat)

/-- The arrays the region's four windows carry: the node array, the weight, the bias row, and the output. -/
theorem arrays : Pipeline.arrRef spec6 0 = main_v113 ∧ Pipeline.arrRef spec6 1 = main_v114
    ∧ Pipeline.arrRef spec6 2 = main_v115 ∧ Pipeline.arrRef spec6 3 = main_v116 := ⟨rfl, rfl, rfl, rfl⟩

/-- The body's stored value at row p, column o of a block: the p-th row of the first operand's block times the
    o-th column of the weight block, summed over the 128 shared positions, plus the bias row's entry o. -/
theorem pay_apply (x0 : Vec Ideal S2000x128 .f32) (x1 : Vec Ideal S128x40 .f32) (x2 : Vec Ideal S1x40 .f32)
    (p : Fin 2000) (o : Fin 40) :
    Gen.k6_pay1 x0 x1 x2 (ix2 p o)
      = ((∑ k : Fin 128, (x0 (ix2 p k) : EReal) * x1 (ix2 k o)) + x2 (ix2 (0 : Fin 1) o) : EReal) := by
  unfold Gen.k6_pay1
  refine (addf_apply _ _ _).trans ?_
  refine congrArg₂ (fun a b : EReal => a + b) ?_ ?_
  · rw [shapeCast_self, shapeCast_self]
    exact Cert.LibPlainDot.matmul_zero_apply none x0 x1 p o
  · rw [shapeCast_self]
    exact broadcastTo_apply x2 _ (ix2 p o) (ix2 (0 : Fin 1) o) (fun a => by match a with | ⟨0, _⟩ => rfl | ⟨1, _⟩ => rfl)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The block indices over the 25 grid points: the row blocks of the first operand and of the output sit at the grid
    point, column block 0; the weight and the bias are always their one whole block. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row p of the first operand's block at grid point t is row 2000·t + p of the array. -/
theorem blk0_apply (c : Dev nD) (t : Fin cfg6.N) (p : Fin 2000) (k : Fin 128) (r : Fin 50000)
    (h : r.val = t.val * 2000 + p.val) :
    (Gen.iblk6 V c 0 t : Vec Ideal S2000x128 .f32) (ix2 p k) = (V c main_v113 : S50000x128.Idx → EReal) (ix2 r k) := by
  obtain ⟨e0, e1, -⟩ := idx_facts t
  unfold Gen.iblk6
  rw [View.read_apply]
  show V c main_v113 _ = V c main_v113 _
  refine congrArg (V c main_v113) (funext fun a => Fin.ext ?_)
  match a with
  | ⟨0, _⟩ => show win6_0.index t (0 : Fin 2) * 2000 + 1 * p.val = r.val; rw [e0, h]; omega
  | ⟨1, _⟩ => show win6_0.index t (1 : Fin 2) * 128 + 1 * k.val = k.val; rw [e1]; omega

/-- The weight's block at every grid point is the whole weight array. -/
theorem blk1_apply (c : Dev nD) (t : Fin cfg6.N) (k : Fin 128) (o o' : Fin 40) (h : o'.val = o.val) :
    (Gen.iblk6 V c 1 t : Vec Ideal S128x40 .f32) (ix2 k o) = (V c main_v114 : S128x40.Idx → EReal) (ix2 k o') := by
  obtain ⟨-, -, e0, e1, -⟩ := idx_facts t
  unfold Gen.iblk6
  rw [View.read_apply]
  show V c main_v114 _ = V c main_v114 _
  refine congrArg (V c main_v114) (funext fun a => Fin.ext ?_)
  match a with
  | ⟨0, _⟩ => show win6_1.index t (0 : Fin 2) * 128 + 1 * k.val = k.val; rw [e0]; omega
  | ⟨1, _⟩ => show win6_1.index t (1 : Fin 2) * 40 + 1 * o.val = o'.val; rw [e1, h]; omega

/-- The bias's block at every grid point is the whole bias row. -/
theorem blk2_apply (c : Dev nD) (t : Fin cfg6.N) (o o' : Fin 40) (h : o'.val = o.val) :
    (Gen.iblk6 V c 2 t : Vec Ideal S1x40 .f32) (ix2 (0 : Fin 1) o) = (V c main_v115 : S1x40.Idx → EReal) (ix2 (0 : Fin 1) o') := by
  obtain ⟨-, -, -, -, e0, e1, -⟩ := idx_facts t
  unfold Gen.iblk6
  rw [View.read_apply]
  show V c main_v115 _ = V c main_v115 _
  refine congrArg (V c main_v115) (funext fun a => Fin.ext ?_)
  match a with
  | ⟨0, _⟩ => show win6_2.index t (0 : Fin 2) * 1 + 1 * 0 = 0; rw [e0]
  | ⟨1, _⟩ => show win6_2.index t (1 : Fin 2) * 40 + 1 * o.val = o'.val; rw [e1, h]; omega

/-- The output array as one function of the three input arrays: the affine map of the specification. -/
abbrev G (c : Dev nD) : S50000x40.Idx → EReal :=
  Cert.Spec.linBias (n := 50000) (a := 128) (d := 40) (V c main_v113) (V c main_v114) (V c main_v115)

/-- What grid point t writes back is block t of the affine map of the whole arrays: entry (p, o) of the block is the
    stored value at (p, o), whose row of the first operand is row 2000·t + p of the array and whose weight column and
    bias entry are those of the whole weight and bias. -/
theorem flushed_eq (c : Dev nD) (t : Fin cfg6.N) :
    (Gen.dat6 (F := Ideal) V c).flushed 3 t = ((cfg6.win 3).blk t).view.read (Elt Ideal) (G V c) := by
  show (cfg6.win 3).cut (grid6.coords t) ((Gen.dat6 V c).after 3 t) = _
  rw [Gen.after6_3]
  unfold Gen.out6_3
  rw [View.canon_unit_zero hz]
  simp only [View.ld_unit_zero (S := S2000x128) hz, View.ld_unit_zero (S := S128x40) hz, View.ld_unit_zero (S := S1x40) hz]
  obtain ⟨-, -, -, -, -, -, e0, e1⟩ := idx_facts t
  refine funext fun (j : S2000x40.Idx) => ?_
  obtain ⟨p, o, rfl⟩ : ∃ (p : Fin 2000) (o : Fin 40), j = ix2 p o := ⟨j 0, j 1, eq_ix2 j⟩
  show Gen.k6_pay1 (Gen.iblk6 V c 0 t) (Gen.iblk6 V c 1 t) (Gen.iblk6 V c 2 t) (ix2 p o)
      = G V c (((cfg6.win 3).blk t).view.emb (ix2 p o))
  refine (pay_apply (Gen.iblk6 V c 0 t) (Gen.iblk6 V c 1 t) (Gen.iblk6 V c 2 t) p o).trans ?_
  have h0 : ((((cfg6.win 3).blk t).view.emb (ix2 p o) : S50000x40.Idx) 0).val = t.val * 2000 + p.val := by
    show win6_3.index t (0 : Fin 2) * 2000 + 1 * p.val = _; rw [e0]; omega
  have h1 : ((((cfg6.win 3).blk t).view.emb (ix2 p o) : S50000x40.Idx) 1).val = o.val := by
    show win6_3.index t (1 : Fin 2) * 40 + 1 * o.val = _; rw [e1]; omega
  exact congrArg₂ (fun a b : EReal => a + b)
    (Finset.sum_congr rfl fun k _ => congrArg₂ (fun a b : EReal => a * b)
      (blk0_apply V c t p k _ h0) (blk1_apply V c t k o _ h1))
    (blk2_apply V c t o _ h1)

/-- An index of the output array lies in grid point t's block iff each coordinate lies in the block's range on its axis. -/
theorem mem_blk (t : Fin cfg6.N) (i : S50000x40.Idx) :
    i ∈ ((cfg6.win 3).blk t).view.set ↔ ∀ a : Fin 2, win6_3.index t a * S2000x40.size a ≤ (i a).val
      ∧ (i a).val < win6_3.index t a * S2000x40.size a + S2000x40.size a := by
  show i ∈ ((View.whole main_v116).slice (win6_3.rect t)).set ↔ _
  rw [View.set_slice_whole, Rect.mem_set_unit]
  exact Iff.rfl

/-- Every index of the output array lies in the block of some grid point that writes back: row r in that of point r / 2000. -/
theorem cover (i : S50000x40.Idx) :
    ∃ t : Fin cfg6.N, (cfg6.win 3).flush t = true ∧ i ∈ ((cfg6.win 3).blk t).view.set := by
  have hN : cfg6.N = 25 := Gen.N_6
  have hi0 : (i 0).val < 50000 := (i 0).isLt
  have hi1 : (i 1).val < 40 := (i 1).isLt
  have ht : (i 0).val / 2000 < cfg6.N := by rw [hN]; omega
  refine ⟨⟨(i 0).val / 2000, ht⟩, Gen.flush6_3 _, ?_⟩
  rw [mem_blk]
  obtain ⟨-, -, -, -, -, -, e0, e1⟩ := idx_facts ⟨(i 0).val / 2000, ht⟩
  intro a
  match a with
  | ⟨0, _⟩ =>
    show win6_3.index ⟨(i 0).val / 2000, ht⟩ (0 : Fin 2) * 2000 ≤ (i 0).val
      ∧ (i 0).val < win6_3.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win6_3.index ⟨(i 0).val / 2000, ht⟩ (1 : Fin 2) * 40 ≤ (i 1).val
      ∧ (i 1).val < win6_3.index ⟨(i 0).val / 2000, ht⟩ (1 : Fin 2) * 40 + 40
    rw [e1]
    omega

/-- After the region's run the output array is the affine map of the three input arrays as the region found them:
    every grid point writes back its block of that one function, and the blocks cover the array. -/
theorem value (c : Dev nD) :
    (Gen.dat6 (F := Ideal) V c).arrAt 3 cfg6.N = Cert.Spec.linBias (V c main_v113) (V c main_v114) (V c main_v115) :=
  (Gen.dat6 V c).arrAt_eq_of_cover 3 (G V c) (fun t _ => flushed_eq V c t) cover

end Cert.KernelIdeal.Region6

end
-- ==== Proof.RefNet.lean ====
/-
  The reference program's result as ONE function of the twelve argument arrays, spelt with the host operations exactly as
  the reference prints them, and cut at the values it uses more than once (the output of every layer), so that the term
  stays the size of the program.

  `pre0`, `bn`, `conv`, `head` are the reference's own dense stages (a `dot_general`, broadcasts of per-column vectors,
  element-wise arithmetic); the graph side and the column statistics are the same host operations the kernel's program
  applies.
-/
import proofs.«139068_j1623497638159_1_alg».proof.Proof.Gen.ReferenceIdeal
import Idealize.ShloMosaic.PureOps.Ideal

noncomputable section

namespace Cert.RefNet

open Idealize.ShloMosaic Cert.ReferenceIdeal Cert.ReferenceIdeal.Gen

/-- A float array of shape `s` at the ideal values. -/
abbrev Arr (s : Shape) := FVec Ideal s .f32
/-- An integer array of shape `s`. -/
abbrev ArrI (s : Shape) := IVec s 32

/-- Row 0 of the edge list: the source node of every edge. -/
def src (e : ArrI S2x640000) : ArrI S640000 :=
  shapeCast _ (extractStridedSlice S1x640000 ![0, 0] e slices_S2x640000_S1x640000_0_0) shapeCasts_S1x640000_S640000
/-- Row 1 of the edge list: the destination node of every edge. -/
def dst (e : ArrI S2x640000) : ArrI S640000 :=
  shapeCast _ (extractStridedSlice S1x640000 ![1, 0] e slices_S2x640000_S1x640000_1_0) shapeCasts_S1x640000_S640000

/-- 1 / max (in-degree, 1), as a column [N, 1]. -/
def invDeg (e : ArrI S2x640000) : Arr S50000x1 :=
  broadcastInDim S50000x1 ![0] bcast_S50000_S50000x1_0
    (Host.divf (F := Ideal) (broadcastInDim S50000 ![] bcast_S_S50000 (constant (F := Ideal) S_ .f32 0x3F800000#32))
      (maximumf
        (Host.scatterAdd (F := Ideal) scatter_S50000_S640000x1_S640000_n_0_0_1
          (broadcastInDim S50000 ![] bcast_S_S50000 (constant (F := Ideal) S_ .f32 0x00000000#32))
          (broadcastInDim S640000x1 ![0] bcast_S640000_S640000x1_0 (dst e))
          (broadcastInDim S640000 ![] bcast_S_S640000 (constant (F := Ideal) S_ .f32 0x3F800000#32)))
        (broadcastInDim S50000 ![] bcast_S_S50000 (constant (F := Ideal) S_ .f32 0x3F800000#32))))

/-- The source indices as the gather takes them (a negative index wrapped by N). -/
def srcIdx (e : ArrI S2x640000) : ArrI S640000x1 :=
  broadcastInDim S640000x1 ![0] bcast_S640000_S640000x1_0
    (select (cmpi .slt (src e) (broadcastInDim S640000 ![] bcast_S_S640000 (constantI S_ 32 0#32)))
      (addi (src e) (broadcastInDim S640000 ![] bcast_S_S640000 (constantI S_ 32 50000#32))) (src e))

/-- The mean of the rows of `h` over each node's in-neighbours. -/
def agg (h : Arr S50000x128) (e : ArrI S2x640000) : Arr S50000x128 :=
  mulf
    (Host.scatterAdd (F := Ideal) scatter_S50000x128_S640000x1_S640000x128_1_0_0_1
      (broadcastInDim S50000x128 ![] bcast_S_S50000x128 (constant (F := Ideal) S_ .f32 0x00000000#32))
      (broadcastInDim S640000x1 ![0] bcast_S640000_S640000x1_0 (dst e))
      (Host.gather gather_S50000x128_S640000x1_S640000x128_1_0_n_n_0_1_1128 h (srcIdx e)))
    (broadcastInDim S50000x128 ![0, 1] bcast_S50000x1_S50000x128_0_1 (invDeg e))

/-- A per-column vector [128] spread over every row of a [N, 128] array. -/
def spread (v : Arr S128) : Arr S50000x128 :=
  broadcastInDim S50000x128 ![0, 1] bcast_S1x128_S50000x128_0_1 (broadcastInDim S1x128 ![1] bcast_S128_S1x128_1 v)
/-- A vector [40] spread over every row of a [N, 40] array. -/
def spread40 (v : Arr S40) : Arr S50000x40 :=
  broadcastInDim S50000x40 ![0, 1] bcast_S1x40_S50000x40_0_1 (broadcastInDim S1x40 ![1] bcast_S40_S1x40_1 v)

/-- The mean of every column. -/
def colMean (p : Arr S50000x128) : Arr S128 :=
  Host.divf (F := Ideal)
    (Host.reduceAdd (F := Ideal) p (constant (F := Ideal) S_ .f32 0x00000000#32) reducesTo_S50000x128_S128_d0 h_S_)
    (broadcastInDim S128 ![] bcast_S_S128 (constant (F := Ideal) S_ .f32 0x47435000#32))

/-- `p` with its column means taken off. -/
def centred (p : Arr S50000x128) : Arr S50000x128 := subf p (spread (colMean p))

/-- The (biased) variance of every column. -/
def colVar (p : Arr S50000x128) : Arr S128 :=
  Host.divf (F := Ideal)
    (Host.reduceAdd (F := Ideal) (mulf (centred p) (centred p)) (constant (F := Ideal) S_ .f32 0x00000000#32)
      reducesTo_S50000x128_S128_d0 h_S_)
    (broadcastInDim S128 ![] bcast_S_S128 (constant (F := Ideal) S_ .f32 0x47435000#32))

/-- Row 0, 1, 2 of a [3, 128] table. -/
def tab0 (a : Arr S3x128) : Arr S128 :=
  shapeCast _ (extractStridedSlice S1x128 ![0, 0] a slices_S3x128_S1x128_0_0) shapeCasts_S1x128_S128
def tab1 (a : Arr S3x128) : Arr S128 :=
  shapeCast _ (extractStridedSlice S1x128 ![1, 0] a slices_S3x128_S1x128_1_0) shapeCasts_S1x128_S128
def tab2 (a : Arr S3x128) : Arr S128 :=
  shapeCast _ (extractStridedSlice S1x128 ![2, 0] a slices_S3x128_S1x128_2_0) shapeCasts_S1x128_S128

/-- The transpose of a square weight matrix. -/
def tr (a : Arr S128x128) : Arr S128x128 := transpose S128x128 [1, 0] a transposes_S128x128_S128x128_1_0
/-- The transpose of the [40, 128] head matrix. -/
def tr40 (a : Arr S40x128) : Arr S128x40 := transpose S128x40 [1, 0] a transposes_S40x128_S128x40_1_0
/-- Slab 0 / 1 of a [2, 128, 128] stack, transposed. -/
def slabT0 (a : Arr S2x128x128) : Arr S128x128 :=
  tr (shapeCast _ (extractStridedSlice S1x128x128 ![0, 0, 0] a slices_S2x128x128_S1x128x128_0_0_0) shapeCasts_S1x128x128_S128x128)
def slabT1 (a : Arr S2x128x128) : Arr S128x128 :=
  tr (shapeCast _ (extractStridedSlice S1x128x128 ![1, 0, 0] a slices_S2x128x128_S1x128x128_1_0_0) shapeCasts_S1x128x128_S128x128)

/-- The matrix product of a [N, 128] array with a [128, 128] matrix. -/
def mm (l : Arr S50000x128) (r : Arr S128x128) : Arr S50000x128 :=
  Host.dotGeneral (F := Ideal) dot_S50000x128_S128x128_S50000x128_1_0_0_1_n_n none l r

/-- The first linear layer: x · fc0ᵀ + b. -/
def pre0 (x0 : Arr S50000x128) (x2 : Arr S128x128) (x3 : Arr S128) : Arr S50000x128 :=
  addf (mm x0 (tr x2)) (spread x3)

/-- Batch normalisation with the batch's own statistics, then the positive part. -/
def bn (p : Arr S50000x128) (sc bi : Arr S128) : Arr S50000x128 :=
  maximumf
    (addf (mulf (mulf (centred p)
      (spread (Host.rsqrt (F := Ideal) (addf (colVar p) (broadcastInDim S128 ![] bcast_S_S128 (constant (F := Ideal) S_ .f32 0x3727C5AC#32))))))
      (spread sc)) (spread bi))
    (broadcastInDim S50000x128 ![] bcast_S_S50000x128 (constant (F := Ideal) S_ .f32 0x00000000#32))

/-- One graph-convolution block before its normalisation. -/
def conv (h : Arr S50000x128) (e : ArrI S2x640000) (wl wr : Arr S128x128) (x8 : Arr S128x128) (x9 : Arr S128) :
    Arr S50000x128 :=
  addf (mm (addf (mm (agg h e) wl) (mm h wr)) (tr x8)) (spread x9)

/-- The classification head. -/
def head (h : Arr S50000x128) (x10 : Arr S40x128) (x11 : Arr S40) : Arr S50000x40 :=
  addf (Host.dotGeneral (F := Ideal) dot_S50000x128_S128x40_S50000x40_1_0_0_1_n_n none h (tr40 x10)) (spread40 x11)

def h0 (x0 : Arr S50000x128) (x2 : Arr S128x128) (x3 : Arr S128) (x4 x5 : Arr S3x128) : Arr S50000x128 :=
  bn (pre0 x0 x2 x3) (tab0 x4) (tab0 x5)
def h1 (x0 : Arr S50000x128) (x1 : ArrI S2x640000) (x2 : Arr S128x128) (x3 : Arr S128) (x4 x5 : Arr S3x128)
    (x6 x7 : Arr S2x128x128) (x8 : Arr S128x128) (x9 : Arr S128) : Arr S50000x128 :=
  bn (conv (h0 x0 x2 x3 x4 x5) x1 (slabT0 x6) (slabT0 x7) x8 x9) (tab1 x4) (tab1 x5)
def h2 (x0 : Arr S50000x128) (x1 : ArrI S2x640000) (x2 : Arr S128x128) (x3 : Arr S128) (x4 x5 : Arr S3x128)
    (x6 x7 : Arr S2x128x128) (x8 : Arr S128x128) (x9 : Arr S128) : Arr S50000x128 :=
  bn (conv (h1 x0 x1 x2 x3 x4 x5 x6 x7 x8 x9) x1 (slabT1 x6) (slabT1 x7) x8 x9) (tab2 x4) (tab2 x5)
/-- The reference's result. -/
def out (x0 : Arr S50000x128) (x1 : ArrI S2x640000) (x2 : Arr S128x128) (x3 : Arr S128) (x4 x5 : Arr S3x128)
    (x6 x7 : Arr S2x128x128) (x8 : Arr S128x128) (x9 : Arr S128) (x10 : Arr S40x128) (x11 : Arr S40) : Arr S50000x40 :=
  head (h2 x0 x1 x2 x3 x4 x5 x6 x7 x8 x9) x10 x11

end Cert.RefNet

end
-- ==== Proof.RefRun.lean ====
/-
  The reference program's run, read back: @main is a straight line of 196 host operations, so every weakly fair
  execution terminates with every buffer at the fold of the operations over the launch memory.  Read at the result
  buffer, that fold is the reference's network `Cert.RefNet.out` of the twelve argument arrays (the same operations, cut
  at each layer's output, which later operations read several times); read at an argument it is the argument.
-/
import proofs.«139068_j1623497638159_1_alg».proof.Proof.Gen.ReferenceIdeal
import proofs.«139068_j1623497638159_1_alg».proof.Proof.RefNet
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 196 operations, in order (a called function's operations stand in its call's place, spelt `TRef.…`). -/
abbrev ops : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_cst (constant S_ .f32 0x3F800000#32),
    unary main_cst main_v4 (broadcastInDim S640000 ![] bcast_S_S640000 : (⟨S_, .f32⟩ : BufTy).Contents (Elt F) → (⟨S640000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S640000x1 ![0] bcast_S640000_S640000x1_0 : (⟨S640000, .i32⟩ : BufTy).Contents (Elt F) → (⟨S640000x1, .i32⟩ : BufTy).Contents (Elt F)),
    ternary main_v5 main_v6 main_v4 main_v7 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)),
    unary main_arg2 main_v13 ((transpose S128x128 [1, 0] · transposes_S128x128_S128x128_1_0) : (⟨S128x128, .f32⟩ : BufTy).Contents (Elt F) → (⟨S128x128, .f32⟩ : BufTy).Contents (Elt F)),
    binary main_arg0 main_v13 main_v14 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v15 (broadcastInDim S1x128 ![1] bcast_S128_S1x128_1 : (⟨S128, .f32⟩ : BufTy).Contents (Elt F) → (⟨S1x128, .f32⟩ : BufTy).Contents (Elt F)),
    unary main_v15 main_v16 (broadcastInDim S50000x128 ![0, 1] bcast_S1x128_S50000x128_0_1 : (⟨S1x128, .f32⟩ : BufTy).Contents (Elt F) → (⟨S50000x128, .f32⟩ : BufTy).Contents (Elt F)),
    binary main_v14 main_v16 main_v17 (addf : (⟨S50000x128, .f32⟩ : BufTy).Contents (Elt F) → (⟨S50000x128, .f32⟩ : BufTy).Contents (Elt F) → (⟨S50000x128, .f32⟩ : BufTy).Contents (Elt F)),
    unary main_arg4 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128,
    unary main_arg5 main_v20 ((extractStridedSlice S1x128 ![0, 0] · slices_S3x128_S1x128_0_0) : (⟨S3x128, .f32⟩ : BufTy).Contents (Elt F) → (⟨S1x128, .f32⟩ : BufTy).Contents (Elt F)),
    reshape main_v20 main_v21 rfl shapeCasts_S1x128_S128,
    nullary main_cst_3 (constant S_ .f32 0x00000000#32),
    binary main_v17 main_cst_3 main_v22 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_4 (constant S_ .f32 0x47435000#32),
    unary main_cst_4 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    unary main_v24 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v17 main_v26 main_v27 (subf : (⟨S50000x128, .f32⟩ : BufTy).Contents (Elt F) → (⟨S50000x128, .f32⟩ : BufTy).Contents (Elt F) → (⟨S50000x128, .f32⟩ : BufTy).Contents (Elt F)),
    binary main_v27 main_v27 main_v28 (mulf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x00000000#32),
    binary main_v28 main_cst_5 main_v29 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_6 (constant S_ .f32 0x47435000#32),
    unary main_cst_6 main_v30 (broadcastInDim S128 ![] bcast_S_S128 : (⟨S_, .f32⟩ : BufTy).Contents (Elt F) → (⟨S128, .f32⟩ : BufTy).Contents (Elt F)),
    binary main_v29 main_v30 main_v31 (Host.divf : (⟨S128, .f32⟩ : BufTy).Contents (Elt F) → (⟨S128, .f32⟩ : BufTy).Contents (Elt F) → (⟨S128, .f32⟩ : BufTy).Contents (Elt F)),
    unary main_v24 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v17 main_v33 main_v34 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v35 (broadcastInDim S128 ![] bcast_S_S128 : (⟨S_, .f32⟩ : BufTy).Contents (Elt F) → (⟨S128, .f32⟩ : BufTy).Contents (Elt F)),
    binary main_v31 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v34 main_v39 main_v40 (mulf : (⟨S50000x128, .f32⟩ : BufTy).Contents (Elt F) → (⟨S50000x128, .f32⟩ : BufTy).Contents (Elt F) → (⟨S50000x128, .f32⟩ : BufTy).Contents (Elt F)),
    unary main_v19 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (mulf : (⟨S50000x128, .f32⟩ : BufTy).Contents (Elt F) → (⟨S50000x128, .f32⟩ : BufTy).Contents (Elt F) → (⟨S50000x128, .f32⟩ : BufTy).Contents (Elt F)),
    unary main_v21 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v46) (TRef.of (T := ⟨S50000x128, .f32⟩) main_call0_v0) (TRef.of (T := ⟨S50000x128, .f32⟩) main_v47) maximumf,
    nullary main_c (constantI S_ 32 0#32),
    unary main_c main_v48 (broadcastInDim S640000 ![] bcast_S_S640000 : (⟨S_, .i32⟩ : BufTy).Contents (Elt F) → (⟨S640000, .i32⟩ : BufTy).Contents (Elt F)),
    binary main_v1 main_v48 main_v49 (cmpi .slt : (⟨S640000, .i32⟩ : BufTy).Contents (Elt F) → (⟨S640000, .i32⟩ : BufTy).Contents (Elt F) → (⟨S640000, .i1⟩ : BufTy).Contents (Elt F)),
    nullary main_c_8 (constantI S_ 32 50000#32),
    unary main_c_8 main_v50 (broadcastInDim S640000 ![] bcast_S_S640000 : (⟨S_, .i32⟩ : BufTy).Contents (Elt F) → (⟨S640000, .i32⟩ : BufTy).Contents (Elt F)),
    binary main_v1 main_v50 main_v51 (addi : (⟨S640000, .i32⟩ : BufTy).Contents (Elt F) → (⟨S640000, .i32⟩ : BufTy).Contents (Elt F) → (⟨S640000, .i32⟩ : BufTy).Contents (Elt F)),
    ternary main_v49 main_v51 main_v1 main_v52 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v52 main_v53 (broadcastInDim S640000x1 ![0] bcast_S640000_S640000x1_0 : (⟨S640000, .i32⟩ : BufTy).Contents (Elt F) → (⟨S640000x1, .i32⟩ : BufTy).Contents (Elt F)),
    binary main_v47 main_v53 main_v54 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_9 (constant S_ .f32 0x00000000#32),
    unary main_cst_9 main_v55 (broadcastInDim S50000x128 ![] bcast_S_S50000x128 : (⟨S_, .f32⟩ : BufTy).Contents (Elt F) → (⟨S50000x128, .f32⟩ : BufTy).Contents (Elt F)),
    unary main_v3 main_v56 (broadcastInDim S640000x1 ![0] bcast_S640000_S640000x1_0 : (⟨S640000, .i32⟩ : BufTy).Contents (Elt F) → (⟨S640000x1, .i32⟩ : BufTy).Contents (Elt F)),
    ternary main_v55 main_v56 main_v54 main_v57 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v12 main_v58 (broadcastInDim S50000x128 ![0, 1] bcast_S50000x1_S50000x128_0_1 : (⟨S50000x1, .f32⟩ : BufTy).Contents (Elt F) → (⟨S50000x128, .f32⟩ : BufTy).Contents (Elt F)),
    binary main_v57 main_v58 main_v59 (mulf : (⟨S50000x128, .f32⟩ : BufTy).Contents (Elt F) → (⟨S50000x128, .f32⟩ : BufTy).Contents (Elt F) → (⟨S50000x128, .f32⟩ : BufTy).Contents (Elt F)),
    unary main_arg6 main_v60 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v60 main_v61 rfl shapeCasts_S1x128x128_S128x128,
    unary main_v61 main_v62 ((transpose S128x128 [1, 0] · transposes_S128x128_S128x128_1_0) : (⟨S128x128, .f32⟩ : BufTy).Contents (Elt F) → (⟨S128x128, .f32⟩ : BufTy).Contents (Elt F)),
    binary main_v59 main_v62 main_v63 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v64 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v64 main_v65 rfl shapeCasts_S1x128x128_S128x128,
    unary main_v65 main_v66 ((transpose S128x128 [1, 0] · transposes_S128x128_S128x128_1_0) : (⟨S128x128, .f32⟩ : BufTy).Contents (Elt F) → (⟨S128x128, .f32⟩ : BufTy).Contents (Elt F)),
    binary main_v47 main_v66 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v63 main_v67 main_v68 (addf : (⟨S50000x128, .f32⟩ : BufTy).Contents (Elt F) → (⟨S50000x128, .f32⟩ : BufTy).Contents (Elt F) → (⟨S50000x128, .f32⟩ : BufTy).Contents (Elt F)),
    unary main_arg8 main_v69 ((transpose S128x128 [1, 0] · transposes_S128x128_S128x128_1_0) : (⟨S128x128, .f32⟩ : BufTy).Contents (Elt F) → (⟨S128x128, .f32⟩ : BufTy).Contents (Elt F)),
    binary main_v68 main_v69 main_v70 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v70 main_v72 main_v73 (addf : (⟨S50000x128, .f32⟩ : BufTy).Contents (Elt F) → (⟨S50000x128, .f32⟩ : BufTy).Contents (Elt F) → (⟨S50000x128, .f32⟩ : BufTy).Contents (Elt F)),
    unary main_arg4 main_v74 ((extractStridedSlice S1x128 ![1, 0] · slices_S3x128_S1x128_1_0) : (⟨S3x128, .f32⟩ : BufTy).Contents (Elt F) → (⟨S1x128, .f32⟩ : BufTy).Contents (Elt F)),
    reshape main_v74 main_v75 rfl shapeCasts_S1x128_S128,
    unary main_arg5 main_v76 ((extractStridedSlice S1x128 ![1, 0] · slices_S3x128_S1x128_1_0) : (⟨S3x128, .f32⟩ : BufTy).Contents (Elt F) → (⟨S1x128, .f32⟩ : BufTy).Contents (Elt F)),
    reshape main_v76 main_v77 rfl shapeCasts_S1x128_S128,
    nullary main_cst_10 (constant S_ .f32 0x00000000#32),
    binary main_v73 main_cst_10 main_v78 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v79 (broadcastInDim S128 ![] bcast_S_S128 : (⟨S_, .f32⟩ : BufTy).Contents (Elt F) → (⟨S128, .f32⟩ : BufTy).Contents (Elt F)),
    binary main_v78 main_v79 main_v80 (Host.divf : (⟨S128, .f32⟩ : BufTy).Contents (Elt F) → (⟨S128, .f32⟩ : BufTy).Contents (Elt F) → (⟨S128, .f32⟩ : BufTy).Contents (Elt F)),
    unary main_v80 main_v81 (broadcastInDim S1x128 ![1] bcast_S128_S1x128_1 : (⟨S128, .f32⟩ : BufTy).Contents (Elt F) → (⟨S1x128, .f32⟩ : BufTy).Contents (Elt F)),
    unary main_v81 main_v82 (broadcastInDim S50000x128 ![0, 1] bcast_S1x128_S50000x128_0_1 : (⟨S1x128, .f32⟩ : BufTy).Contents (Elt F) → (⟨S50000x128, .f32⟩ : BufTy).Contents (Elt F)),
    binary main_v73 main_v82 main_v83 (subf : (⟨S50000x128, .f32⟩ : BufTy).Contents (Elt F) → (⟨S50000x128, .f32⟩ : BufTy).Contents (Elt F) → (⟨S50000x128, .f32⟩ : BufTy).Contents (Elt F)),
    binary main_v83 main_v83 main_v84 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v84 main_cst_12 main_v85 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v86 (broadcastInDim S128 ![] bcast_S_S128 : (⟨S_, .f32⟩ : BufTy).Contents (Elt F) → (⟨S128, .f32⟩ : BufTy).Contents (Elt F)),
    binary main_v85 main_v86 main_v87 (Host.divf : (⟨S128, .f32⟩ : BufTy).Contents (Elt F) → (⟨S128, .f32⟩ : BufTy).Contents (Elt F) → (⟨S128, .f32⟩ : BufTy).Contents (Elt F)),
    unary main_v80 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v73 main_v89 main_v90 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v91 (broadcastInDim S128 ![] bcast_S_S128 : (⟨S_, .f32⟩ : BufTy).Contents (Elt F) → (⟨S128, .f32⟩ : BufTy).Contents (Elt F)),
    binary main_v87 main_v91 main_v92 (addf : (⟨S128, .f32⟩ : BufTy).Contents (Elt F) → (⟨S128, .f32⟩ : BufTy).Contents (Elt F) → (⟨S128, .f32⟩ : BufTy).Contents (Elt F)),
    unary main_v92 main_v93 (Host.rsqrt : (⟨S128, .f32⟩ : BufTy).Contents (Elt F) → (⟨S128, .f32⟩ : BufTy).Contents (Elt F)),
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S50000x128 ![0, 1] bcast_S1x128_S50000x128_0_1 : (⟨S1x128, .f32⟩ : BufTy).Contents (Elt F) → (⟨S50000x128, .f32⟩ : BufTy).Contents (Elt F)),
    binary main_v90 main_v95 main_v96 (mulf : (⟨S50000x128, .f32⟩ : BufTy).Contents (Elt F) → (⟨S50000x128, .f32⟩ : BufTy).Contents (Elt F) → (⟨S50000x128, .f32⟩ : BufTy).Contents (Elt F)),
    unary main_v75 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v96 main_v98 main_v99 (mulf : (⟨S50000x128, .f32⟩ : BufTy).Contents (Elt F) → (⟨S50000x128, .f32⟩ : BufTy).Contents (Elt F) → (⟨S50000x128, .f32⟩ : BufTy).Contents (Elt F)),
    unary main_v77 main_v100 (broadcastInDim S1x128 ![1] bcast_S128_S1x128_1 : (⟨S128, .f32⟩ : BufTy).Contents (Elt F) → (⟨S1x128, .f32⟩ : BufTy).Contents (Elt F)),
    unary main_v100 main_v101 (broadcastInDim S50000x128 ![0, 1] bcast_S1x128_S50000x128_0_1 : (⟨S1x128, .f32⟩ : BufTy).Contents (Elt F) → (⟨S50000x128, .f32⟩ : BufTy).Contents (Elt F)),
    binary main_v99 main_v101 main_v102 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v102) (TRef.of (T := ⟨S50000x128, .f32⟩) main_call1_v0) (TRef.of (T := ⟨S50000x128, .f32⟩) main_v103) maximumf,
    nullary main_c_15 (constantI S_ 32 0#32),
    unary main_c_15 main_v104 (broadcastInDim S640000 ![] bcast_S_S640000 : (⟨S_, .i32⟩ : BufTy).Contents (Elt F) → (⟨S640000, .i32⟩ : BufTy).Contents (Elt F)),
    binary main_v1 main_v104 main_v105 (cmpi .slt : (⟨S640000, .i32⟩ : BufTy).Contents (Elt F) → (⟨S640000, .i32⟩ : BufTy).Contents (Elt F) → (⟨S640000, .i1⟩ : BufTy).Contents (Elt F)),
    nullary main_c_16 (constantI S_ 32 50000#32),
    unary main_c_16 main_v106 (broadcastInDim S640000 ![] bcast_S_S640000 : (⟨S_, .i32⟩ : BufTy).Contents (Elt F) → (⟨S640000, .i32⟩ : BufTy).Contents (Elt F)),
    binary main_v1 main_v106 main_v107 (addi : (⟨S640000, .i32⟩ : BufTy).Contents (Elt F) → (⟨S640000, .i32⟩ : BufTy).Contents (Elt F) → (⟨S640000, .i32⟩ : BufTy).Contents (Elt F)),
    ternary main_v105 main_v107 main_v1 main_v108 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v108 main_v109 (broadcastInDim S640000x1 ![0] bcast_S640000_S640000x1_0 : (⟨S640000, .i32⟩ : BufTy).Contents (Elt F) → (⟨S640000x1, .i32⟩ : BufTy).Contents (Elt F)),
    binary main_v103 main_v109 main_v110 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_17 (constant S_ .f32 0x00000000#32),
    unary main_cst_17 main_v111 (broadcastInDim S50000x128 ![] bcast_S_S50000x128 : (⟨S_, .f32⟩ : BufTy).Contents (Elt F) → (⟨S50000x128, .f32⟩ : BufTy).Contents (Elt F)),
    unary main_v3 main_v112 (broadcastInDim S640000x1 ![0] bcast_S640000_S640000x1_0 : (⟨S640000, .i32⟩ : BufTy).Contents (Elt F) → (⟨S640000x1, .i32⟩ : BufTy).Contents (Elt F)),
    ternary main_v111 main_v112 main_v110 main_v113 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v12 main_v114 (broadcastInDim S50000x128 ![0, 1] bcast_S50000x1_S50000x128_0_1 : (⟨S50000x1, .f32⟩ : BufTy).Contents (Elt F) → (⟨S50000x128, .f32⟩ : BufTy).Contents (Elt F)),
    binary main_v113 main_v114 main_v115 (mulf : (⟨S50000x128, .f32⟩ : BufTy).Contents (Elt F) → (⟨S50000x128, .f32⟩ : BufTy).Contents (Elt F) → (⟨S50000x128, .f32⟩ : BufTy).Contents (Elt F)),
    unary main_arg6 main_v116 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v116 main_v117 rfl shapeCasts_S1x128x128_S128x128,
    unary main_v117 main_v118 ((transpose S128x128 [1, 0] · transposes_S128x128_S128x128_1_0) : (⟨S128x128, .f32⟩ : BufTy).Contents (Elt F) → (⟨S128x128, .f32⟩ : BufTy).Contents (Elt F)),
    binary main_v115 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v120 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v120 main_v121 rfl shapeCasts_S1x128x128_S128x128,
    unary main_v121 main_v122 ((transpose S128x128 [1, 0] · transposes_S128x128_S128x128_1_0) : (⟨S128x128, .f32⟩ : BufTy).Contents (Elt F) → (⟨S128x128, .f32⟩ : BufTy).Contents (Elt F)),
    binary main_v103 main_v122 main_v123 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v119 main_v123 main_v124 (addf : (⟨S50000x128, .f32⟩ : BufTy).Contents (Elt F) → (⟨S50000x128, .f32⟩ : BufTy).Contents (Elt F) → (⟨S50000x128, .f32⟩ : BufTy).Contents (Elt F)),
    unary main_arg8 main_v125 ((transpose S128x128 [1, 0] · transposes_S128x128_S128x128_1_0) : (⟨S128x128, .f32⟩ : BufTy).Contents (Elt F) → (⟨S128x128, .f32⟩ : BufTy).Contents (Elt F)),
    binary main_v124 main_v125 main_v126 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v126 main_v128 main_v129 (addf : (⟨S50000x128, .f32⟩ : BufTy).Contents (Elt F) → (⟨S50000x128, .f32⟩ : BufTy).Contents (Elt F) → (⟨S50000x128, .f32⟩ : BufTy).Contents (Elt F)),
    unary main_arg4 main_v130 ((extractStridedSlice S1x128 ![2, 0] · slices_S3x128_S1x128_2_0) : (⟨S3x128, .f32⟩ : BufTy).Contents (Elt F) → (⟨S1x128, .f32⟩ : BufTy).Contents (Elt F)),
    reshape main_v130 main_v131 rfl shapeCasts_S1x128_S128,
    unary main_arg5 main_v132 ((extractStridedSlice S1x128 ![2, 0] · slices_S3x128_S1x128_2_0) : (⟨S3x128, .f32⟩ : BufTy).Contents (Elt F) → (⟨S1x128, .f32⟩ : BufTy).Contents (Elt F)),
    reshape main_v132 main_v133 rfl shapeCasts_S1x128_S128,
    nullary main_cst_18 (constant S_ .f32 0x00000000#32),
    binary main_v129 main_cst_18 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v135 (broadcastInDim S128 ![] bcast_S_S128 : (⟨S_, .f32⟩ : BufTy).Contents (Elt F) → (⟨S128, .f32⟩ : BufTy).Contents (Elt F)),
    binary main_v134 main_v135 main_v136 (Host.divf : (⟨S128, .f32⟩ : BufTy).Contents (Elt F) → (⟨S128, .f32⟩ : BufTy).Contents (Elt F) → (⟨S128, .f32⟩ : BufTy).Contents (Elt F)),
    unary main_v136 main_v137 (broadcastInDim S1x128 ![1] bcast_S128_S1x128_1 : (⟨S128, .f32⟩ : BufTy).Contents (Elt F) → (⟨S1x128, .f32⟩ : BufTy).Contents (Elt F)),
    unary main_v137 main_v138 (broadcastInDim S50000x128 ![0, 1] bcast_S1x128_S50000x128_0_1 : (⟨S1x128, .f32⟩ : BufTy).Contents (Elt F) → (⟨S50000x128, .f32⟩ : BufTy).Contents (Elt F)),
    binary main_v129 main_v138 main_v139 (subf : (⟨S50000x128, .f32⟩ : BufTy).Contents (Elt F) → (⟨S50000x128, .f32⟩ : BufTy).Contents (Elt F) → (⟨S50000x128, .f32⟩ : BufTy).Contents (Elt F)),
    binary main_v139 main_v139 main_v140 (mulf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v140 main_cst_20 main_v141 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_21 (constant S_ .f32 0x47435000#32),
    unary main_cst_21 main_v142 (broadcastInDim S128 ![] bcast_S_S128 : (⟨S_, .f32⟩ : BufTy).Contents (Elt F) → (⟨S128, .f32⟩ : BufTy).Contents (Elt F)),
    binary main_v141 main_v142 main_v143 (Host.divf : (⟨S128, .f32⟩ : BufTy).Contents (Elt F) → (⟨S128, .f32⟩ : BufTy).Contents (Elt F) → (⟨S128, .f32⟩ : BufTy).Contents (Elt F)),
    unary main_v136 main_v144 (broadcastInDim S1x128 ![1] bcast_S128_S1x128_1 : (⟨S128, .f32⟩ : BufTy).Contents (Elt F) → (⟨S1x128, .f32⟩ : BufTy).Contents (Elt F)),
    unary main_v144 main_v145 (broadcastInDim S50000x128 ![0, 1] bcast_S1x128_S50000x128_0_1 : (⟨S1x128, .f32⟩ : BufTy).Contents (Elt F) → (⟨S50000x128, .f32⟩ : BufTy).Contents (Elt F)),
    binary main_v129 main_v145 main_v146 (subf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x3727C5AC#32),
    unary main_cst_22 main_v147 (broadcastInDim S128 ![] bcast_S_S128 : (⟨S_, .f32⟩ : BufTy).Contents (Elt F) → (⟨S128, .f32⟩ : BufTy).Contents (Elt F)),
    binary main_v143 main_v147 main_v148 (addf : (⟨S128, .f32⟩ : BufTy).Contents (Elt F) → (⟨S128, .f32⟩ : BufTy).Contents (Elt F) → (⟨S128, .f32⟩ : BufTy).Contents (Elt F)),
    unary main_v148 main_v149 (Host.rsqrt : (⟨S128, .f32⟩ : BufTy).Contents (Elt F) → (⟨S128, .f32⟩ : BufTy).Contents (Elt F)),
    unary main_v149 main_v150 (broadcastInDim S1x128 ![1] bcast_S128_S1x128_1 : (⟨S128, .f32⟩ : BufTy).Contents (Elt F) → (⟨S1x128, .f32⟩ : BufTy).Contents (Elt F)),
    unary main_v150 main_v151 (broadcastInDim S50000x128 ![0, 1] bcast_S1x128_S50000x128_0_1 : (⟨S1x128, .f32⟩ : BufTy).Contents (Elt F) → (⟨S50000x128, .f32⟩ : BufTy).Contents (Elt F)),
    binary main_v146 main_v151 main_v152 (mulf : (⟨S50000x128, .f32⟩ : BufTy).Contents (Elt F) → (⟨S50000x128, .f32⟩ : BufTy).Contents (Elt F) → (⟨S50000x128, .f32⟩ : BufTy).Contents (Elt F)),
    unary main_v131 main_v153 (broadcastInDim S1x128 ![1] bcast_S128_S1x128_1 : (⟨S128, .f32⟩ : BufTy).Contents (Elt F) → (⟨S1x128, .f32⟩ : BufTy).Contents (Elt F)),
    unary main_v153 main_v154 (broadcastInDim S50000x128 ![0, 1] bcast_S1x128_S50000x128_0_1 : (⟨S1x128, .f32⟩ : BufTy).Contents (Elt F) → (⟨S50000x128, .f32⟩ : BufTy).Contents (Elt F)),
    binary main_v152 main_v154 main_v155 (mulf : (⟨S50000x128, .f32⟩ : BufTy).Contents (Elt F) → (⟨S50000x128, .f32⟩ : BufTy).Contents (Elt F) → (⟨S50000x128, .f32⟩ : BufTy).Contents (Elt F)),
    unary main_v133 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v155 main_v157 main_v158 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v158) (TRef.of (T := ⟨S50000x128, .f32⟩) main_call2_v0) (TRef.of (T := ⟨S50000x128, .f32⟩) main_v159) maximumf,
    unary main_arg10 main_v160 ((transpose S128x40 [1, 0] · transposes_S40x128_S128x40_1_0) : (⟨S40x128, .f32⟩ : BufTy).Contents (Elt F) → (⟨S128x40, .f32⟩ : BufTy).Contents (Elt F)),
    binary main_v159 main_v160 main_v161 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg11 main_v162 (broadcastInDim S1x40 ![1] bcast_S40_S1x40_1 : (⟨S40, .f32⟩ : BufTy).Contents (Elt F) → (⟨S1x40, .f32⟩ : BufTy).Contents (Elt F)),
    unary main_v162 main_v163 (broadcastInDim S50000x40 ![0, 1] bcast_S1x40_S50000x40_0_1 : (⟨S1x40, .f32⟩ : BufTy).Contents (Elt F) → (⟨S50000x40, .f32⟩ : BufTy).Contents (Elt F)),
    binary main_v161 main_v163 main_v164 (addf : (⟨S50000x40, .f32⟩ : BufTy).Contents (Elt F) → (⟨S50000x40, .f32⟩ : BufTy).Contents (Elt F) → (⟨S50000x40, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

set_option maxRecDepth 8192 in
set_option maxHeartbeats 78400000 in
/-- On every device, from any memory with zero counters: every weakly fair execution of @main terminates with the result
    at the reference's network of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v164) = Cert.RefNet.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v164).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.RefRun

end
-- ==== Proof.BridgeDense.lean ====
/-
  The reference's dense stages are the spec functions, entry by entry, on the extended reals.

  The reference spells an affine layer as a matrix product (a `dot_general` with the plain dimension numbers) plus a
  per-column vector spread over every row by two broadcasts; the spec function spells the same value index by index,
  the bias given as a row [1, d].  Reading the product, the broadcasts and the reshape of the bias at an entry (p, o)
  gives the same expression on both sides, in the same association: no law of arithmetic is used.

  The graph side (the neighbour mean) and the transposes are the same host operations in both spellings.
-/
import proofs.«139068_j1623497638159_1_alg».proof.Proof.Net
import proofs.«139068_j1623497638159_1_alg».proof.Proof.RefNet
import proofs.«139068_j1623497638159_1_alg».proof.Proof.LibPlainDot
import Idealize.ShloMosaic.Lib.Pipeline.Value
import Idealize.ShloMosaic.Lib.ValueIdx
import Idealize.ShloMosaic.PureOps.Ideal

noncomputable section

open scoped BigOperators

namespace Cert.Bridge

open Idealize.ShloMosaic Idealize.ShloMosaic.ValueIdx

/-! ## The shared host chains: the same operations under two names -/

/-- The transpose of a square weight matrix. -/
theorem tr_eq (a : Cert.Net.Arr Cert.KernelIdeal.S128x128) : Cert.RefNet.tr a = Cert.Net.tr a := rfl

/-- The transpose of the head matrix. -/
theorem tr40_eq (a : Cert.Net.Arr Cert.KernelIdeal.S40x128) : Cert.RefNet.tr40 a = Cert.Net.tr40 a := rfl

/-- The neighbour mean. -/
theorem agg_eq (h : Cert.Net.Arr Cert.KernelIdeal.S50000x128) (e : Cert.Net.ArrI Cert.KernelIdeal.S2x640000) :
    Cert.RefNet.agg h e = Cert.Net.agg h e := rfl

/-! ## The reference's layout operations and products, read at an entry -/

namespace Dense

/-- A per-column vector spread over every row, at (p, o): the vector at o. -/
theorem spread_apply (v : FVec Ideal ⟨1, ![128]⟩ .f32) (p : Fin 50000) (o : Fin 128) :
    Cert.RefNet.spread v (ix2 p o) = v (ix1 o) := by
  unfold Cert.RefNet.spread
  refine (broadcastInDim_apply _ Cert.ReferenceIdeal.Gen.bcast_S1x128_S50000x128_0_1 _ (ix2 p o) (ix2 (0 : Fin 1) o)
    (fun a => match a with
      | ⟨0, _⟩ => by show 0 = if (1 : Nat) = 1 then 0 else p.val; rw [if_pos rfl]
      | ⟨1, _⟩ => by show o.val = if (128 : Nat) = 1 then 0 else o.val; rw [if_neg (by decide)])).trans ?_
  exact broadcastInDim_apply _ Cert.ReferenceIdeal.Gen.bcast_S128_S1x128_1 v (ix2 (0 : Fin 1) o) (ix1 o)
    (fun a => match a with
      | ⟨0, _⟩ => by show o.val = if (128 : Nat) = 1 then 0 else o.val; rw [if_neg (by decide)])

/-- A vector [40] spread over every row, at (p, o): the vector at o. -/
theorem spread40_apply (v : FVec Ideal ⟨1, ![40]⟩ .f32) (p : Fin 50000) (o : Fin 40) :
    Cert.RefNet.spread40 v (ix2 p o) = v (ix1 o) := by
  unfold Cert.RefNet.spread40
  refine (broadcastInDim_apply _ Cert.ReferenceIdeal.Gen.bcast_S1x40_S50000x40_0_1 _ (ix2 p o) (ix2 (0 : Fin 1) o)
    (fun a => match a with
      | ⟨0, _⟩ => by show 0 = if (1 : Nat) = 1 then 0 else p.val; rw [if_pos rfl]
      | ⟨1, _⟩ => by show o.val = if (40 : Nat) = 1 then 0 else o.val; rw [if_neg (by decide)])).trans ?_
  exact broadcastInDim_apply _ Cert.ReferenceIdeal.Gen.bcast_S40_S1x40_1 v (ix2 (0 : Fin 1) o) (ix1 o)
    (fun a => match a with
      | ⟨0, _⟩ => by show o.val = if (40 : Nat) = 1 then 0 else o.val; rw [if_neg (by decide)])

/-- A vector as a row, at (0, o): the vector at o. -/
theorem row_apply (v : FVec Ideal ⟨1, ![128]⟩ .f32) (o : Fin 128) :
    Cert.Net.row v (ix2 (0 : Fin 1) o) = v (ix1 o) := by
  unfold Cert.Net.row
  exact shapeCast_apply v Cert.KernelIdeal.Gen.shapeCasts_S128_S1x128 (ix2 (0 : Fin 1) o) (ix1 o)
    (by rewrite [Shape.rowMajor_val_one, Shape.rowMajor_val_two]; show o.val = 0 * 128 + o.val; omega)

/-- A vector [40] as a row, at (0, o): the vector at o. -/
theorem row40_apply (v : FVec Ideal ⟨1, ![40]⟩ .f32) (o : Fin 40) :
    Cert.Net.row40 v (ix2 (0 : Fin 1) o) = v (ix1 o) := by
  unfold Cert.Net.row40
  exact shapeCast_apply v Cert.KernelIdeal.Gen.shapeCasts_S40_S1x40 (ix2 (0 : Fin 1) o) (ix1 o)
    (by rewrite [Shape.rowMajor_val_one, Shape.rowMajor_val_two]; show o.val = 0 * 40 + o.val; omega)

/-- The reference's product of a [N, 128] array with a [128, 128] matrix, at (p, o). -/
theorem mm_apply (l : FVec Ideal ⟨2, ![50000, 128]⟩ .f32) (r : FVec Ideal ⟨2, ![128, 128]⟩ .f32) (p : Fin 50000)
    (o : Fin 128) : Cert.RefNet.mm l r (ix2 p o) = ∑ k : Fin 128, l (ix2 p k) * r (ix2 k o) := by
  unfold Cert.RefNet.mm
  exact Cert.LibPlainDot.dotGeneral_apply (n := 50000) (a := 128) (b := 128) none l r p o

end Dense

/-! ## The dense stages -/

/-- The first linear layer: (x · fc0ᵀ)(p, o) + b(o). -/
theorem pre0_eq (x0 : Cert.Net.Arr Cert.KernelIdeal.S50000x128) (x2 : Cert.Net.Arr Cert.KernelIdeal.S128x128)
    (x3 : Cert.Net.Arr Cert.KernelIdeal.S128) : Cert.RefNet.pre0 x0 x2 x3 = Cert.Net.pre0 x0 x2 x3 := by
  funext i
  obtain ⟨p, o, rfl⟩ : ∃ (p : Fin 50000) (o : Fin 128), i = ix2 p o := ⟨i 0, i 1, eq_ix2 i⟩
  show addf (Cert.RefNet.mm x0 (Cert.RefNet.tr x2)) (Cert.RefNet.spread x3) (ix2 p o)
    = ((∑ k : Fin 128, (x0 (ix2 p k) : EReal) * Cert.Net.tr x2 (ix2 k o)) + Cert.Net.row x3 (ix2 (0 : Fin 1) o) : EReal)
  rw [addf_apply, Dense.mm_apply, Dense.spread_apply, Dense.row_apply, tr_eq]

/-- One graph-convolution block before its normalisation: ((agg · wl + h · wr) · Wᵀ)(p, o) + b(o). -/
theorem conv_eq (h : Cert.Net.Arr Cert.KernelIdeal.S50000x128) (e : Cert.Net.ArrI Cert.KernelIdeal.S2x640000)
    (wl wr : Cert.Net.Arr Cert.KernelIdeal.S128x128) (x8 : Cert.Net.Arr Cert.KernelIdeal.S128x128)
    (x9 : Cert.Net.Arr Cert.KernelIdeal.S128) :
    Cert.RefNet.conv h e wl wr x8 x9 = Cert.Net.conv h e wl wr x8 x9 := by
  funext i
  obtain ⟨p, o, rfl⟩ : ∃ (p : Fin 50000) (o : Fin 128), i = ix2 p o := ⟨i 0, i 1, eq_ix2 i⟩
  show addf (Cert.RefNet.mm (addf (Cert.RefNet.mm (Cert.RefNet.agg h e) wl) (Cert.RefNet.mm h wr)) (Cert.RefNet.tr x8))
      (Cert.RefNet.spread x9) (ix2 p o)
    = ((∑ k' : Fin 128, ((∑ k : Fin 128, (Cert.Net.agg h e (ix2 p k) : EReal) * wl (ix2 k k'))
        + (∑ k : Fin 128, (h (ix2 p k) : EReal) * wr (ix2 k k'))) * Cert.Net.tr x8 (ix2 k' o))
      + Cert.Net.row x9 (ix2 (0 : Fin 1) o) : EReal)
  rw [addf_apply, Dense.mm_apply, Dense.spread_apply, Dense.row_apply, tr_eq, agg_eq]
  refine congrArg (· + x9 (ix1 o)) (Finset.sum_congr rfl fun k' _ => ?_)
  rw [addf_apply, Dense.mm_apply, Dense.mm_apply]

/-- The classification head: (h · outᵀ)(p, o) + b(o). -/
theorem head_eq (h : Cert.Net.Arr Cert.KernelIdeal.S50000x128) (x10 : Cert.Net.Arr Cert.KernelIdeal.S40x128)
    (x11 : Cert.Net.Arr Cert.KernelIdeal.S40) :
    Cert.RefNet.head h x10 x11 = Cert.Spec.linBias h (Cert.Net.tr40 x10) (Cert.Net.row40 x11) := by
  funext i
  obtain ⟨p, o, rfl⟩ : ∃ (p : Fin 50000) (o : Fin 40), i = ix2 p o := ⟨i 0, i 1, eq_ix2 i⟩
  show addf (Host.dotGeneral (F := Ideal) Cert.ReferenceIdeal.dot_S50000x128_S128x40_S50000x40_1_0_0_1_n_n none h
        (Cert.RefNet.tr40 x10)) (Cert.RefNet.spread40 x11) (ix2 p o)
    = ((∑ k : Fin 128, (h (ix2 p k) : EReal) * Cert.Net.tr40 x10 (ix2 k o)) + Cert.Net.row40 x11 (ix2 (0 : Fin 1) o) : EReal)
  rw [addf_apply, Dense.spread40_apply, Dense.row40_apply, tr40_eq]
  exact congrArg (· + x11 (ix1 o))
    (Cert.LibPlainDot.dotGeneral_apply (n := 50000) (a := 128) (b := 40) none h (Cert.Net.tr40 x10) p o)

end Cert.Bridge

end
-- ==== Proof.BridgeNorm.lean ====
/-
  The reference's column statistics, table rows, weight slabs and batch normalisation are the network's own.

  The statistics, the rows of a table and the transposed slabs are spelt with the same host operations on both sides, so
  they agree by definition.  The normalisation is read entry by entry: at (r, o) both sides are
      max ((((p(r,o) − μ(o)) · rsqrt (v(o) + ε)) · γ(o)) + β(o)) 0
  in this very association, with μ, v the column mean and variance of p; the reference reads each per-column vector
  through two broadcasts, the network through a reshape to a row.
-/
import proofs.«139068_j1623497638159_1_alg».proof.Proof.Net
import proofs.«139068_j1623497638159_1_alg».proof.Proof.RefNet
import Idealize.ShloMosaic.Lib.Pipeline.Value
import Idealize.ShloMosaic.Lib.ValueIdx
import Idealize.ShloMosaic.Lib.ValueLayout
import Idealize.ShloMosaic.PureOps.Ideal

noncomputable section

namespace Cert.Bridge

open Idealize.ShloMosaic Idealize.ShloMosaic.ValueIdx

/-- The column means agree: the same host operations on both sides. -/
theorem colMean_eq (p : Cert.Net.Arr Cert.KernelIdeal.S50000x128) : Cert.RefNet.colMean p = Cert.Net.colMean p := rfl

/-- The column variances agree: the same host operations on both sides. -/
theorem colVar_eq (p : Cert.Net.Arr Cert.KernelIdeal.S50000x128) : Cert.RefNet.colVar p = Cert.Net.colVar p := rfl

/-- Row 0 of a table. -/
theorem tab0_eq (a : Cert.Net.Arr Cert.KernelIdeal.S3x128) : Cert.RefNet.tab0 a = Cert.Net.tab0 a := rfl
/-- Row 1 of a table. -/
theorem tab1_eq (a : Cert.Net.Arr Cert.KernelIdeal.S3x128) : Cert.RefNet.tab1 a = Cert.Net.tab1 a := rfl
/-- Row 2 of a table. -/
theorem tab2_eq (a : Cert.Net.Arr Cert.KernelIdeal.S3x128) : Cert.RefNet.tab2 a = Cert.Net.tab2 a := rfl

/-- Slab 0 of a stack, transposed. -/
theorem slabT0_eq (s : Cert.Net.Arr Cert.KernelIdeal.S2x128x128) : Cert.RefNet.slabT0 s = Cert.Net.slabT0 s := rfl
/-- Slab 1 of a stack, transposed. -/
theorem slabT1_eq (s : Cert.Net.Arr Cert.KernelIdeal.S2x128x128) : Cert.RefNet.slabT1 s = Cert.Net.slabT1 s := rfl

namespace Norm

/-- A per-column vector spread over every row, read at (r, o), is the vector at o. -/
theorem spread_apply (v : Cert.Net.Arr Cert.KernelIdeal.S128) (r : Fin 50000) (o : Fin 128) :
    Cert.RefNet.spread v (ix2 r o) = v (ix1 o) := by
  unfold Cert.RefNet.spread
  refine (broadcastInDim_apply _ Cert.ReferenceIdeal.Gen.bcast_S1x128_S50000x128_0_1 _ (ix2 r o) (ix2 (0 : Fin 1) o)
    (fun a => match a with
      | ⟨0, _⟩ => by show 0 = if (1 : Nat) = 1 then 0 else r.val; rw [if_pos rfl]
      | ⟨1, _⟩ => by show o.val = if (128 : Nat) = 1 then 0 else o.val; rw [if_neg (by decide)])).trans ?_
  exact broadcastInDim_apply _ Cert.ReferenceIdeal.Gen.bcast_S128_S1x128_1 v (ix2 (0 : Fin 1) o) (ix1 o)
    (fun a => match a with
      | ⟨0, _⟩ => by show o.val = if (128 : Nat) = 1 then 0 else o.val; rw [if_neg (by decide)])

/-- A vector as a row, read at (0, o), is the vector at o. -/
theorem row_apply (v : Cert.Net.Arr Cert.KernelIdeal.S128) (o : Fin 128) :
    Cert.Net.row v (ix2 (0 : Fin 1) o) = v (ix1 o) := by
  unfold Cert.Net.row
  exact shapeCast_a_1a_apply v _ (0 : Fin 1) o

/-- A scalar spread over a vector, read at o, is the scalar. -/
theorem scalarVec_apply (c : Cert.Net.Arr Cert.KernelIdeal.S_) (o : Fin 128) :
    broadcastInDim Cert.ReferenceIdeal.S128 ![] Cert.ReferenceIdeal.Gen.bcast_S_S128 c (ix1 o) = c ix0 :=
  broadcastInDim_apply _ Cert.ReferenceIdeal.Gen.bcast_S_S128 c (ix1 o) ix0 (fun a => a.elim0)

/-- A scalar spread over a whole array, read at (r, o), is the scalar. -/
theorem scalarArr_apply (c : Cert.Net.Arr Cert.KernelIdeal.S_) (r : Fin 50000) (o : Fin 128) :
    broadcastInDim Cert.ReferenceIdeal.S50000x128 ![] Cert.ReferenceIdeal.Gen.bcast_S_S50000x128 c (ix2 r o) = c ix0 :=
  broadcastInDim_apply _ Cert.ReferenceIdeal.Gen.bcast_S_S50000x128 c (ix2 r o) ix0 (fun a => a.elim0)

/-- The reference's normalisation with given column statistics μ, v, read at (r, o). -/
theorem refBn_apply (p : Cert.Net.Arr Cert.KernelIdeal.S50000x128) (μ v sc bi : Cert.Net.Arr Cert.KernelIdeal.S128)
    (r : Fin 50000) (o : Fin 128) :
    maximumf
      (addf (mulf (mulf (subf p (Cert.RefNet.spread μ))
        (Cert.RefNet.spread (Host.rsqrt (F := Ideal) (addf v
          (broadcastInDim Cert.ReferenceIdeal.S128 ![] Cert.ReferenceIdeal.Gen.bcast_S_S128
            (constant (F := Ideal) Cert.ReferenceIdeal.S_ .f32 0x3727C5AC#32))))))
        (Cert.RefNet.spread sc)) (Cert.RefNet.spread bi))
      (broadcastInDim Cert.ReferenceIdeal.S50000x128 ![] Cert.ReferenceIdeal.Gen.bcast_S_S50000x128
        (constant (F := Ideal) Cert.ReferenceIdeal.S_ .f32 0x00000000#32)) (ix2 r o)
      = (max ((((p (ix2 r o) : EReal) - μ (ix1 o)) * Ideal.rsqrt ((v (ix1 o) : EReal) + Cert.Spec.eps)) * sc (ix1 o)
          + bi (ix1 o)) Cert.Spec.zero : EReal) := by
  show (max ((((p (ix2 r o) : EReal) - Cert.RefNet.spread μ (ix2 r o))
      * Cert.RefNet.spread (Host.rsqrt (F := Ideal) (addf v
          (broadcastInDim Cert.ReferenceIdeal.S128 ![] Cert.ReferenceIdeal.Gen.bcast_S_S128
            (constant (F := Ideal) Cert.ReferenceIdeal.S_ .f32 0x3727C5AC#32)))) (ix2 r o))
      * Cert.RefNet.spread sc (ix2 r o) + Cert.RefNet.spread bi (ix2 r o))
      (broadcastInDim Cert.ReferenceIdeal.S50000x128 ![] Cert.ReferenceIdeal.Gen.bcast_S_S50000x128
        (constant (F := Ideal) Cert.ReferenceIdeal.S_ .f32 0x00000000#32) (ix2 r o)) : EReal) = _
  rw [spread_apply μ r o, spread_apply sc r o, spread_apply bi r o, spread_apply _ r o, scalarArr_apply _ r o]
  show (max ((((p (ix2 r o) : EReal) - μ (ix1 o))
      * Ideal.rsqrt ((v (ix1 o) : EReal) + broadcastInDim Cert.ReferenceIdeal.S128 ![] Cert.ReferenceIdeal.Gen.bcast_S_S128
            (constant (F := Ideal) Cert.ReferenceIdeal.S_ .f32 0x3727C5AC#32) (ix1 o)))
      * sc (ix1 o) + bi (ix1 o)) Cert.Spec.zero : EReal) = _
  rw [scalarVec_apply _ o]
  rfl

end Norm

open Norm in
/-- The reference's normalisation is the network's: the same expression at every entry. -/
theorem bn_eq (p : Cert.Net.Arr Cert.KernelIdeal.S50000x128) (sc bi : Cert.Net.Arr Cert.KernelIdeal.S128) :
    Cert.RefNet.bn p sc bi = Cert.Net.bn p sc bi := by
  funext i
  obtain ⟨r, o, rfl⟩ : ∃ (r : Fin 50000) (o : Fin 128), i = ix2 r o := ⟨i 0, i 1, eq_ix2 i⟩
  unfold Cert.RefNet.bn Cert.Net.bn Cert.RefNet.centred
  rw [colMean_eq p, colVar_eq p]
  generalize Cert.Net.colMean p = μ
  generalize Cert.Net.colVar p = v
  refine (refBn_apply p μ v sc bi r o).trans ?_
  show _ = (max ((((p (ix2 r o) : EReal) - Cert.Net.row μ (ix2 (0 : Fin 1) o))
      * Ideal.rsqrt ((Cert.Net.row v (ix2 (0 : Fin 1) o) : EReal) + Cert.Spec.eps))
      * Cert.Net.row sc (ix2 (0 : Fin 1) o) + Cert.Net.row bi (ix2 (0 : Fin 1) o)) Cert.Spec.zero : EReal)
  rw [row_apply μ o, row_apply v o, row_apply sc o, row_apply bi o]

end Cert.Bridge

end
-- ==== Proof.BridgeOut.lean ====
/-
  The reference's whole network is the network of spec functions.

  Both results are the same chain of layers — h₀ = bn (pre₀), hₗ = bn (conv hₗ₋₁) for l = 1, 2, out = head h₂ — over the
  same argument arrays.  Each stage of the reference equals the corresponding stage of the spec network (the dense
  stages entry by entry, the normalisation likewise, the slices, transposes and the graph side being the same host
  operations), so the equality of the results follows layer by layer, each layer rewritten under the next.
-/
import proofs.«139068_j1623497638159_1_alg».proof.Proof.BridgeDense
import proofs.«139068_j1623497638159_1_alg».proof.Proof.BridgeNorm

noncomputable section

namespace Cert.Bridge

open Idealize.ShloMosaic

/-- A convolution block followed by its normalisation, over any input layer. -/
theorem layer_eq (g : Cert.Net.Arr Cert.KernelIdeal.S50000x128) (e : Cert.Net.ArrI Cert.KernelIdeal.S2x640000)
    (wl wr x8 : Cert.Net.Arr Cert.KernelIdeal.S128x128) (x9 sc bi : Cert.Net.Arr Cert.KernelIdeal.S128) :
    Cert.RefNet.bn (Cert.RefNet.conv g e wl wr x8 x9) sc bi = Cert.Net.bn (Cert.Net.conv g e wl wr x8 x9) sc bi := by
  rw [conv_eq g e wl wr x8 x9]
  exact bn_eq _ sc bi

/-- The first layer. -/
theorem h0_eq (x0 : Cert.Net.Arr Cert.KernelIdeal.S50000x128) (x2 : Cert.Net.Arr Cert.KernelIdeal.S128x128)
    (x3 : Cert.Net.Arr Cert.KernelIdeal.S128) (x4 x5 : Cert.Net.Arr Cert.KernelIdeal.S3x128) :
    Cert.RefNet.h0 x0 x2 x3 x4 x5 = Cert.Net.h0 x0 x2 x3 x4 x5 := by
  show Cert.RefNet.bn (Cert.RefNet.pre0 x0 x2 x3) (Cert.RefNet.tab0 x4) (Cert.RefNet.tab0 x5)
    = Cert.Net.bn (Cert.Net.pre0 x0 x2 x3) (Cert.Net.tab0 x4) (Cert.Net.tab0 x5)
  rw [pre0_eq x0 x2 x3, tab0_eq x4, tab0_eq x5]
  exact bn_eq _ _ _

/-- The second layer. -/
theorem h1_eq (x0 : Cert.Net.Arr Cert.KernelIdeal.S50000x128) (x1 : Cert.Net.ArrI Cert.KernelIdeal.S2x640000)
    (x2 : Cert.Net.Arr Cert.KernelIdeal.S128x128) (x3 : Cert.Net.Arr Cert.KernelIdeal.S128)
    (x4 x5 : Cert.Net.Arr Cert.KernelIdeal.S3x128) (x6 x7 : Cert.Net.Arr Cert.KernelIdeal.S2x128x128)
    (x8 : Cert.Net.Arr Cert.KernelIdeal.S128x128) (x9 : Cert.Net.Arr Cert.KernelIdeal.S128) :
    Cert.RefNet.h1 x0 x1 x2 x3 x4 x5 x6 x7 x8 x9 = Cert.Net.h1 x0 x1 x2 x3 x4 x5 x6 x7 x8 x9 := by
  show Cert.RefNet.bn (Cert.RefNet.conv (Cert.RefNet.h0 x0 x2 x3 x4 x5) x1 (Cert.RefNet.slabT0 x6) (Cert.RefNet.slabT0 x7)
        x8 x9) (Cert.RefNet.tab1 x4) (Cert.RefNet.tab1 x5)
    = Cert.Net.bn (Cert.Net.conv (Cert.Net.h0 x0 x2 x3 x4 x5) x1 (Cert.Net.slabT0 x6) (Cert.Net.slabT0 x7) x8 x9)
        (Cert.Net.tab1 x4) (Cert.Net.tab1 x5)
  rw [h0_eq x0 x2 x3 x4 x5, slabT0_eq x6, slabT0_eq x7, tab1_eq x4, tab1_eq x5]
  exact layer_eq _ x1 _ _ x8 x9 _ _

/-- The third layer. -/
theorem h2_eq (x0 : Cert.Net.Arr Cert.KernelIdeal.S50000x128) (x1 : Cert.Net.ArrI Cert.KernelIdeal.S2x640000)
    (x2 : Cert.Net.Arr Cert.KernelIdeal.S128x128) (x3 : Cert.Net.Arr Cert.KernelIdeal.S128)
    (x4 x5 : Cert.Net.Arr Cert.KernelIdeal.S3x128) (x6 x7 : Cert.Net.Arr Cert.KernelIdeal.S2x128x128)
    (x8 : Cert.Net.Arr Cert.KernelIdeal.S128x128) (x9 : Cert.Net.Arr Cert.KernelIdeal.S128) :
    Cert.RefNet.h2 x0 x1 x2 x3 x4 x5 x6 x7 x8 x9 = Cert.Net.h2 x0 x1 x2 x3 x4 x5 x6 x7 x8 x9 := by
  show Cert.RefNet.bn (Cert.RefNet.conv (Cert.RefNet.h1 x0 x1 x2 x3 x4 x5 x6 x7 x8 x9) x1 (Cert.RefNet.slabT1 x6)
        (Cert.RefNet.slabT1 x7) x8 x9) (Cert.RefNet.tab2 x4) (Cert.RefNet.tab2 x5)
    = Cert.Net.bn (Cert.Net.conv (Cert.Net.h1 x0 x1 x2 x3 x4 x5 x6 x7 x8 x9) x1 (Cert.Net.slabT1 x6) (Cert.Net.slabT1 x7)
        x8 x9) (Cert.Net.tab2 x4) (Cert.Net.tab2 x5)
  rw [h1_eq x0 x1 x2 x3 x4 x5 x6 x7 x8 x9, slabT1_eq x6, slabT1_eq x7, tab2_eq x4, tab2_eq x5]
  exact layer_eq _ x1 _ _ x8 x9 _ _

/-- The reference's result is the spec network's result. -/
theorem out_eq (x0 : Cert.Net.Arr Cert.KernelIdeal.S50000x128) (x1 : Cert.Net.ArrI Cert.KernelIdeal.S2x640000)
    (x2 : Cert.Net.Arr Cert.KernelIdeal.S128x128) (x3 : Cert.Net.Arr Cert.KernelIdeal.S128)
    (x4 x5 : Cert.Net.Arr Cert.KernelIdeal.S3x128) (x6 x7 : Cert.Net.Arr Cert.KernelIdeal.S2x128x128)
    (x8 : Cert.Net.Arr Cert.KernelIdeal.S128x128) (x9 : Cert.Net.Arr Cert.KernelIdeal.S128)
    (x10 : Cert.Net.Arr Cert.KernelIdeal.S40x128) (x11 : Cert.Net.Arr Cert.KernelIdeal.S40) :
    Cert.RefNet.out x0 x1 x2 x3 x4 x5 x6 x7 x8 x9 x10 x11 = Cert.Net.out x0 x1 x2 x3 x4 x5 x6 x7 x8 x9 x10 x11 := by
  show Cert.RefNet.head (Cert.RefNet.h2 x0 x1 x2 x3 x4 x5 x6 x7 x8 x9) x10 x11
    = Cert.Spec.linBias (Cert.Net.h2 x0 x1 x2 x3 x4 x5 x6 x7 x8 x9) (Cert.Net.tr40 x10) (Cert.Net.row40 x11)
  rw [h2_eq x0 x1 x2 x3 x4 x5 x6 x7 x8 x9]
  exact head_eq _ x10 x11

end Cert.Bridge

end
-- ==== Proof.lean ====
/-
  The proof of `Cert.Claim` for a three-layer graph network over 50000 nodes and 640000 edges (a linear layer, two
  mean-aggregation graph layers with a shared linear map, batch normalisation and positive part after each, and a
  40-way linear head): the kernel program runs the dense node-wise maps in seven tiled TensorCore regions and everything
  else — the in-degrees, the neighbour sums by gather and scatter-add, the column statistics — as host operations; the
  reference is host operations only.

  On the extended reals the two programs compute the same expression in the same association, so no law of arithmetic
  and no finiteness of the inputs is used.  What there is to prove is bookkeeping:

  * each region's output array is ONE function of the arrays it reads (a row block of 2000 nodes per grid point; the
    blocks tile the array): modules Region0 … Region6, against the index-by-index functions of Spec;
  * the kernel program's fold through its seven host stretches and seven regions leaves the result buffer at the network
    `Cert.Net.out` of the arguments: KRun (the run with its result named), KKeep and KChain (the fold, read);
  * the reference's 196 host operations leave its result buffer at `Cert.RefNet.out` of the arguments: RefRun;
  * the two networks are one function: the reference's matrix products, broadcasts and element-wise stages are the spec
    functions entry by entry (BridgeDense, BridgeNorm), layer by layer (BridgeOut); the graph side and the column
    statistics are literally the same host operations on both sides and are never opened.

  The three frames are the generated ones (the reference's is its run with the result dropped); the idealization
  rewrote nothing, so `preserves` is trivial.
-/
import proofs.«139068_j1623497638159_1_alg».proof.Defs
import proofs.«139068_j1623497638159_1_alg».proof.Proof.Gen.Kernel
import proofs.«139068_j1623497638159_1_alg».proof.Proof.Gen.Kernel.Skeleton
import proofs.«139068_j1623497638159_1_alg».proof.Proof.Gen.Kernel.Launch
import proofs.«139068_j1623497638159_1_alg».proof.Proof.Gen.Kernel.Points
import proofs.«139068_j1623497638159_1_alg».proof.Proof.Gen.Kernel.Frame
import proofs.«139068_j1623497638159_1_alg».proof.Proof.Gen.KernelIdeal
import proofs.«139068_j1623497638159_1_alg».proof.Proof.Gen.KernelIdeal.Skeleton
import proofs.«139068_j1623497638159_1_alg».proof.Proof.Gen.KernelIdeal.Launch
import proofs.«139068_j1623497638159_1_alg».proof.Proof.Gen.KernelIdeal.Points
import proofs.«139068_j1623497638159_1_alg».proof.Proof.Gen.KernelIdeal.Frame
import proofs.«139068_j1623497638159_1_alg».proof.Proof.Gen.ReferenceIdeal
import proofs.«139068_j1623497638159_1_alg».proof.Proof.Gen.Pre_finite_inputs
import proofs.«139068_j1623497638159_1_alg».proof.Proof.KRun
import proofs.«139068_j1623497638159_1_alg».proof.Proof.KChain
import proofs.«139068_j1623497638159_1_alg».proof.Proof.Region0
import proofs.«139068_j1623497638159_1_alg».proof.Proof.Region1
import proofs.«139068_j1623497638159_1_alg».proof.Proof.Region2
import proofs.«139068_j1623497638159_1_alg».proof.Proof.Region3
import proofs.«139068_j1623497638159_1_alg».proof.Proof.Region4
import proofs.«139068_j1623497638159_1_alg».proof.Proof.Region5
import proofs.«139068_j1623497638159_1_alg».proof.Proof.Region6
import proofs.«139068_j1623497638159_1_alg».proof.Proof.RefRun
import proofs.«139068_j1623497638159_1_alg».proof.Proof.BridgeOut
import Idealize.ShloMosaic.Adequacy
import Idealize.ShloMosaic.Init

noncomputable section

namespace Cert.Proof

open Idealize.ShloMosaic Idealize.SL.Sem

/-- The seven regions' values, gathered. -/
theorem regions : Cert.KernelIdeal.KChain.Regions :=
  ⟨Cert.KernelIdeal.Region0.value, Cert.KernelIdeal.Region1.value, Cert.KernelIdeal.Region2.value,
    Cert.KernelIdeal.Region3.value, Cert.KernelIdeal.Region4.value, Cert.KernelIdeal.Region5.value,
    Cert.KernelIdeal.Region6.value⟩

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- From memories agreeing on the arguments both programs end with the network of the arguments in their result buffer:
    the kernel program by its fold (`KChain.result`), the reference by its run and the equality of the two networks. -/
theorem algebraic : Cert.algebraic_KernelIdeal_ReferenceIdeal := by
  intro m ρ m' ρ' _ hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KChain.result m ρ regions c), (h c).2⟩)
      (Cert.KernelIdeal.KRun.run_result m ρ)
  · refine (θ_run Cert.ReferenceIdeal.defs _ _).mono (fun _ h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact Cert.Bridge.out_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
